-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "eps_norm_sq" .f32 0x179ABE15#32 ((5316911940649 / 5316911983139663491615228241121378304 : ℝ) : EReal)
  ∧ IdealRules.named_const.Statement Cert.KernelIdeal.κ "inv_temperature" .f32 0x41649249#32 ((134217728 / 9395241 : ℝ) : EReal)
  ∧ IdealRules.named_const.Statement Cert.KernelIdeal.κ "eps_norm_sq" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192 : Shape := ⟨1, ![8192]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : FVec F S8192x1024 .f32) (main_arg2 : IVec S8192 32) (main_arg3 : IVec S8192 32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S8192x1024 : Shape := ⟨2, ![8192, 1024]⟩
abbrev S8192 : Shape := ⟨1, ![8192]⟩
abbrev S1024x1024 : Shape := ⟨2, ![1024, 1024]⟩
abbrev S1024 : Shape := ⟨1, ![1024]⟩
abbrev S1024x1 : Shape := ⟨2, ![1024, 1]⟩
abbrev S8192x1 : Shape := ⟨2, ![8192, 1]⟩
abbrev S1x8192 : Shape := ⟨2, ![1, 8192]⟩
abbrev S1x1024 : Shape := ⟨2, ![1, 1024]⟩
abbrev S1024x128 : Shape := ⟨2, ![1024, 128]⟩
abbrev S1024x8x128 : Shape := ⟨3, ![1024, 8, 128]⟩
abbrev S_ : Shape := ⟨0, ![]⟩

abbrev nBuf : Space → Nat
  | .hbm => 14
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192, .i32⟩
  | .hbm, ⟨3, _⟩ => ⟨S8192, .i32⟩
  | .hbm, ⟨4, _⟩ => ⟨S8192x1024, .bf16⟩
  | .hbm, ⟨5, _⟩ => ⟨S8192x1024, .bf16⟩
  | .hbm, ⟨6, _⟩ => ⟨S8192x1, .i32⟩
  | .hbm, ⟨7, _⟩ => ⟨S1x8192, .i32⟩
  | .hbm, ⟨8, _⟩ => ⟨S8192x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1, .i32⟩
  | .local _ .vmem, ⟨9, _⟩ => ⟨S1024x1, .i32⟩
  | .local _ .vmem, ⟨10, _⟩ => ⟨S1x1024, .i32⟩
  | .local _ .vmem, ⟨11, _⟩ => ⟨S1x1024, .i32⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1, .f32⟩
  | .local _ .vmem, ⟨17, _⟩ => ⟨S1024x1, .f32⟩
  | .local _ .vmem, ⟨18, _⟩ => ⟨S1024x128, .f32⟩
  | .local _ .vmem, ⟨19, _⟩ => ⟨S1024x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc2_stg3_1 : Ref sig .tc := ⟨.vmem, 15, rfl⟩
abbrev cc2_stg4_0 : Ref sig .tc := ⟨.vmem, 16, rfl⟩
abbrev cc2_stg4_1 : Ref sig .tc := ⟨.vmem, 17, rfl⟩
abbrev cc2_scratch0 : Ref sig .tc := ⟨.vmem, 18, rfl⟩
abbrev cc2_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13
abbrev cc2_sem3_0 : DmaSem sig := 14
abbrev cc2_sem3_1 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![8, 8], ![false, false]⟩

def k2_cond2 (i : grid2.Coords) : BitVec 1 :=
  let arg1 : BitVec 32 := BitVec.ofNat 32 (i 1).val
  let c7_i32 : BitVec 32 := 7#32
  let v32 : BitVec 1 := Scalar.cmpi .eq arg1 c7_i32
  let v33 : BitVec 32 := Scalar.extui v32
  let c0_i32_19 : BitVec 32 := 0#32
  let v34 : BitVec 1 := Scalar.cmpi .ne v33 c0_i32_19
  v34

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x1024 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1024x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

class Facts₀ : Prop where
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  broadcasts_S1024x1_S1024x1024 : S1024x1.Broadcasts S1024x1024
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  shapeCasts_S8192_S8192x1 : S8192.ShapeCasts S8192x1
  shapeCasts_S8192_S1x8192 : S8192.ShapeCasts S1x8192
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S1024x1024_S1024x8x128 : S1024x1024.ShapeCasts S1024x8x128
  reduces_S1024x8x128_S1024x128 : S1024x8x128.Reduces [1] S1024x128
  reduces_S1024x128_S1024 : S1024x128.Reduces [1] S1024
  reducesTo_S8192x1_S_d0_1 : S8192x1.ReducesTo [0, 1] S_
  h_S_ : 0 < S_.numel
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .bf16 = 32 ∨ (Rect.block (s := S8192x1024) S1024x1024.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .f32 = 32 ∨ (Rect.block (s := S8192x1024) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S8192x1024.size a
  hwx1_1 : ∀ i : grid1.Coords, EltTy.bits .bf16 = 32 ∨ (Rect.block (s := S8192x1024) S1024x1024.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1.size a ≤ S8192x1.size a
  hwx2_0 : ∀ i : grid2.Coords, EltTy.bits .i32 = 32 ∨ (Rect.block (s := S8192x1) S1024x1.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1024.size a ≤ S1x8192.size a
  hwx2_1 : ∀ i : grid2.Coords, EltTy.bits .i32 = 32 ∨ (Rect.block (s := S1x8192) S1x1024.size (cc2_transform_1 i) (hinb2_1 i)).WholeWords (EltTy.packing .i32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S8192x1024.size a
  hwx2_2 : ∀ i : grid2.Coords, EltTy.bits .bf16 = 32 ∨ (Rect.block (s := S8192x1024) S1024x1024.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S8192x1024.size a
  hwx2_3 : ∀ i : grid2.Coords, EltTy.bits .bf16 = 32 ∨ (Rect.block (s := S8192x1024) S1024x1024.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x1.size a ≤ S8192x1.size a
  hwx2_4 : ∀ i : grid2.Coords, EltTy.bits .f32 = 32 ∨ (Rect.block (s := S8192x1) S1024x1.size (cc2_transform_4 i) (hinb2_4 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x1024.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v2) S1024x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S1x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v0) S1024x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v1) S1024x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v4) S1024x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S8192x1024 : Shape := ⟨2, ![8192, 1024]⟩
abbrev S8192 : Shape := ⟨1, ![8192]⟩
abbrev S_ : Shape := ⟨0, ![]⟩
abbrev S8192x1 : Shape := ⟨2, ![8192, 1]⟩
abbrev S1024x8192 : Shape := ⟨2, ![1024, 8192]⟩
abbrev S8192x8192 : Shape := ⟨2, ![8192, 8192]⟩
abbrev S1x8192 : Shape := ⟨2, ![1, 8192]⟩

abbrev nBuf : Space → Nat
  | .hbm => 61
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192, .i32⟩
  | .hbm, ⟨3, _⟩ => ⟨S8192, .i32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1024x8192, .f32⟩
  | .hbm, ⟨25, _⟩ => ⟨S8192x8192, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S_, .f32⟩
  | .hbm, ⟨35, _⟩ => ⟨S8192x8192, .f32⟩
  | .hbm, ⟨36, _⟩ => ⟨S8192x8192, .f32⟩
  | .hbm, ⟨37, _⟩ => ⟨S8192x8192, .f32⟩
  | .hbm, ⟨38, _⟩ => ⟨S8192x1, .i32⟩
  | .hbm, ⟨39, _⟩ => ⟨S1x8192, .i32⟩
  | .hbm, ⟨40, _⟩ => ⟨S8192x8192, .i32⟩
  | .hbm, ⟨41, _⟩ => ⟨S8192x8192, .i32⟩
  | .hbm, ⟨42, _⟩ => ⟨S8192x8192, .i1⟩
  | .hbm, ⟨43, _⟩ => ⟨S8192x8192, .f32⟩
  | .hbm, ⟨44, _⟩ => ⟨S8192x8192, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S8192x1, .f32⟩
  | .hbm, ⟨55, _⟩ => ⟨S8192x1, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_cst_3 : Ref sig .tc := ⟨.hbm, 30, rfl⟩
abbrev main_call2_v0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_4 : Ref sig .tc := ⟨.hbm, 45, rfl⟩
abbrev main_v23 : Ref sig .tc := ⟨.hbm, 46, rfl⟩
abbrev main_v24 : Ref sig .tc := ⟨.hbm, 47, rfl⟩
abbrev main_cst_5 : Ref sig .tc := ⟨.hbm, 48, rfl⟩
abbrev main_v25 : Ref sig .tc := ⟨.hbm, 49, rfl⟩
abbrev main_v26 : Ref sig .tc := ⟨.hbm, 50, rfl⟩
abbrev main_cst_6 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_7 : Ref sig .tc := ⟨.hbm, 56, rfl⟩
abbrev main_v31 : Ref sig .tc := ⟨.hbm, 57, rfl⟩
abbrev main_cst_8 : Ref sig .tc := ⟨.hbm, 58, rfl⟩
abbrev main_v32 : Ref sig .tc := ⟨.hbm, 59, rfl⟩
abbrev main_v33 : Ref sig .tc := ⟨.hbm, 60, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  transposes_S8192x1024_S1024x8192_1_0 : S8192x1024.Transposes [1, 0] S1024x8192
  bcast_S_S8192x8192 : S_.BroadcastsInDim S8192x8192 (![] : Fin 0 → Fin S8192x8192.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  reducesTo_S8192x1_S_d0_1 : S8192x1.ReducesTo [0, 1] S_
  dot_S8192x1024_S1024x8192_S8192x8192_1_0_0_1_n_n_wf : DotDims.WF S8192x1024 S1024x8192 S8192x8192 [1] [0] [0] [1] [] []

variable [Facts₀]

def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf

class Facts : Prop extends Facts₀ where

variable [Facts]
-- ==== Proof.KNormFrame.lean ====
import proofs.«171512_j22376779612598_2_alg».proof.Proof.Gen.Kernel.Launch
import proofs.«171512_j22376779612598_2_alg».proof.Proof.Gen.Kernel.Skeleton
import proofs.«171512_j22376779612598_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
# The two row-normalizing regions: what each grid step leaves behind

The program's first two regions each sweep an `8192 × 1024` array of 32-bit floats in eight steps. Step `t`
brings rows `1024·t … 1024·t + 1023` into a staging buffer, the body reads that `1024 × 1024` block `x`, and
overwrites the whole of the output staging buffer with one value computed from `x` alone (each row of `x`
scaled by the reciprocal square root of its clamped sum of squares, times a constant, rounded to 16 bits).
The body also reads the output buffer before overwriting it, and discards what it read.

So the effect of a step is a closed function of the input block: the input buffer is left as found, and the
output buffer holds that function of the block, whatever it held before. This file states that per region, at
an arbitrary assignment `V` of contents to the buffers when the region is entered, in the form the pipeline
library's body obligation asks for.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0 -/

/-- The block of window `w` at step `t`: the window's view of its array at that step, read off the contents
    `V` the region starts from. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Whatever proof data one takes over this pipeline, if its input array is `V`'s and its body leaves the input
    block where it found it, then the input staging buffer holds the step's block whenever the body runs. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t := by
  -- an input window: unfetched, its block index has not moved; fetched, the buffer is the block
  have h := dat.before_in_eq_fetched 0 rfl (fun _ => rfl) (fun _ _ _ => rfl) ?_ t d
  · rw [h]
    unfold Dat.fetched Dat.blockOf iblk0
    rw [hA]
    -- the window is uncut: filling the whole buffer with the block leaves the block
    rfl
  · intro s
    rw [hafter s]
    unfold Dat.blockOf iblk0
    rw [hA]

/-- The one rectangle the body touches: the whole `1024 × 1024` block. -/
abbrev r0_0 : Rect S1024x1024 := Rect.unit (s := S1024x1024) ![0, 0] S1024x1024.size inb_S1024x1024_S1024x1024_0_0

/-- The output staging buffer after a step whose input block is `x0`: the single whole-block store, as a list of
    written pieces. -/
def out0_1 (x0 : Vec F S1024x1024 .f32) : Vec F S1024x1024 .bf16 :=
  View.canon [⟨r0_0, k0_pay1 (View.ld x0 r0_0)⟩]

/-- That one piece covers every index of the buffer. -/
theorem cover0_1 (p0 : Vec F S1024x1024 .bf16) (y : S1024x1024.Idx) :
    ∃ pc ∈ ([⟨r0_0, p0⟩] : List (View.Piece (Elt F) S1024x1024 .bf16)), y ∈ pc.1.set := by
  refine ⟨_, List.mem_singleton_self _, ?_⟩
  show y ∈ r0_0.set
  exact View.mem_set_unit_zero (by funext a; fin_cases a <;> rfl) inb_S1024x1024_S1024x1024_0_0 y

set_option maxHeartbeats 1000000 in
/-- The body's triple. Given the input buffer whole at read contents `x0` and the output buffer whole at anything,
    the body runs to a state where the input buffer is unchanged and the output buffer reads `out0_1 x0`. -/
theorem sound_kernel0 (c : Dev nD) (E : Set ℕ) (i : grid0.Coords) (arg1 : Memref sig .tc .vmem S1024x1024 .f32) (harg1 : arg1.IsWhole)
    (arg2 : Memref sig .tc .vmem S1024x1024 .bf16) (harg2 : arg2.IsWhole)
    (x0 : Vec F S1024x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__normalize_kernel i arg1 harg1 arg2 harg2) K := by
  simp only [cc0__normalize_kernel_eq_skeleton]
  unfold cc0__normalize_kernel_skel
  unfold owns
  iintro ⟨⟨%f1, %hf1, H1⟩, ⟨%d2, %f2, -, H2⟩, Hk⟩
  subst hf1
  -- the two loads and the store, run symbolically; then the return
  sl_exec
  sl_step
  iapply Hk
  isplitl [H1]
  · iexists f1
    isplitr
    · ipureintro; rfl
    · iexact H1
  · iexists _
    isplitr
    -- the spatial half first: it fixes the written contents, of which the pure half then speaks
    swap
    · iexact H2
    · ipureintro
      -- a covering list of writes reads back as its canonical contents, whatever was there before
      exact View.read_writes_eq_canon _ _ _ (cover0_1 _)

/-- The proof data of the region on core `c`: arrays as found (`V`); after step `t` the input buffer holds its
    block and the output buffer the body's function of that block; the invariant is the library's standard one (the core's other
    scoped buffers at some contents and its random-generator register at some state, none of which the body reads);
    full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  rfl

theorem after0_0 (c : Dev nD) (t : Fin cfg0.N) : (dat0 V c).after 0 t = iblk0 V c 0 t := by
  dsimp only [dat0]

theorem after0_1 (c : Dev nD) (t : Fin cfg0.N) : (dat0 V c).after 1 t = out0_1 (iblk0 V c 0 t) := by
  dsimp only [dat0]

/-- For this proof data the input buffer holds the step's block whenever the body runs. -/
theorem before0_0 (c : Dev nD) (t : Fin cfg0.N) (d) : (dat0 V c).before 0 t d = iblk0 V c 0 t := by
  exact before0_0_of V (dat0 V c) (A_eq0 V c 0) (after0_0 V c) t d

/-- What the pipeline hands the body at step `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it expects back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at step `t` takes the one to the other. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [after0_0, after0_1]
  -- the invariant and what is owed do not depend on the step
  have hΦ : (dat0 V c).Φ t.succ = (dat0 V c).Φ t.castSucc := rfl
  have ho : (dat0 V c).owesAt () t.succ = (dat0 V c).owesAt () t.castSucc := rfl
  rw [hΦ, ho]
  iintro ⟨HΦ, Ho, ⟨%d0, Hin⟩, ⟨%d1, Hout⟩⟩
  iapply (sound_kernel0 c Set.univ (grid0.coords t) _ _ _ _ (iblk0 V c 0 t) _)
  isplitl [Hin]
  · iexact Hin
  isplitl [Hout]
  · iexists _
    iexact Hout
  -- the body's result, with the untouched invariant and debt put back beside it
  iintro ⟨Hin, Hout⟩
  isplitl [HΦ]
  · iexact HΦ
  isplitl [Ho]
  · iexact Ho
  isplitl [Hin]
  · iexact Hin
  · iexact Hout

/-- The pipeline library's body obligation, at every step. -/
theorem body_obligation0 (c : Dev nD) : BodyObligation (dat0 (F := F) V c) (defs₀ (F := F)) Variants.none () Set.univ := by
  intro t
  rw [bigSep_W0, bigSep_W0]
  exact sound_body0 V c t

/-- One whole-block piece laid over the buffer is that piece's payload, and a whole-block read of `x0` is `x0`. -/
theorem out0_1_eq (x0 : Vec F S1024x1024 .f32) : out0_1 (F := F) x0 = k0_pay1 x0 := by
  have hz : (![0, 0] : Fin S1024x1024.rank → Nat) = fun _ => 0 := by funext a; fin_cases a <;> rfl
  unfold out0_1
  rw [View.canon_unit_zero hz, View.ld_unit_zero hz]

/-! ## Region 1 -/

/-- The block of window `w` at step `t`: the window's view of its array at that step, read off the contents
    `V` the region starts from. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Whatever proof data one takes over this pipeline, if its input array is `V`'s and its body leaves the input
    block where it found it, then the input staging buffer holds the step's block whenever the body runs. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t := by
  -- an input window: unfetched, its block index has not moved; fetched, the buffer is the block
  have h := dat.before_in_eq_fetched 0 rfl (fun _ => rfl) (fun _ _ _ => rfl) ?_ t d
  · rw [h]
    unfold Dat.fetched Dat.blockOf iblk1
    rw [hA]
    -- the window is uncut: filling the whole buffer with the block leaves the block
    rfl
  · intro s
    rw [hafter s]
    unfold Dat.blockOf iblk1
    rw [hA]

/-- The one rectangle the body touches: the whole `1024 × 1024` block. -/
abbrev r1_0 : Rect S1024x1024 := Rect.unit (s := S1024x1024) ![0, 0] S1024x1024.size inb_S1024x1024_S1024x1024_0_0

/-- The output staging buffer after a step whose input block is `x0`: the single whole-block store, as a list of
    written pieces. -/
def out1_1 (x0 : Vec F S1024x1024 .f32) : Vec F S1024x1024 .bf16 :=
  View.canon [⟨r1_0, k1_pay1 (View.ld x0 r1_0)⟩]

/-- That one piece covers every index of the buffer. -/
theorem cover1_1 (p0 : Vec F S1024x1024 .bf16) (y : S1024x1024.Idx) :
    ∃ pc ∈ ([⟨r1_0, p0⟩] : List (View.Piece (Elt F) S1024x1024 .bf16)), y ∈ pc.1.set := by
  refine ⟨_, List.mem_singleton_self _, ?_⟩
  show y ∈ r1_0.set
  exact View.mem_set_unit_zero (by funext a; fin_cases a <;> rfl) inb_S1024x1024_S1024x1024_0_0 y

set_option maxHeartbeats 1000000 in
/-- The body's triple. Given the input buffer whole at read contents `x0` and the output buffer whole at anything,
    the body runs to a state where the input buffer is unchanged and the output buffer reads `out1_1 x0`. -/
theorem sound_kernel1 (c : Dev nD) (E : Set ℕ) (i : grid1.Coords) (arg1 : Memref sig .tc .vmem S1024x1024 .f32) (harg1 : arg1.IsWhole)
    (arg2 : Memref sig .tc .vmem S1024x1024 .bf16) (harg2 : arg2.IsWhole)
    (x0 : Vec F S1024x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__normalize_kernel i arg1 harg1 arg2 harg2) K := by
  simp only [cc1__normalize_kernel_eq_skeleton]
  unfold cc1__normalize_kernel_skel
  unfold owns
  iintro ⟨⟨%f1, %hf1, H1⟩, ⟨%d2, %f2, -, H2⟩, Hk⟩
  subst hf1
  -- the two loads and the store, run symbolically; then the return
  sl_exec
  sl_step
  iapply Hk
  isplitl [H1]
  · iexists f1
    isplitr
    · ipureintro; rfl
    · iexact H1
  · iexists _
    isplitr
    -- the spatial half first: it fixes the written contents, of which the pure half then speaks
    swap
    · iexact H2
    · ipureintro
      -- a covering list of writes reads back as its canonical contents, whatever was there before
      exact View.read_writes_eq_canon _ _ _ (cover1_1 _)

/-- The proof data of the region on core `c`: arrays as found (`V`); after step `t` the input buffer holds its
    block and the output buffer the body's function of that block; the invariant is the library's standard one (the core's other
    scoped buffers at some contents and its random-generator register at some state, none of which the body reads);
    full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  rfl

theorem after1_0 (c : Dev nD) (t : Fin cfg1.N) : (dat1 V c).after 0 t = iblk1 V c 0 t := by
  dsimp only [dat1]

theorem after1_1 (c : Dev nD) (t : Fin cfg1.N) : (dat1 V c).after 1 t = out1_1 (iblk1 V c 0 t) := by
  dsimp only [dat1]

/-- For this proof data the input buffer holds the step's block whenever the body runs. -/
theorem before1_0 (c : Dev nD) (t : Fin cfg1.N) (d) : (dat1 V c).before 0 t d = iblk1 V c 0 t := by
  exact before1_0_of V (dat1 V c) (A_eq1 V c 0) (after1_0 V c) t d

/-- What the pipeline hands the body at step `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it expects back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at step `t` takes the one to the other. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [after1_0, after1_1]
  -- the invariant and what is owed do not depend on the step
  have hΦ : (dat1 V c).Φ t.succ = (dat1 V c).Φ t.castSucc := rfl
  have ho : (dat1 V c).owesAt () t.succ = (dat1 V c).owesAt () t.castSucc := rfl
  rw [hΦ, ho]
  iintro ⟨HΦ, Ho, ⟨%d0, Hin⟩, ⟨%d1, Hout⟩⟩
  iapply (sound_kernel1 c Set.univ (grid1.coords t) _ _ _ _ (iblk1 V c 0 t) _)
  isplitl [Hin]
  · iexact Hin
  isplitl [Hout]
  · iexists _
    iexact Hout
  -- the body's result, with the untouched invariant and debt put back beside it
  iintro ⟨Hin, Hout⟩
  isplitl [HΦ]
  · iexact HΦ
  isplitl [Ho]
  · iexact Ho
  isplitl [Hin]
  · iexact Hin
  · iexact Hout

/-- The pipeline library's body obligation, at every step. -/
theorem body_obligation1 (c : Dev nD) : BodyObligation (dat1 (F := F) V c) (defs₀ (F := F)) Variants.none () Set.univ := by
  intro t
  rw [bigSep_W1, bigSep_W1]
  exact sound_body1 V c t

/-- One whole-block piece laid over the buffer is that piece's payload, and a whole-block read of `x0` is `x0`. -/
theorem out1_1_eq (x0 : Vec F S1024x1024 .f32) : out1_1 (F := F) x0 = k1_pay1 x0 := by
  have hz : (![0, 0] : Fin S1024x1024.rank → Nat) = fun _ => 0 := by funext a; fin_cases a <;> rfl
  unfold out1_1
  rw [View.canon_unit_zero hz, View.ld_unit_zero hz]

end Cert.Kernel.Fr

end
-- ==== Proof.KMatmulDefs.lean ====
import proofs.«171512_j22376779612598_2_alg».proof.Proof.Gen.Kernel.Launch
import proofs.«171512_j22376779612598_2_alg».proof.Proof.Gen.Kernel.Skeleton
import proofs.«171512_j22376779612598_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the region reads -/

/-- Window `w`'s block at grid point `t`, read off the window's array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The two accumulators and the output, point by point -/

/-- The two accumulators the kernel carries from one grid point to the next: whole scoped buffers of its own. -/
abbrev scM2_0 : Memref sig .tc .vmem S1024x128 .f32 := Memref.whole cc2_scratch0
abbrev scM2_1 : Memref sig .tc .vmem S1024x128 .f32 := Memref.whole cc2_scratch1

/-- One grid point's body as a function: from the accumulators `a0`, `a1` it starts from (after the reset at the
    first inner step, if the point is one), the masked partial row sums added to `a0`, the unmasked ones added to
    `a1`, and — what the last inner step stores — the logarithm of the ratio of the two accumulators' row sums.
    The components: (output block, accumulator 0, accumulator 1). -/
def step2 (c : Dev nD) (t : Fin cfg2.N) (a0 a1 : Vec F S1024x128 .f32) :
    Vec F S1024x1 .f32 × Vec F S1024x128 .f32 × Vec F S1024x128 .f32 :=
  (k2_pay1 (k2_pay5 (iblk2 V c 2 t) (iblk2 V c 3 t) (iblk2 V c 0 t) (iblk2 V c 1 t) a0) (k2_pay6 (iblk2 V c 2 t) (iblk2 V c 3 t) a1),
   k2_pay5 (iblk2 V c 2 t) (iblk2 V c 3 t) (iblk2 V c 0 t) (iblk2 V c 1 t) a0,
   k2_pay6 (iblk2 V c 2 t) (iblk2 V c 3 t) a1)

/-- THE ACCUMULATION. What the output window's staging buffer and the two accumulators hold after the body at
    position `n`: at the first inner step of a row of the grid (`n % 8 = 0`) the step from the zeroed
    accumulators, elsewhere the step from what the point before left. (The output component is the step's at every
    point; the body stores it at the last inner step only, and only there is it read.) -/
def outsAt2 (c : Dev nD) : (n : ℕ) → n < cfg2.N → Vec F S1024x1 .f32 × Vec F S1024x128 .f32 × Vec F S1024x128 .f32
  | 0, hn => step2 V c ⟨0, hn⟩ k2_pay2 k2_pay3
  | n + 1, hn =>
    if (n + 1) % 8 = 0 then step2 V c ⟨n + 1, hn⟩ k2_pay2 k2_pay3
    else step2 V c ⟨n + 1, hn⟩ (outsAt2 c n (Nat.lt_of_succ_lt hn)).2.1 (outsAt2 c n (Nat.lt_of_succ_lt hn)).2.2

/-- At the first inner step: the step from the zeroed accumulators. -/
theorem outsAt2_first (c : Dev nD) (t : Fin cfg2.N) (h : t.val % 8 = 0) :
    outsAt2 V c t.val t.isLt = step2 V c t k2_pay2 k2_pay3 := by
  obtain ⟨n, hn⟩ := t
  cases n with
  | zero => rfl
  | succ n => exact if_pos h

/-- At any other inner step: the step from what the point before left. -/
theorem outsAt2_next (c : Dev nD) (t : Fin cfg2.N) (h : t.val % 8 ≠ 0) :
    outsAt2 V c t.val t.isLt = step2 V c t (outsAt2 V c (t.val - 1) (Nat.lt_of_le_of_lt (Nat.sub_le _ _) t.isLt)).2.1
      (outsAt2 V c (t.val - 1) (Nat.lt_of_le_of_lt (Nat.sub_le _ _) t.isLt)).2.2 := by
  obtain ⟨n, hn⟩ := t
  cases n with
  | zero => exact absurd (Nat.zero_mod _) h
  | succ n => exact if_neg h

theorem outsAt2_acc0_first (c : Dev nD) (t : Fin cfg2.N) (h : t.val % 8 = 0) :
    (outsAt2 V c t.val t.isLt).2.1 = k2_pay5 (iblk2 V c 2 t) (iblk2 V c 3 t) (iblk2 V c 0 t) (iblk2 V c 1 t) k2_pay2 := by
  rw [outsAt2_first V c t h]; rfl

theorem outsAt2_acc1_first (c : Dev nD) (t : Fin cfg2.N) (h : t.val % 8 = 0) :
    (outsAt2 V c t.val t.isLt).2.2 = k2_pay6 (iblk2 V c 2 t) (iblk2 V c 3 t) k2_pay3 := by
  rw [outsAt2_first V c t h]; rfl

theorem outsAt2_acc0_next (c : Dev nD) (t : Fin cfg2.N) (h : t.val % 8 ≠ 0) :
    (outsAt2 V c t.val t.isLt).2.1 = k2_pay5 (iblk2 V c 2 t) (iblk2 V c 3 t) (iblk2 V c 0 t) (iblk2 V c 1 t)
      (outsAt2 V c (t.val - 1) (Nat.lt_of_le_of_lt (Nat.sub_le _ _) t.isLt)).2.1 := by
  rw [outsAt2_next V c t h]; rfl

theorem outsAt2_acc1_next (c : Dev nD) (t : Fin cfg2.N) (h : t.val % 8 ≠ 0) :
    (outsAt2 V c t.val t.isLt).2.2 = k2_pay6 (iblk2 V c 2 t) (iblk2 V c 3 t)
      (outsAt2 V c (t.val - 1) (Nat.lt_of_le_of_lt (Nat.sub_le _ _) t.isLt)).2.2 := by
  rw [outsAt2_next V c t h]; rfl

/-- The output component is the logarithm of the accumulators' row-sum ratio (at every point; the hypothesis names
    the points where the body stores it and the pipeline writes it back). -/
theorem outsAt2_out_last (c : Dev nD) (t : Fin cfg2.N) (h : t.val % 8 = 7) :
    (outsAt2 V c t.val t.isLt).1 = k2_pay1 (outsAt2 V c t.val t.isLt).2.1 (outsAt2 V c t.val t.isLt).2.2 := by
  by_cases h0 : t.val % 8 = 0
  · rw [outsAt2_first V c t h0]; rfl
  · rw [outsAt2_next V c t h0]; rfl

/-! ## The region invariant -/

/-- The staging buffers of the program's other two regions, each at some contents: scoped buffers this region
    never touches. -/
def rest2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f))

/-- The region invariant before position `n`: before the first point what the launch hands the region (every scoped
    buffer that is no staging buffer of its own at some contents, the generator register at some state); afterwards
    the same with the two accumulators at what the point before left in them. -/
def PhiS2 (c : Dev nD) : (n : ℕ) → n ≤ cfg2.N → sProp 𝕄
  | 0, _ => Pipeline.ΦA spec2 c
  | n + 1, hn => iprop(iprop(rest2 (F := F) c ∗ owns (c : Thread nD τ) scM2_0 fullShare ((outsAt2 V c n hn).2.1) ∗ owns (c : Thread nD τ) scM2_1 fullShare ((outsAt2 V c n hn).2.2)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(rest2 (F := F) c ∗ owns (c : Thread nD τ) scM2_0 fullShare ((outsAt2 V c n hn).2.1) ∗ owns (c : Thread nD τ) scM2_1 fullShare ((outsAt2 V c n hn).2.2)) ∗ (∃ r, prngReg c r)) := rfl

theorem PhiS2_pos (c : Dev nD) (n : ℕ) (h : n ≤ cfg2.N) (hz : n ≠ 0) :
    PhiS2 V c n h = iprop(iprop(rest2 (F := F) c ∗ owns (c : Thread nD τ) scM2_0 fullShare ((outsAt2 V c (n - 1) (by omega)).2.1) ∗ owns (c : Thread nD τ) scM2_1 fullShare ((outsAt2 V c (n - 1) (by omega)).2.2)) ∗ (∃ r, prngReg c r)) := by
  cases n with
  | zero => exact absurd rfl hz
  | succ n => rfl

/-! ## The pipeline's proof data -/

/-- The proof data of the region's pipeline on core `c`: the arrays as the region finds them (`V`); after the body at
    point `t` each input's buffer at its block and the output's at `outsAt2`'s first component; the invariant `PhiS2`;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

end Cert.Kernel.Fr

end
-- ==== Proof.KMatmulRuns.lean ====
import proofs.«171512_j22376779612598_2_alg».proof.Proof.KMatmulDefs
import Idealize.ShloMosaic.Lib.Pipeline.Value

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two conditions, in closed form over the grid -/

/-- The first `scf.if` of the body (zero the accumulators): the inner grid coordinate is 0. -/
abbrev cond2_0 (i : grid2.Coords) : Prop := (Scalar.cmpi .ne (Scalar.extui (Scalar.cmpi .eq (BitVec.ofNat 32 (i 1).val) 0#32)) 0#32) = 1#1
/-- It holds exactly at the points whose position is a multiple of 8 — decided over the 64 points. -/
theorem hcond2_0 : ∀ t : Fin cfg2.N, cond2_0 (grid2.coords t) ↔ t.val % 8 = 0 :=
  (by decide +kernel : ∀ t : Fin grid2.N, cond2_0 (grid2.coords t) ↔ t.val % 8 = 0)

/-- The second `scf.if` (store the output block): the inner grid coordinate is 7. -/
abbrev cond2_1 (i : grid2.Coords) : Prop := k2_cond2 i = 1#1
/-- It holds exactly at the points whose position is 7 modulo 8 — decided over the 64 points. -/
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
/-- Off the last inner step the output window is idle (the body stores nothing into it) -/
theorem idleAt2_4 : ∀ t : Fin cfg2.N, ¬cond2_1 (grid2.coords t) → cfg2.idle 4 (grid2.coords t) = true := by decide +kernel
/-- and the pipeline does not write its block back; -/
theorem noFlush2_4 : ∀ t : Fin cfg2.N, ¬cond2_1 (grid2.coords t) → (cfg2.win 4).flush t = false := by decide +kernel
/-- at the last inner step it is live. -/
theorem liveAt2_4 : ∀ t : Fin cfg2.N, cond2_1 (grid2.coords t) → cfg2.idle 4 (grid2.coords t) = false := by decide +kernel

/-! ## The staging memrefs at a point, and what the inputs' hold -/

abbrev ms2_0 (t : Fin cfg2.N) : Memref sig .tc .vmem S1024x1 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x1024 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1024 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1024 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x1 .f32 := win2_4.stage (cfg2.slots t 4)
abbrev hs2_4 (t : Fin cfg2.N) : (ms2_4 t).IsWhole := hstage2_4 ((cfg2.slots t 4).cast nbuf2_4)

/-- Each input's current staging buffer holds its block at every point, fetched there or not (an unfetched
    window's block index has not moved since the fetch). -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)

/-! ## The launch's invariant, with the two accumulators taken out -/

/-- What the launch hands the region, regrouped: the other regions' staging buffers, each accumulator at some
    contents, the generator register. -/
theorem PhiA2_open (c : Dev nD) :
    (Pipeline.ΦA spec2 c : sProp 𝕄) ⊢ iprop(iprop(rest2 (F := F) c ∗ (∃ d, owns (c : Thread nD τ) scM2_0 fullShare d) ∗ (∃ d, owns (c : Thread nD τ) scM2_1 fullShare d)) ∗ (∃ r, prngReg c r)) := by
  unfold Pipeline.ΦA rest2; rw [scopedRest2_eq]; simp only [scM2_0, scM2_1, owns_whole]
  iintro ⟨⟨A1, A2, A3, A4, A5, A6, A7, A8, S0, S1⟩, Hg⟩
  iframe

/-- And back. -/
theorem PhiA2_close (c : Dev nD) :
    iprop(iprop(rest2 (F := F) c ∗ (∃ d, owns (c : Thread nD τ) scM2_0 fullShare d) ∗ (∃ d, owns (c : Thread nD τ) scM2_1 fullShare d)) ∗ (∃ r, prngReg c r)) ⊢ (Pipeline.ΦA spec2 c : sProp 𝕄) := by
  unfold Pipeline.ΦA rest2; rw [scopedRest2_eq]; simp only [scM2_0, scM2_1, owns_whole]
  iintro ⟨⟨⟨A1, A2, A3, A4, A5, A6, A7, A8⟩, S0, S1⟩, Hg⟩
  iframe

/-! ## Whole-buffer stores and loads -/

/-- The zero offsets of a whole-buffer access of rank 2, as the constant function. -/
theorem zeros2 : (![0, 0] : Fin 2 → ℕ) = fun _ => 0 := by
  funext a; fin_cases a <;> rfl

/-- A load through the whole-shape rectangle at zero offsets reads the view's contents. -/
theorem readAt_unit_zero {sig' : RefSig} {κ : Kind} {sp : Space} {S : Shape} {e : EltTy} (v : View sig' κ sp S e)
    (f : v.ty.Contents (Elt F)) {off : Fin S.rank → ℕ} (h : off = fun _ => 0) (inb : ∀ a, off a + S.size a ≤ S.size a) :
    v.readAt (Elt F) (Rect.unit off S.size inb).toLoadRect f = v.read (Elt F) f := by
  show View.ld (v.read (Elt F) f) (Rect.unit off S.size inb) = _
  exact View.ld_unit_zero h inb _

/-- After a list of stores whose LAST is a store of `w` through the whole-shape rectangle at zero offsets, the view
    reads `w`, whatever the earlier stores and the prior contents were. -/
theorem read_writes_unit_zero {sig' : RefSig} {κ : Kind} {sp : Space} {S : Shape} {e : EltTy} (v : View sig' κ sp S e)
    (f : v.ty.Contents (Elt F)) {off : Fin S.rank → ℕ} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self .., View.mem_set_unit_zero h inb y⟩),
    View.canon_cons_unit_zero h inb w L]

end Cert.Kernel.Fr

end
-- ==== Proof.KMatmulRunA.lean ====
import proofs.«171512_j22376779612598_2_alg».proof.Proof.KMatmulRuns

/-! The first key block of a row of the grid: both accumulators are reset to zero, and then gain this block's lane
sums — the first the masked ones, the second the unmasked ones. The output block is left as it was. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
theorem kernelRun2_A (c : Dev nD) (i : grid2.Coords) (arg2 : Memref sig .tc .vmem S1024x1 .i32) (harg2 : arg2.IsWhole) (arg3 : Memref sig .tc .vmem S1x1024 .i32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x128 .f32) (harg7 : arg7.IsWhole) (arg8 : Memref sig .tc .vmem S1024x128 .f32) (harg8 : arg8.IsWhole)
    (hc0 : cond2_0 i) (hc1 : ¬cond2_1 i) (x0 : Vec F S1024x1 .i32) (x1 : Vec F S1x1024 .i32) (x2 x3 : Vec F S1024x1024 .bf16) (xi4 : Vec F S1024x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare (k2_pay5 x2 x3 x0 x1 k2_pay2) ∗ owns (c : Thread nD τ) arg8 fullShare (k2_pay6 x2 x3 k2_pay3)) -∗ K ⟨⟩))
      ⊢ wp frame (wpE (defs₀ (F := F)) Variants.none c none) E (cc2__matmul_kernel i arg2 harg2 arg3 harg3 arg4 harg4 arg5 harg5 arg6 harg6 arg7 harg7 arg8 harg8) K := by
  simp only [cc2__matmul_kernel_eq_skeleton]; unfold cc2__matmul_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3
  obtain rfl := harg6.eq_unread hf4
  have e0 : View.readAt (Elt F) arg2.view (Rect.unit (s := S1024x1) ![0, 0] S1024x1.size inb_S1024x1_S1024x1_0_0).toLoadRect (harg2.unread x0) = x0 :=
    (readAt_unit_zero (S := S1024x1) _ _ zeros2 _).trans hf0
  have e1 : View.readAt (Elt F) arg3.view (Rect.unit (s := S1x1024) ![0, 0] S1x1024.size inb_S1x1024_S1x1024_0_0).toLoadRect (harg3.unread x1) = x1 :=
    (readAt_unit_zero (S := S1x1024) _ _ zeros2 _).trans hf1
  have e2 : View.readAt (Elt F) arg4.view (Rect.unit (s := S1024x1024) ![0, 0] S1024x1024.size inb_S1024x1024_S1024x1024_0_0).toLoadRect (harg4.unread x2) = x2 :=
    (readAt_unit_zero (S := S1024x1024) _ _ zeros2 _).trans hf2
  have e3 : View.readAt (Elt F) arg5.view (Rect.unit (s := S1024x1024) ![0, 0] S1024x1024.size inb_S1024x1024_S1024x1024_0_0).toLoadRect (harg5.unread x3) = x3 :=
    (readAt_unit_zero (S := S1024x1024) _ _ zeros2 _).trans hf3
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [HS0]
  · iexists _; isplitr
    swap; · iexact HS0
    ipureintro
    refine (read_writes_unit_zero _ _ zeros2 _ _ _).trans ?_
    sl_unfold_run_names
    exact congrArg (k2_pay5 x2 x3 x0 x1) (View.readCov_unit_zero _ zeros2 _ _)
  iexists _; isplitr
  swap; · iexact HS1
  ipureintro
  refine (read_writes_unit_zero _ _ zeros2 _ _ _).trans ?_
  sl_unfold_run_names
  exact congrArg (k2_pay6 x2 x3) (View.readCov_unit_zero _ zeros2 _ _)

end Cert.Kernel.Fr

end
-- ==== Proof.KMatmulRunB.lean ====
import proofs.«171512_j22376779612598_2_alg».proof.Proof.KMatmulRuns

/-! A middle key block: both accumulators gain this block's lane sums — the first the masked ones, the second the
unmasked ones — over what the block before left. The output block is left as it was. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
theorem kernelRun2_B (c : Dev nD) (i : grid2.Coords) (arg2 : Memref sig .tc .vmem S1024x1 .i32) (harg2 : arg2.IsWhole) (arg3 : Memref sig .tc .vmem S1x1024 .i32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x128 .f32) (harg7 : arg7.IsWhole) (arg8 : Memref sig .tc .vmem S1024x128 .f32) (harg8 : arg8.IsWhole)
    (hc0 : ¬cond2_0 i) (hc1 : ¬cond2_1 i) (x0 : Vec F S1024x1 .i32) (x1 : Vec F S1x1024 .i32) (x2 x3 : Vec F S1024x1024 .bf16) (xi4 : Vec F S1024x1 .f32) (xs0 xs1 : Vec F S1024x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare (k2_pay5 x2 x3 x0 x1 xs0) ∗ owns (c : Thread nD τ) arg8 fullShare (k2_pay6 x2 x3 xs1)) -∗ K ⟨⟩))
      ⊢ wp frame (wpE (defs₀ (F := F)) Variants.none c none) E (cc2__matmul_kernel i arg2 harg2 arg3 harg3 arg4 harg4 arg5 harg5 arg6 harg6 arg7 harg7 arg8 harg8) K := by
  simp only [cc2__matmul_kernel_eq_skeleton]; unfold cc2__matmul_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hfs0; obtain rfl := harg8.eq_unread hfs1
  have e0 : View.readAt (Elt F) arg2.view (Rect.unit (s := S1024x1) ![0, 0] S1024x1.size inb_S1024x1_S1024x1_0_0).toLoadRect (harg2.unread x0) = x0 :=
    (readAt_unit_zero (S := S1024x1) _ _ zeros2 _).trans hf0
  have e1 : View.readAt (Elt F) arg3.view (Rect.unit (s := S1x1024) ![0, 0] S1x1024.size inb_S1x1024_S1x1024_0_0).toLoadRect (harg3.unread x1) = x1 :=
    (readAt_unit_zero (S := S1x1024) _ _ zeros2 _).trans hf1
  have e2 : View.readAt (Elt F) arg4.view (Rect.unit (s := S1024x1024) ![0, 0] S1024x1024.size inb_S1024x1024_S1024x1024_0_0).toLoadRect (harg4.unread x2) = x2 :=
    (readAt_unit_zero (S := S1024x1024) _ _ zeros2 _).trans hf2
  have e3 : View.readAt (Elt F) arg5.view (Rect.unit (s := S1024x1024) ![0, 0] S1024x1024.size inb_S1024x1024_S1024x1024_0_0).toLoadRect (harg5.unread x3) = x3 :=
    (readAt_unit_zero (S := S1024x1024) _ _ zeros2 _).trans hf3
  have es0 : View.readAt (Elt F) arg7.view (Rect.unit (s := S1024x128) ![0, 0] S1024x128.size inb_S1024x128_S1024x128_0_0).toLoadRect (harg7.unread xs0) = xs0 :=
    (readAt_unit_zero (S := S1024x128) _ _ zeros2 _).trans hfs0
  have es1 : View.readAt (Elt F) arg8.view (Rect.unit (s := S1024x128) ![0, 0] S1024x128.size inb_S1024x128_S1024x128_0_0).toLoadRect (harg8.unread xs1) = xs1 :=
    (readAt_unit_zero (S := S1024x128) _ _ zeros2 _).trans hfs1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [HS0]
  · iexists _; isplitr
    swap; · iexact HS0
    ipureintro
    refine (read_writes_unit_zero _ _ zeros2 _ _ _).trans ?_
    rfl
  iexists _; isplitr
  swap; · iexact HS1
  ipureintro
  refine (read_writes_unit_zero _ _ zeros2 _ _ _).trans ?_
  rfl

end Cert.Kernel.Fr

end
-- ==== Proof.KMatmulRunC.lean ====
import proofs.«171512_j22376779612598_2_alg».proof.Proof.KMatmulRuns

/-! The last key block of a row of the grid: both accumulators gain this block's lane sums, and the output block is
stored as log (max (lane sum of the first) δ / lane sum of the second). -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
theorem kernelRun2_C (c : Dev nD) (i : grid2.Coords) (arg2 : Memref sig .tc .vmem S1024x1 .i32) (harg2 : arg2.IsWhole) (arg3 : Memref sig .tc .vmem S1x1024 .i32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x128 .f32) (harg7 : arg7.IsWhole) (arg8 : Memref sig .tc .vmem S1024x128 .f32) (harg8 : arg8.IsWhole)
    (hc0 : ¬cond2_0 i) (hc1 : cond2_1 i) (x0 : Vec F S1024x1 .i32) (x1 : Vec F S1x1024 .i32) (x2 x3 : Vec F S1024x1024 .bf16) (xs0 xs1 : Vec F S1024x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k2_pay1 (k2_pay5 x2 x3 x0 x1 xs0) (k2_pay6 x2 x3 xs1))
            ∗ owns (c : Thread nD τ) arg7 fullShare (k2_pay5 x2 x3 x0 x1 xs0) ∗ owns (c : Thread nD τ) arg8 fullShare (k2_pay6 x2 x3 xs1)) -∗ K ⟨⟩))
      ⊢ wp frame (wpE (defs₀ (F := F)) Variants.none c none) E (cc2__matmul_kernel i arg2 harg2 arg3 harg3 arg4 harg4 arg5 harg5 arg6 harg6 arg7 harg7 arg8 harg8) K := by
  simp only [cc2__matmul_kernel_eq_skeleton]; unfold cc2__matmul_kernel_skel
  simp only [k2_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3
  obtain rfl := harg7.eq_unread hfs0; obtain rfl := harg8.eq_unread hfs1
  have e0 : View.readAt (Elt F) arg2.view (Rect.unit (s := S1024x1) ![0, 0] S1024x1.size inb_S1024x1_S1024x1_0_0).toLoadRect (harg2.unread x0) = x0 :=
    (readAt_unit_zero (S := S1024x1) _ _ zeros2 _).trans hf0
  have e1 : View.readAt (Elt F) arg3.view (Rect.unit (s := S1x1024) ![0, 0] S1x1024.size inb_S1x1024_S1x1024_0_0).toLoadRect (harg3.unread x1) = x1 :=
    (readAt_unit_zero (S := S1x1024) _ _ zeros2 _).trans hf1
  have e2 : View.readAt (Elt F) arg4.view (Rect.unit (s := S1024x1024) ![0, 0] S1024x1024.size inb_S1024x1024_S1024x1024_0_0).toLoadRect (harg4.unread x2) = x2 :=
    (readAt_unit_zero (S := S1024x1024) _ _ zeros2 _).trans hf2
  have e3 : View.readAt (Elt F) arg5.view (Rect.unit (s := S1024x1024) ![0, 0] S1024x1024.size inb_S1024x1024_S1024x1024_0_0).toLoadRect (harg5.unread x3) = x3 :=
    (readAt_unit_zero (S := S1024x1024) _ _ zeros2 _).trans hf3
  have es0 : View.readAt (Elt F) arg7.view (Rect.unit (s := S1024x128) ![0, 0] S1024x128.size inb_S1024x128_S1024x128_0_0).toLoadRect (harg7.unread xs0) = xs0 :=
    (readAt_unit_zero (S := S1024x128) _ _ zeros2 _).trans hfs0
  have es1 : View.readAt (Elt F) arg8.view (Rect.unit (s := S1024x128) ![0, 0] S1024x128.size inb_S1024x128_S1024x128_0_0).toLoadRect (harg8.unread xs1) = xs1 :=
    (readAt_unit_zero (S := S1024x128) _ _ zeros2 _).trans hfs1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    refine (read_writes_unit_zero _ _ zeros2 _ _ _).trans ?_
    sl_unfold_run_names
    exact congrArg₂ k2_pay1 (View.readCov_unit_zero _ zeros2 _ _) (View.readCov_unit_zero _ zeros2 _ _)
  isplitl [HS0]
  · iexists _; isplitr
    swap; · iexact HS0
    ipureintro
    sl_unfold_run_names
    exact read_writes_unit_zero _ _ zeros2 _ _ _
  iexists _; isplitr
  swap; · iexact HS1
  ipureintro
  sl_unfold_run_names
  exact read_writes_unit_zero _ _ zeros2 _ _ _

end Cert.Kernel.Fr

end
-- ==== Proof.KMatmulFrame.lean ====
import proofs.«171512_j22376779612598_2_alg».proof.Proof.KMatmulRunA
import proofs.«171512_j22376779612598_2_alg».proof.Proof.KMatmulRunB
import proofs.«171512_j22376779612598_2_alg».proof.Proof.KMatmulRunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The invariant, with the accumulators' contents forgotten -/

/-- Before any position the invariant gives the other regions' staging buffers, each accumulator at some contents and
    the generator register: before the first point this is the launch's invariant regrouped, afterwards the named
    contents are forgotten. -/
theorem PhiS2_open (c : Dev nD) (n : ℕ) (h : n ≤ cfg2.N) :
    PhiS2 V c n h ⊢ iprop(iprop(rest2 (F := F) c ∗ (∃ d, owns (c : Thread nD τ) scM2_0 fullShare d) ∗ (∃ d, owns (c : Thread nD τ) scM2_1 fullShare d)) ∗ (∃ r, prngReg c r)) := by
  cases n with
  | zero => exact PhiA2_open c
  | succ n =>
    rw [PhiS2_succ]
    iintro ⟨⟨HR, HS0, HS1⟩, Hg⟩
    isplitl [HR HS0 HS1]
    · isplitl [HR]; · iexact HR
      isplitl [HS0]; · iexists _; iexact HS0
      iexists _; iexact HS1
    iexact Hg

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point. The inputs' buffers hold their blocks; the position modulo 8 says which of the three
    control cases the point is in. At the first inner step the accumulators are handed over at anything (the run zeroes
    them) and come back at the step from the zeroed ones; elsewhere they are handed over at what the point before left
    and come back at the step from that. Off the last inner step the output window is idle and its buffer goes back
    untouched; at the last inner step it comes back at the logarithm of the accumulators' row-sum ratio. The core owes
    nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  have hN : t.val < 64 := lt_of_lt_of_eq t.isLt (show cfg2.N = 64 from N_2)
  by_cases h0 : t.val % 8 = 0
  · -- the first inner step: both accumulators zeroed, then accumulated into
    have hc0 : cond2_0 (grid2.coords t) := (hcond2_0 t).mpr h0
    have hc1 : ¬cond2_1 (grid2.coords t) := fun h => by have := (hcond2_1 t).mp h; omega
    rw [Dat.leavesExact_idle (dat2 V c) 4 t (idleAt2_4 t hc1) (noFlush2_4 t hc1)]
    rw [outsAt2_acc0_first V c t h0, outsAt2_acc1_first V c t h0]
    rw [PhiS2_castSucc V c t]
    refine (sep_mono_left (PhiS2_open V c _ _)).trans ?_
    iintro ⟨⟨⟨HR, HS0, HS1⟩, Hg⟩, Ho, ⟨%d0, H0⟩, ⟨%d1, H1⟩, ⟨%d2, H2⟩, ⟨%d3, H3⟩, ⟨%d4, H4⟩⟩
    iapply (kernelRun2_A c (grid2.coords t) _ _ _ _ _ _ _ _ _ _ _ _ _ _ hc0 hc1 (iblk2 V c 0 t) (iblk2 V c 1 t) (iblk2 V c 2 t) (iblk2 V c 3 t) _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [HR HS0 HS1 Hg]
    · isplitl [HR HS0 HS1]
      · isplitl [HR]; · iexact HR
        isplitl [HS0]; · iexact HS0
        iexact HS1
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    have hc0 : ¬cond2_0 (grid2.coords t) := fun h => h0 ((hcond2_0 t).mp h)
    rw [outsAt2_acc0_next V c t h0, outsAt2_acc1_next V c t h0]
    rw [PhiS2_castSucc V c t, PhiS2_pos V c _ _ hz]
    by_cases h7 : t.val % 8 = 7
    · -- the last inner step: accumulate, then store the output block
      have hc1 : cond2_1 (grid2.coords t) := (hcond2_1 t).mpr h7
      rw [show (dat2 V c).leavesExact 4 t = owns (c : Thread nD τ) (ms2_4 t) fullShare ((dat2 V c).after 4 t) from by
        unfold Dat.leavesExact; rw [liveAt2_4 t hc1], after2_4]
      rw [outsAt2_out_last V c t h7]
      rw [outsAt2_acc0_next V c t h0, outsAt2_acc1_next V c t h0]
      iintro ⟨⟨⟨HR, HS0, HS1⟩, Hg⟩, Ho, ⟨%d0, H0⟩, ⟨%d1, H1⟩, ⟨%d2, H2⟩, ⟨%d3, H3⟩, ⟨%d4, H4⟩⟩
      iapply (kernelRun2_C c (grid2.coords t) _ _ _ _ _ _ _ _ _ _ _ _ _ _ hc0 hc1 (iblk2 V c 0 t) (iblk2 V c 1 t) (iblk2 V c 2 t) (iblk2 V c 3 t) _ _ Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HR HS0 HS1 Hg]
      · isplitl [HR HS0 HS1]
        · isplitl [HR]; · iexact HR
          isplitl [HS0]; · iexact HS0
          iexact HS1
        iexact Hg
      isplitl [Ho]; · iexact Ho
      isplitl [H0]; · iexact H0
      isplitl [H1]; · iexact H1
      isplitl [H2]; · iexact H2
      isplitl [H3]; · iexact H3
      iexact H4
    · -- a middle inner step: accumulate only
      have hc1 : ¬cond2_1 (grid2.coords t) := fun h => h7 ((hcond2_1 t).mp h)
      rw [Dat.leavesExact_idle (dat2 V c) 4 t (idleAt2_4 t hc1) (noFlush2_4 t hc1)]
      iintro ⟨⟨⟨HR, HS0, HS1⟩, Hg⟩, Ho, ⟨%d0, H0⟩, ⟨%d1, H1⟩, ⟨%d2, H2⟩, ⟨%d3, H3⟩, ⟨%d4, H4⟩⟩
      iapply (kernelRun2_B c (grid2.coords t) _ _ _ _ _ _ _ _ _ _ _ _ _ _ hc0 hc1 (iblk2 V c 0 t) (iblk2 V c 1 t) (iblk2 V c 2 t) (iblk2 V c 3 t) _ _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HR HS0 HS1 Hg]
      · isplitl [HR HS0 HS1]
        · isplitl [HR]; · iexact HR
          isplitl [HS0]; · iexact HS0
          iexact HS1
        iexact Hg
      isplitl [Ho]; · iexact Ho
      isplitl [H0]; · iexact H0
      isplitl [H1]; · iexact H1
      isplitl [H2]; · iexact H2
      isplitl [H3]; · iexact H3
      iexists _; iexact H4

/-- The library's body obligation for the region, at every grid point. -/
theorem body_obligation2 (c : Dev nD) : BodyObligation (dat2 (F := F) V c) (defs₀ (F := F)) Variants.none () Set.univ := by
  intro t
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the launch's back: the accumulators' contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl]
  exact (PhiS2_open V c _ _).trans (PhiA2_close c)

end Cert.Kernel.Fr

end
-- ==== Proof.KSegments.lean ====
import proofs.«171512_j22376779612598_2_alg».proof.Proof.KNormFrame
import proofs.«171512_j22376779612598_2_alg».proof.Proof.KMatmulFrame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The whole run: three kernel regions and two stretches of host operations

The program is, in order: the region that normalizes the rows of the first feature matrix, the region that
normalizes the rows of the second, two reshapes of the label vectors, the region that accumulates the row sums of
exponentials and takes the logarithm of their ratio, and the final reduction to minus the mean.

Between two consecutive items every buffer of the core has definite contents, obtained from the launch memory by
folding the items before: a stretch of host operations replaces the buffers it writes by the operations' values, and
a region replaces each of its windows' arrays by what its write-backs leave there (an input's array is left as it
was). This file names those contents (`W0` … `W5`), shows that no item touches an argument array, packages each
region as a segment entered at one of these contents and left at the next, and concludes that every weakly fair
execution terminates with every buffer at `W5`.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents of the buffers between items -/

/-- At launch. -/
abbrev W0 : Dev nD → Valuation τ sig (Elt F) := fun c b => (s₀ m ρ).mem ((c : Dev nD), b)
/-- The same, read at the TensorCore's references: what the first region is entered at. -/
abbrev U0 : (c : Dev nD) → (b : Ref sig .tc) → Buf (Elt F) ((c : Thread nD τ).loc b) := fun c b => W0 m ρ c b
/-- After the first region: its output array at what its eight write-backs leave. -/
def W1 (c : Dev nD) : Valuation τ sig (Elt F) :=
  Pipeline.withArrays spec0 c (W0 m ρ c) fun w => (dat0 (U0 m ρ) c).arrAt w cfg0.N
abbrev U1 : (c : Dev nD) → (b : Ref sig .tc) → Buf (Elt F) ((c : Thread nD τ).loc b) := fun c b => W1 m ρ c b
/-- After the second region. -/
def W2 (c : Dev nD) : Valuation τ sig (Elt F) :=
  Pipeline.withArrays spec1 c (W1 m ρ c) fun w => (dat1 (U1 m ρ) c).arrAt w cfg1.N
/-- After the two reshapes of the labels. -/
abbrev W3 : Dev nD → Valuation τ sig (Elt F) := fun c => StableHlo.after hostOps2 (W2 m ρ c)
abbrev U3 : (c : Dev nD) → (b : Ref sig .tc) → Buf (Elt F) ((c : Thread nD τ).loc b) := fun c b => W3 m ρ c b
/-- After the third region. -/
def W4 (c : Dev nD) : Valuation τ sig (Elt F) :=
  Pipeline.withArrays spec2 c (W3 m ρ c) fun w => (dat2 (U3 m ρ) c).arrAt w cfg2.N
/-- After the final reduction, division and negation: the contents the program ends with. -/
abbrev W5 : Dev nD → Valuation τ sig (Elt F) := fun c => StableHlo.after hostOps3 (W4 m ρ c)

theorem W1_arr (c : Dev nD) (w : Fin cfg0.W) :
    W1 m ρ c (Proc.devRef .tc (Pipeline.arrRef spec0 w)) = (dat0 (U0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
theorem W2_arr (c : Dev nD) (w : Fin cfg1.W) :
    W2 m ρ c (Proc.devRef .tc (Pipeline.arrRef spec1 w)) = (dat1 (U1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
theorem W4_arr (c : Dev nD) (w : Fin cfg2.W) :
    W4 m ρ c (Proc.devRef .tc (Pipeline.arrRef spec2 w)) = (dat2 (U3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb

abbrev U2 : (c : Dev nD) → (b : Ref sig .tc) → Buf (Elt F) ((c : Thread nD τ).loc b) := fun c b => W2 m ρ c b
abbrev U4 : (c : Dev nD) → (b : Ref sig .tc) → Buf (Elt F) ((c : Thread nD τ).loc b) := fun c b => W4 m ρ c b

/-- A region's exit contents hold, at each of its arrays, what the pipeline leaves, and elsewhere what was there. -/
theorem hF0 (c : Dev nD) (w : Fin cfg0.W) : (dat0 (U0 m ρ) c).arrAt w cfg0.N = U1 m ρ c (Pipeline.arrRef spec0 w) :=
  (W1_arr m ρ c w).symm
theorem hrest0 (c : Dev nD) : ∀ b, b ∉ Finset.univ.image (Pipeline.arrRef spec0) → U1 m ρ c b = U0 m ρ c b :=
  fun b hb => W1_of_ne m ρ c b fun w e => hb (Finset.mem_image.mpr ⟨w, Finset.mem_univ _, e⟩)
theorem hF1 (c : Dev nD) (w : Fin cfg1.W) : (dat1 (U1 m ρ) c).arrAt w cfg1.N = U2 m ρ c (Pipeline.arrRef spec1 w) :=
  (W2_arr m ρ c w).symm
theorem hrest1 (c : Dev nD) : ∀ b, b ∉ Finset.univ.image (Pipeline.arrRef spec1) → U2 m ρ c b = U1 m ρ c b :=
  fun b hb => W2_of_ne m ρ c b fun w e => hb (Finset.mem_image.mpr ⟨w, Finset.mem_univ _, e⟩)
theorem hF2 (c : Dev nD) (w : Fin cfg2.W) : (dat2 (U3 m ρ) c).arrAt w cfg2.N = U4 m ρ c (Pipeline.arrRef spec2 w) :=
  (W4_arr m ρ c w).symm
theorem hrest2 (c : Dev nD) : ∀ b, b ∉ Finset.univ.image (Pipeline.arrRef spec2) → U4 m ρ c b = U3 m ρ c b :=
  fun b hb => W4_of_ne m ρ c b fun w e => hb (Finset.mem_image.mpr ⟨w, Finset.mem_univ _, e⟩)

/-! ## No item writes an argument array -/

/-- A stretch of host operations leaves alone a buffer none of them writes. -/
theorem after2_of (c : Dev nD) (b : Ref sig .tc) (hb : b ≠ main_v2 ∧ b ≠ main_v3) :
    W3 m ρ c (Proc.devRef .tc b) = W2 m ρ c (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes,
      StableHlo.reshape_writes, Finset.mem_singleton]
    exact ⟨StableHlo.devRef_ne_of_ne hb.1, StableHlo.devRef_ne_of_ne hb.2⟩))
theorem after3_of (c : Dev nD) (b : Ref sig .tc)
    (hb : b ≠ main_cst ∧ b ≠ main_v5 ∧ b ≠ main_cst_0 ∧ b ≠ main_v6 ∧ b ≠ main_v7) :
    W5 m ρ c (Proc.devRef .tc b) = W4 m ρ c (Proc.devRef .tc b) :=
  StableHlo.after_of_forall_not_mem (b := Proc.devRef .tc b) _ _ (List.forall_iff_forall_mem.mp (by
    simp only [hostOps3, List.Forall, StableHlo.nullary_writes, StableHlo.unary_writes, StableHlo.binary_writes,
      StableHlo.reshape_writes, Finset.mem_singleton]
    exact ⟨StableHlo.devRef_ne_of_ne hb.1, StableHlo.devRef_ne_of_ne hb.2.1, StableHlo.devRef_ne_of_ne hb.2.2.1,
      StableHlo.devRef_ne_of_ne hb.2.2.2.1, StableHlo.devRef_ne_of_ne hb.2.2.2.2⟩))

/-- The first feature matrix ends as launched: the first region reads it through an input window, nothing else touches it. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := after3_of m ρ c main_arg0 (by decide)
    _ = W3 m ρ c (Proc.devRef .tc main_arg0) := W4_of_ne m ρ c main_arg0 (by decide)
    _ = W2 m ρ c (Proc.devRef .tc main_arg0) := after2_of m ρ c main_arg0 (by decide)
    _ = W1 m ρ c (Proc.devRef .tc main_arg0) := W2_of_ne m ρ c main_arg0 (by decide)
    _ = W0 m ρ c (Proc.devRef .tc main_arg0) := (W1_arr m ρ c 0).trans (((dat0 (U0 m ρ) c).arrAt_in 0 rfl _).trans (A_eq0 (U0 m ρ) c 0))
    _ = m ((c : Thread nD τ).loc main_arg0) := rfl
/-- The second feature matrix: the second region reads it through an input window. -/
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := after3_of m ρ c main_arg1 (by decide)
    _ = W3 m ρ c (Proc.devRef .tc main_arg1) := W4_of_ne m ρ c main_arg1 (by decide)
    _ = W2 m ρ c (Proc.devRef .tc main_arg1) := after2_of m ρ c main_arg1 (by decide)
    _ = W1 m ρ c (Proc.devRef .tc main_arg1) := (W2_arr m ρ c 0).trans (((dat1 (U1 m ρ) c).arrAt_in 0 rfl _).trans (A_eq1 (U1 m ρ) c 0))
    _ = W0 m ρ c (Proc.devRef .tc main_arg1) := W1_of_ne m ρ c main_arg1 (by decide)
    _ = m ((c : Thread nD τ).loc main_arg1) := rfl
/-- The label vectors are read only by the reshapes. -/
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := after3_of m ρ c main_arg2 (by decide)
    _ = W3 m ρ c (Proc.devRef .tc main_arg2) := W4_of_ne m ρ c main_arg2 (by decide)
    _ = W2 m ρ c (Proc.devRef .tc main_arg2) := after2_of m ρ c main_arg2 (by decide)
    _ = W1 m ρ c (Proc.devRef .tc main_arg2) := W2_of_ne m ρ c main_arg2 (by decide)
    _ = W0 m ρ c (Proc.devRef .tc main_arg2) := W1_of_ne m ρ c main_arg2 (by decide)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := after3_of m ρ c main_arg3 (by decide)
    _ = W3 m ρ c (Proc.devRef .tc main_arg3) := W4_of_ne m ρ c main_arg3 (by decide)
    _ = W2 m ρ c (Proc.devRef .tc main_arg3) := after2_of m ρ c main_arg3 (by decide)
    _ = W1 m ρ c (Proc.devRef .tc main_arg3) := W2_of_ne m ρ c main_arg3 (by decide)
    _ = W0 m ρ c (Proc.devRef .tc main_arg3) := W1_of_ne m ρ c main_arg3 (by decide)
    _ = m ((c : Thread nD τ).loc main_arg3) := rfl

/-! ## The proof data of the three pipelines, and what rides beside the buffers -/

/-- No pipeline has a prefetched table. -/
abbrev adm : (p : Fin 3) → (pcfgs (F := F) p).Adm := fun p => (cfgs p).toPCfg_adm
/-- Each pipeline's proof data at the contents its region is entered at. -/
def pdats : (p : Fin 3) → (c : Dev nD) → Dat τ (Elt F) Unit ℕ (UR sig nD τ) ℕ (Pipeline.pin (pcfgs (F := F)) adm p) c
  | ⟨0, _⟩ => fun c => dat0 (U0 m ρ) c
  | ⟨1, _⟩ => fun c => dat1 (U1 m ρ) c
  | ⟨2, _⟩ => fun c => dat2 (U3 m ρ) c
abbrev 𝒱₀ : Variants := Variants.none
/-- No core waits on another: no level is assigned. -/
abbrev L : GSem nD τ sig → Finset Unit := fun _ => ∅
abbrev lv : GSem nD τ sig → Unit → ℕ := fun _ _ => 0
/-- Beside the buffers, through every item: the core's generator register at some state, and the core owing nothing. -/
abbrev R (c : Dev nD) : sProp 𝕄 := iprop((∃ r, prngReg c r) ∗ ∃ W, owes (c : Thread nD τ) (0 : CellTallies nD τ sig Unit) W)

/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps2_fresh' : (hostOps2 : List (HloOp τ sig (Elt F))).Forall fun op => op.fresh = ∅ := by
  simp only [List.Forall]; repeat' constructor
theorem hostOps3_fresh' : (hostOps3 : List (HloOp τ sig (Elt F))).Forall fun op => op.fresh = ∅ := by
  simp only [List.Forall]; repeat' constructor
/-- An unscoped reference of the TensorCore is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without the `owes`: every unscoped buffer at `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- The first region: entered with every unscoped buffer at `W0`, left with them at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (U0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U0 m ρ c) (U1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: from `W1` to `W2`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (U1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U1 m ρ c) (U2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third region: from `W3` to `W4`. Its invariant carries the two accumulators from step to step; what it is
    given at the first step and what it returns after the last are the same as for the other two regions. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (U3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show iprop((∃ r, prngReg c r) ∗ Pipeline.prefHeld (pcfgs (F := F) 2).pre c (fun _ => fullShare) (adm 2).1
          ∗ Pipeline.scopedRest (Pipeline.pin (pcfgs (F := F)) adm 2).spec c) ⊢ Pipeline.ΦA spec2 c from by
      unfold Pipeline.ΦA
      iintro ⟨Hp, -, Hr⟩
      isplitl [Hr]; · iexact Hr
      iexact Hp).trans (hin2 (U3 m ρ) c)
  hout c :=
    (show (pdats m ρ 2 c).Φ (Fin.last _) ⊢ Pipeline.ΦA spec2 c from hout2 (U3 m ρ) c).trans (by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U3 m ρ c) (U4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its five segments, and the run -/

abbrev segs : List (Pipeline.Seg (pcfgs (F := F)) adm (pdats m ρ) () defs₀ 𝒱₀ L lv) :=
  [ .region (reg0 m ρ),
    .region (reg1 m ρ),
    .host (hseg hostOps2 hostOps2_sub hostOps2_fresh' (W2 m ρ)),
    .region (reg2 m ρ),
    .host (hseg hostOps3 hostOps3_sub hostOps3_fresh' (W4 m ρ)) ]

/-- The program is the run of these segments. -/
theorem main_run (c : Dev nD) : main (F := F) c = Pipeline.Seg.run (segs m ρ) := (main_chain c).trans (by chain_rfl)

set_option backward.isDefEq.respectTransparency.types false in
/-- THE RUN. From any memory `m` with every semaphore at zero, every weakly fair execution of the program on the
    TensorCores terminates without a fault, and every final memory holds, at every unscoped buffer of every core, the
    contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩) (run_all m ρ)

end Cert.Kernel.Fr

end
-- ==== Proof.NormFrame.lean ====
import proofs.«171512_j22376779612598_2_alg».proof.Proof.Gen.KernelIdeal.Launch
import proofs.«171512_j22376779612598_2_alg».proof.Proof.Gen.KernelIdeal.Skeleton
import proofs.«171512_j22376779612598_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
# The two row-normalizing regions: what each grid step leaves behind

The program's first two regions each sweep an `8192 × 1024` array of 32-bit floats in eight steps. Step `t`
brings rows `1024·t … 1024·t + 1023` into a staging buffer, the body reads that `1024 × 1024` block `x`, and
overwrites the whole of the output staging buffer with one value computed from `x` alone (each row of `x`
scaled by the reciprocal square root of its clamped sum of squares, times a constant, rounded to 16 bits).
The body also reads the output buffer before overwriting it, and discards what it read.

So the effect of a step is a closed function of the input block: the input buffer is left as found, and the
output buffer holds that function of the block, whatever it held before. This file states that per region, at
an arbitrary assignment `V` of contents to the buffers when the region is entered, in the form the pipeline
library's body obligation asks for.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## Region 0 -/

/-- The block of window `w` at step `t`: the window's view of its array at that step, read off the contents
    `V` the region starts from. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Whatever proof data one takes over this pipeline, if its input array is `V`'s and its body leaves the input
    block where it found it, then the input staging buffer holds the step's block whenever the body runs. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t := by
  -- an input window: unfetched, its block index has not moved; fetched, the buffer is the block
  have h := dat.before_in_eq_fetched 0 rfl (fun _ => rfl) (fun _ _ _ => rfl) ?_ t d
  · rw [h]
    unfold Dat.fetched Dat.blockOf iblk0
    rw [hA]
    -- the window is uncut: filling the whole buffer with the block leaves the block
    rfl
  · intro s
    rw [hafter s]
    unfold Dat.blockOf iblk0
    rw [hA]

/-- The one rectangle the body touches: the whole `1024 × 1024` block. -/
abbrev r0_0 : Rect S1024x1024 := Rect.unit (s := S1024x1024) ![0, 0] S1024x1024.size inb_S1024x1024_S1024x1024_0_0

/-- The output staging buffer after a step whose input block is `x0`: the single whole-block store, as a list of
    written pieces. -/
def out0_1 (x0 : Vec F S1024x1024 .f32) : Vec F S1024x1024 .bf16 :=
  View.canon [⟨r0_0, k0_pay1 (View.ld x0 r0_0)⟩]

/-- That one piece covers every index of the buffer. -/
theorem cover0_1 (p0 : Vec F S1024x1024 .bf16) (y : S1024x1024.Idx) :
    ∃ pc ∈ ([⟨r0_0, p0⟩] : List (View.Piece (Elt F) S1024x1024 .bf16)), y ∈ pc.1.set := by
  refine ⟨_, List.mem_singleton_self _, ?_⟩
  show y ∈ r0_0.set
  exact View.mem_set_unit_zero (by funext a; fin_cases a <;> rfl) inb_S1024x1024_S1024x1024_0_0 y

set_option maxHeartbeats 1000000 in
/-- The body's triple. Given the input buffer whole at read contents `x0` and the output buffer whole at anything,
    the body runs to a state where the input buffer is unchanged and the output buffer reads `out0_1 x0`. -/
theorem sound_kernel0 (c : Dev nD) (E : Set ℕ) (i : grid0.Coords) (arg1 : Memref sig .tc .vmem S1024x1024 .f32) (harg1 : arg1.IsWhole)
    (arg2 : Memref sig .tc .vmem S1024x1024 .bf16) (harg2 : arg2.IsWhole)
    (x0 : Vec F S1024x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__normalize_kernel i arg1 harg1 arg2 harg2) K := by
  simp only [cc0__normalize_kernel_eq_skeleton]
  unfold cc0__normalize_kernel_skel
  unfold owns
  iintro ⟨⟨%f1, %hf1, H1⟩, ⟨%d2, %f2, -, H2⟩, Hk⟩
  subst hf1
  -- the two loads and the store, run symbolically; then the return
  sl_exec
  sl_step
  iapply Hk
  isplitl [H1]
  · iexists f1
    isplitr
    · ipureintro; rfl
    · iexact H1
  · iexists _
    isplitr
    -- the spatial half first: it fixes the written contents, of which the pure half then speaks
    swap
    · iexact H2
    · ipureintro
      -- a covering list of writes reads back as its canonical contents, whatever was there before
      exact View.read_writes_eq_canon _ _ _ (cover0_1 _)

/-- The proof data of the region on core `c`: arrays as found (`V`); after step `t` the input buffer holds its
    block and the output buffer the body's function of that block; the invariant is the library's standard one (the core's other
    scoped buffers at some contents and its random-generator register at some state, none of which the body reads);
    full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  rfl

theorem after0_0 (c : Dev nD) (t : Fin cfg0.N) : (dat0 V c).after 0 t = iblk0 V c 0 t := by
  dsimp only [dat0]

theorem after0_1 (c : Dev nD) (t : Fin cfg0.N) : (dat0 V c).after 1 t = out0_1 (iblk0 V c 0 t) := by
  dsimp only [dat0]

/-- For this proof data the input buffer holds the step's block whenever the body runs. -/
theorem before0_0 (c : Dev nD) (t : Fin cfg0.N) (d) : (dat0 V c).before 0 t d = iblk0 V c 0 t := by
  exact before0_0_of V (dat0 V c) (A_eq0 V c 0) (after0_0 V c) t d

/-- What the pipeline hands the body at step `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it expects back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at step `t` takes the one to the other. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [after0_0, after0_1]
  -- the invariant and what is owed do not depend on the step
  have hΦ : (dat0 V c).Φ t.succ = (dat0 V c).Φ t.castSucc := rfl
  have ho : (dat0 V c).owesAt () t.succ = (dat0 V c).owesAt () t.castSucc := rfl
  rw [hΦ, ho]
  iintro ⟨HΦ, Ho, ⟨%d0, Hin⟩, ⟨%d1, Hout⟩⟩
  iapply (sound_kernel0 c Set.univ (grid0.coords t) _ _ _ _ (iblk0 V c 0 t) _)
  isplitl [Hin]
  · iexact Hin
  isplitl [Hout]
  · iexists _
    iexact Hout
  -- the body's result, with the untouched invariant and debt put back beside it
  iintro ⟨Hin, Hout⟩
  isplitl [HΦ]
  · iexact HΦ
  isplitl [Ho]
  · iexact Ho
  isplitl [Hin]
  · iexact Hin
  · iexact Hout

/-- The pipeline library's body obligation, at every step. -/
theorem body_obligation0 (c : Dev nD) : BodyObligation (dat0 (F := F) V c) (defs₀ (F := F)) Variants.none () Set.univ := by
  intro t
  rw [bigSep_W0, bigSep_W0]
  exact sound_body0 V c t

/-- One whole-block piece laid over the buffer is that piece's payload, and a whole-block read of `x0` is `x0`. -/
theorem out0_1_eq (x0 : Vec F S1024x1024 .f32) : out0_1 (F := F) x0 = k0_pay1 x0 := by
  have hz : (![0, 0] : Fin S1024x1024.rank → Nat) = fun _ => 0 := by funext a; fin_cases a <;> rfl
  unfold out0_1
  rw [View.canon_unit_zero hz, View.ld_unit_zero hz]

/-! ## Region 1 -/

/-- The block of window `w` at step `t`: the window's view of its array at that step, read off the contents
    `V` the region starts from. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Whatever proof data one takes over this pipeline, if its input array is `V`'s and its body leaves the input
    block where it found it, then the input staging buffer holds the step's block whenever the body runs. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t := by
  -- an input window: unfetched, its block index has not moved; fetched, the buffer is the block
  have h := dat.before_in_eq_fetched 0 rfl (fun _ => rfl) (fun _ _ _ => rfl) ?_ t d
  · rw [h]
    unfold Dat.fetched Dat.blockOf iblk1
    rw [hA]
    -- the window is uncut: filling the whole buffer with the block leaves the block
    rfl
  · intro s
    rw [hafter s]
    unfold Dat.blockOf iblk1
    rw [hA]

/-- The one rectangle the body touches: the whole `1024 × 1024` block. -/
abbrev r1_0 : Rect S1024x1024 := Rect.unit (s := S1024x1024) ![0, 0] S1024x1024.size inb_S1024x1024_S1024x1024_0_0

/-- The output staging buffer after a step whose input block is `x0`: the single whole-block store, as a list of
    written pieces. -/
def out1_1 (x0 : Vec F S1024x1024 .f32) : Vec F S1024x1024 .bf16 :=
  View.canon [⟨r1_0, k1_pay1 (View.ld x0 r1_0)⟩]

/-- That one piece covers every index of the buffer. -/
theorem cover1_1 (p0 : Vec F S1024x1024 .bf16) (y : S1024x1024.Idx) :
    ∃ pc ∈ ([⟨r1_0, p0⟩] : List (View.Piece (Elt F) S1024x1024 .bf16)), y ∈ pc.1.set := by
  refine ⟨_, List.mem_singleton_self _, ?_⟩
  show y ∈ r1_0.set
  exact View.mem_set_unit_zero (by funext a; fin_cases a <;> rfl) inb_S1024x1024_S1024x1024_0_0 y

set_option maxHeartbeats 1000000 in
/-- The body's triple. Given the input buffer whole at read contents `x0` and the output buffer whole at anything,
    the body runs to a state where the input buffer is unchanged and the output buffer reads `out1_1 x0`. -/
theorem sound_kernel1 (c : Dev nD) (E : Set ℕ) (i : grid1.Coords) (arg1 : Memref sig .tc .vmem S1024x1024 .f32) (harg1 : arg1.IsWhole)
    (arg2 : Memref sig .tc .vmem S1024x1024 .bf16) (harg2 : arg2.IsWhole)
    (x0 : Vec F S1024x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__normalize_kernel i arg1 harg1 arg2 harg2) K := by
  simp only [cc1__normalize_kernel_eq_skeleton]
  unfold cc1__normalize_kernel_skel
  unfold owns
  iintro ⟨⟨%f1, %hf1, H1⟩, ⟨%d2, %f2, -, H2⟩, Hk⟩
  subst hf1
  -- the two loads and the store, run symbolically; then the return
  sl_exec
  sl_step
  iapply Hk
  isplitl [H1]
  · iexists f1
    isplitr
    · ipureintro; rfl
    · iexact H1
  · iexists _
    isplitr
    -- the spatial half first: it fixes the written contents, of which the pure half then speaks
    swap
    · iexact H2
    · ipureintro
      -- a covering list of writes reads back as its canonical contents, whatever was there before
      exact View.read_writes_eq_canon _ _ _ (cover1_1 _)

/-- The proof data of the region on core `c`: arrays as found (`V`); after step `t` the input buffer holds its
    block and the output buffer the body's function of that block; the invariant is the library's standard one (the core's other
    scoped buffers at some contents and its random-generator register at some state, none of which the body reads);
    full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  rfl

theorem after1_0 (c : Dev nD) (t : Fin cfg1.N) : (dat1 V c).after 0 t = iblk1 V c 0 t := by
  dsimp only [dat1]

theorem after1_1 (c : Dev nD) (t : Fin cfg1.N) : (dat1 V c).after 1 t = out1_1 (iblk1 V c 0 t) := by
  dsimp only [dat1]

/-- For this proof data the input buffer holds the step's block whenever the body runs. -/
theorem before1_0 (c : Dev nD) (t : Fin cfg1.N) (d) : (dat1 V c).before 0 t d = iblk1 V c 0 t := by
  exact before1_0_of V (dat1 V c) (A_eq1 V c 0) (after1_0 V c) t d

/-- What the pipeline hands the body at step `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it expects back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at step `t` takes the one to the other. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [after1_0, after1_1]
  -- the invariant and what is owed do not depend on the step
  have hΦ : (dat1 V c).Φ t.succ = (dat1 V c).Φ t.castSucc := rfl
  have ho : (dat1 V c).owesAt () t.succ = (dat1 V c).owesAt () t.castSucc := rfl
  rw [hΦ, ho]
  iintro ⟨HΦ, Ho, ⟨%d0, Hin⟩, ⟨%d1, Hout⟩⟩
  iapply (sound_kernel1 c Set.univ (grid1.coords t) _ _ _ _ (iblk1 V c 0 t) _)
  isplitl [Hin]
  · iexact Hin
  isplitl [Hout]
  · iexists _
    iexact Hout
  -- the body's result, with the untouched invariant and debt put back beside it
  iintro ⟨Hin, Hout⟩
  isplitl [HΦ]
  · iexact HΦ
  isplitl [Ho]
  · iexact Ho
  isplitl [Hin]
  · iexact Hin
  · iexact Hout

/-- The pipeline library's body obligation, at every step. -/
theorem body_obligation1 (c : Dev nD) : BodyObligation (dat1 (F := F) V c) (defs₀ (F := F)) Variants.none () Set.univ := by
  intro t
  rw [bigSep_W1, bigSep_W1]
  exact sound_body1 V c t

/-- One whole-block piece laid over the buffer is that piece's payload, and a whole-block read of `x0` is `x0`. -/
theorem out1_1_eq (x0 : Vec F S1024x1024 .f32) : out1_1 (F := F) x0 = k1_pay1 x0 := by
  have hz : (![0, 0] : Fin S1024x1024.rank → Nat) = fun _ => 0 := by funext a; fin_cases a <;> rfl
  unfold out1_1
  rw [View.canon_unit_zero hz, View.ld_unit_zero hz]

end Cert.KernelIdeal.Fr

end
-- ==== Proof.MatmulDefs.lean ====
import proofs.«171512_j22376779612598_2_alg».proof.Proof.Gen.KernelIdeal.Launch
import proofs.«171512_j22376779612598_2_alg».proof.Proof.Gen.KernelIdeal.Skeleton
import proofs.«171512_j22376779612598_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The blocks the region reads -/

/-- Window `w`'s block at grid point `t`, read off the window's array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The two accumulators and the output, point by point -/

/-- The two accumulators the kernel carries from one grid point to the next: whole scoped buffers of its own. -/
abbrev scM2_0 : Memref sig .tc .vmem S1024x128 .f32 := Memref.whole cc2_scratch0
abbrev scM2_1 : Memref sig .tc .vmem S1024x128 .f32 := Memref.whole cc2_scratch1

/-- One grid point's body as a function: from the accumulators `a0`, `a1` it starts from (after the reset at the
    first inner step, if the point is one), the masked partial row sums added to `a0`, the unmasked ones added to
    `a1`, and — what the last inner step stores — the logarithm of the ratio of the two accumulators' row sums.
    The components: (output block, accumulator 0, accumulator 1). -/
def step2 (c : Dev nD) (t : Fin cfg2.N) (a0 a1 : Vec F S1024x128 .f32) :
    Vec F S1024x1 .f32 × Vec F S1024x128 .f32 × Vec F S1024x128 .f32 :=
  (k2_pay1 (k2_pay5 (iblk2 V c 2 t) (iblk2 V c 3 t) (iblk2 V c 0 t) (iblk2 V c 1 t) a0) (k2_pay6 (iblk2 V c 2 t) (iblk2 V c 3 t) a1),
   k2_pay5 (iblk2 V c 2 t) (iblk2 V c 3 t) (iblk2 V c 0 t) (iblk2 V c 1 t) a0,
   k2_pay6 (iblk2 V c 2 t) (iblk2 V c 3 t) a1)

/-- THE ACCUMULATION. What the output window's staging buffer and the two accumulators hold after the body at
    position `n`: at the first inner step of a row of the grid (`n % 8 = 0`) the step from the zeroed
    accumulators, elsewhere the step from what the point before left. (The output component is the step's at every
    point; the body stores it at the last inner step only, and only there is it read.) -/
def outsAt2 (c : Dev nD) : (n : ℕ) → n < cfg2.N → Vec F S1024x1 .f32 × Vec F S1024x128 .f32 × Vec F S1024x128 .f32
  | 0, hn => step2 V c ⟨0, hn⟩ k2_pay2 k2_pay3
  | n + 1, hn =>
    if (n + 1) % 8 = 0 then step2 V c ⟨n + 1, hn⟩ k2_pay2 k2_pay3
    else step2 V c ⟨n + 1, hn⟩ (outsAt2 c n (Nat.lt_of_succ_lt hn)).2.1 (outsAt2 c n (Nat.lt_of_succ_lt hn)).2.2

/-- At the first inner step: the step from the zeroed accumulators. -/
theorem outsAt2_first (c : Dev nD) (t : Fin cfg2.N) (h : t.val % 8 = 0) :
    outsAt2 V c t.val t.isLt = step2 V c t k2_pay2 k2_pay3 := by
  obtain ⟨n, hn⟩ := t
  cases n with
  | zero => rfl
  | succ n => exact if_pos h

/-- At any other inner step: the step from what the point before left. -/
theorem outsAt2_next (c : Dev nD) (t : Fin cfg2.N) (h : t.val % 8 ≠ 0) :
    outsAt2 V c t.val t.isLt = step2 V c t (outsAt2 V c (t.val - 1) (Nat.lt_of_le_of_lt (Nat.sub_le _ _) t.isLt)).2.1
      (outsAt2 V c (t.val - 1) (Nat.lt_of_le_of_lt (Nat.sub_le _ _) t.isLt)).2.2 := by
  obtain ⟨n, hn⟩ := t
  cases n with
  | zero => exact absurd (Nat.zero_mod _) h
  | succ n => exact if_neg h

theorem outsAt2_acc0_first (c : Dev nD) (t : Fin cfg2.N) (h : t.val % 8 = 0) :
    (outsAt2 V c t.val t.isLt).2.1 = k2_pay5 (iblk2 V c 2 t) (iblk2 V c 3 t) (iblk2 V c 0 t) (iblk2 V c 1 t) k2_pay2 := by
  rw [outsAt2_first V c t h]; rfl

theorem outsAt2_acc1_first (c : Dev nD) (t : Fin cfg2.N) (h : t.val % 8 = 0) :
    (outsAt2 V c t.val t.isLt).2.2 = k2_pay6 (iblk2 V c 2 t) (iblk2 V c 3 t) k2_pay3 := by
  rw [outsAt2_first V c t h]; rfl

theorem outsAt2_acc0_next (c : Dev nD) (t : Fin cfg2.N) (h : t.val % 8 ≠ 0) :
    (outsAt2 V c t.val t.isLt).2.1 = k2_pay5 (iblk2 V c 2 t) (iblk2 V c 3 t) (iblk2 V c 0 t) (iblk2 V c 1 t)
      (outsAt2 V c (t.val - 1) (Nat.lt_of_le_of_lt (Nat.sub_le _ _) t.isLt)).2.1 := by
  rw [outsAt2_next V c t h]; rfl

theorem outsAt2_acc1_next (c : Dev nD) (t : Fin cfg2.N) (h : t.val % 8 ≠ 0) :
    (outsAt2 V c t.val t.isLt).2.2 = k2_pay6 (iblk2 V c 2 t) (iblk2 V c 3 t)
      (outsAt2 V c (t.val - 1) (Nat.lt_of_le_of_lt (Nat.sub_le _ _) t.isLt)).2.2 := by
  rw [outsAt2_next V c t h]; rfl

/-- The output component is the logarithm of the accumulators' row-sum ratio (at every point; the hypothesis names
    the points where the body stores it and the pipeline writes it back). -/
theorem outsAt2_out_last (c : Dev nD) (t : Fin cfg2.N) (h : t.val % 8 = 7) :
    (outsAt2 V c t.val t.isLt).1 = k2_pay1 (outsAt2 V c t.val t.isLt).2.1 (outsAt2 V c t.val t.isLt).2.2 := by
  by_cases h0 : t.val % 8 = 0
  · rw [outsAt2_first V c t h0]; rfl
  · rw [outsAt2_next V c t h0]; rfl

/-! ## The region invariant -/

/-- The staging buffers of the program's other two regions, each at some contents: scoped buffers this region
    never touches. -/
def rest2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f))

/-- The region invariant before position `n`: before the first point what the launch hands the region (every scoped
    buffer that is no staging buffer of its own at some contents, the generator register at some state); afterwards
    the same with the two accumulators at what the point before left in them. -/
def PhiS2 (c : Dev nD) : (n : ℕ) → n ≤ cfg2.N → sProp 𝕄
  | 0, _ => Pipeline.ΦA spec2 c
  | n + 1, hn => iprop(iprop(rest2 (F := F) c ∗ owns (c : Thread nD τ) scM2_0 fullShare ((outsAt2 V c n hn).2.1) ∗ owns (c : Thread nD τ) scM2_1 fullShare ((outsAt2 V c n hn).2.2)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(rest2 (F := F) c ∗ owns (c : Thread nD τ) scM2_0 fullShare ((outsAt2 V c n hn).2.1) ∗ owns (c : Thread nD τ) scM2_1 fullShare ((outsAt2 V c n hn).2.2)) ∗ (∃ r, prngReg c r)) := rfl

theorem PhiS2_pos (c : Dev nD) (n : ℕ) (h : n ≤ cfg2.N) (hz : n ≠ 0) :
    PhiS2 V c n h = iprop(iprop(rest2 (F := F) c ∗ owns (c : Thread nD τ) scM2_0 fullShare ((outsAt2 V c (n - 1) (by omega)).2.1) ∗ owns (c : Thread nD τ) scM2_1 fullShare ((outsAt2 V c (n - 1) (by omega)).2.2)) ∗ (∃ r, prngReg c r)) := by
  cases n with
  | zero => exact absurd rfl hz
  | succ n => rfl

/-! ## The pipeline's proof data -/

/-- The proof data of the region's pipeline on core `c`: the arrays as the region finds them (`V`); after the body at
    point `t` each input's buffer at its block and the output's at `outsAt2`'s first component; the invariant `PhiS2`;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

end Cert.KernelIdeal.Fr

end
-- ==== Proof.MatmulRuns.lean ====
import proofs.«171512_j22376779612598_2_alg».proof.Proof.MatmulDefs
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The body's two conditions, in closed form over the grid -/

/-- The first `scf.if` of the body (zero the accumulators): the inner grid coordinate is 0. -/
abbrev cond2_0 (i : grid2.Coords) : Prop := (Scalar.cmpi .ne (Scalar.extui (Scalar.cmpi .eq (BitVec.ofNat 32 (i 1).val) 0#32)) 0#32) = 1#1
/-- It holds exactly at the points whose position is a multiple of 8 — decided over the 64 points. -/
theorem hcond2_0 : ∀ t : Fin cfg2.N, cond2_0 (grid2.coords t) ↔ t.val % 8 = 0 :=
  (by decide +kernel : ∀ t : Fin grid2.N, cond2_0 (grid2.coords t) ↔ t.val % 8 = 0)

/-- The second `scf.if` (store the output block): the inner grid coordinate is 7. -/
abbrev cond2_1 (i : grid2.Coords) : Prop := k2_cond2 i = 1#1
/-- It holds exactly at the points whose position is 7 modulo 8 — decided over the 64 points. -/
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
/-- Off the last inner step the output window is idle (the body stores nothing into it) -/
theorem idleAt2_4 : ∀ t : Fin cfg2.N, ¬cond2_1 (grid2.coords t) → cfg2.idle 4 (grid2.coords t) = true := by decide +kernel
/-- and the pipeline does not write its block back; -/
theorem noFlush2_4 : ∀ t : Fin cfg2.N, ¬cond2_1 (grid2.coords t) → (cfg2.win 4).flush t = false := by decide +kernel
/-- at the last inner step it is live. -/
theorem liveAt2_4 : ∀ t : Fin cfg2.N, cond2_1 (grid2.coords t) → cfg2.idle 4 (grid2.coords t) = false := by decide +kernel

/-! ## The staging memrefs at a point, and what the inputs' hold -/

abbrev ms2_0 (t : Fin cfg2.N) : Memref sig .tc .vmem S1024x1 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x1024 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1024 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1024 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x1 .f32 := win2_4.stage (cfg2.slots t 4)
abbrev hs2_4 (t : Fin cfg2.N) : (ms2_4 t).IsWhole := hstage2_4 ((cfg2.slots t 4).cast nbuf2_4)

/-- Each input's current staging buffer holds its block at every point, fetched there or not (an unfetched
    window's block index has not moved since the fetch). -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)

/-! ## The launch's invariant, with the two accumulators taken out -/

/-- What the launch hands the region, regrouped: the other regions' staging buffers, each accumulator at some
    contents, the generator register. -/
theorem PhiA2_open (c : Dev nD) :
    (Pipeline.ΦA spec2 c : sProp 𝕄) ⊢ iprop(iprop(rest2 (F := F) c ∗ (∃ d, owns (c : Thread nD τ) scM2_0 fullShare d) ∗ (∃ d, owns (c : Thread nD τ) scM2_1 fullShare d)) ∗ (∃ r, prngReg c r)) := by
  unfold Pipeline.ΦA rest2; rw [scopedRest2_eq]; simp only [scM2_0, scM2_1, owns_whole]
  iintro ⟨⟨A1, A2, A3, A4, A5, A6, A7, A8, S0, S1⟩, Hg⟩
  iframe

/-- And back. -/
theorem PhiA2_close (c : Dev nD) :
    iprop(iprop(rest2 (F := F) c ∗ (∃ d, owns (c : Thread nD τ) scM2_0 fullShare d) ∗ (∃ d, owns (c : Thread nD τ) scM2_1 fullShare d)) ∗ (∃ r, prngReg c r)) ⊢ (Pipeline.ΦA spec2 c : sProp 𝕄) := by
  unfold Pipeline.ΦA rest2; rw [scopedRest2_eq]; simp only [scM2_0, scM2_1, owns_whole]
  iintro ⟨⟨⟨A1, A2, A3, A4, A5, A6, A7, A8⟩, S0, S1⟩, Hg⟩
  iframe

/-! ## Whole-buffer stores and loads -/

/-- The zero offsets of a whole-buffer access of rank 2, as the constant function. -/
theorem zeros2 : (![0, 0] : Fin 2 → ℕ) = fun _ => 0 := by
  funext a; fin_cases a <;> rfl

/-- A load through the whole-shape rectangle at zero offsets reads the view's contents. -/
theorem readAt_unit_zero {sig' : RefSig} {κ : Kind} {sp : Space} {S : Shape} {e : EltTy} (v : View sig' κ sp S e)
    (f : v.ty.Contents (Elt F)) {off : Fin S.rank → ℕ} (h : off = fun _ => 0) (inb : ∀ a, off a + S.size a ≤ S.size a) :
    v.readAt (Elt F) (Rect.unit off S.size inb).toLoadRect f = v.read (Elt F) f := by
  show View.ld (v.read (Elt F) f) (Rect.unit off S.size inb) = _
  exact View.ld_unit_zero h inb _

/-- After a list of stores whose LAST is a store of `w` through the whole-shape rectangle at zero offsets, the view
    reads `w`, whatever the earlier stores and the prior contents were. -/
theorem read_writes_unit_zero {sig' : RefSig} {κ : Kind} {sp : Space} {S : Shape} {e : EltTy} (v : View sig' κ sp S e)
    (f : v.ty.Contents (Elt F)) {off : Fin S.rank → ℕ} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self .., View.mem_set_unit_zero h inb y⟩),
    View.canon_cons_unit_zero h inb w L]

end Cert.KernelIdeal.Fr

end
-- ==== Proof.MatmulRunA.lean ====
import proofs.«171512_j22376779612598_2_alg».proof.Proof.MatmulRuns

/-! The first key block of a row of the grid: both accumulators are reset to zero, and then gain this block's lane
sums — the first the masked ones, the second the unmasked ones. The output block is left as it was. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

set_option maxHeartbeats 1000000 in
theorem kernelRun2_A (c : Dev nD) (i : grid2.Coords) (arg2 : Memref sig .tc .vmem S1024x1 .i32) (harg2 : arg2.IsWhole) (arg3 : Memref sig .tc .vmem S1x1024 .i32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x128 .f32) (harg7 : arg7.IsWhole) (arg8 : Memref sig .tc .vmem S1024x128 .f32) (harg8 : arg8.IsWhole)
    (hc0 : cond2_0 i) (hc1 : ¬cond2_1 i) (x0 : Vec F S1024x1 .i32) (x1 : Vec F S1x1024 .i32) (x2 x3 : Vec F S1024x1024 .bf16) (xi4 : Vec F S1024x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare (k2_pay5 x2 x3 x0 x1 k2_pay2) ∗ owns (c : Thread nD τ) arg8 fullShare (k2_pay6 x2 x3 k2_pay3)) -∗ K ⟨⟩))
      ⊢ wp frame (wpE (defs₀ (F := F)) Variants.none c none) E (cc2__matmul_kernel i arg2 harg2 arg3 harg3 arg4 harg4 arg5 harg5 arg6 harg6 arg7 harg7 arg8 harg8) K := by
  simp only [cc2__matmul_kernel_eq_skeleton]; unfold cc2__matmul_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3
  obtain rfl := harg6.eq_unread hf4
  have e0 : View.readAt (Elt F) arg2.view (Rect.unit (s := S1024x1) ![0, 0] S1024x1.size inb_S1024x1_S1024x1_0_0).toLoadRect (harg2.unread x0) = x0 :=
    (readAt_unit_zero (S := S1024x1) _ _ zeros2 _).trans hf0
  have e1 : View.readAt (Elt F) arg3.view (Rect.unit (s := S1x1024) ![0, 0] S1x1024.size inb_S1x1024_S1x1024_0_0).toLoadRect (harg3.unread x1) = x1 :=
    (readAt_unit_zero (S := S1x1024) _ _ zeros2 _).trans hf1
  have e2 : View.readAt (Elt F) arg4.view (Rect.unit (s := S1024x1024) ![0, 0] S1024x1024.size inb_S1024x1024_S1024x1024_0_0).toLoadRect (harg4.unread x2) = x2 :=
    (readAt_unit_zero (S := S1024x1024) _ _ zeros2 _).trans hf2
  have e3 : View.readAt (Elt F) arg5.view (Rect.unit (s := S1024x1024) ![0, 0] S1024x1024.size inb_S1024x1024_S1024x1024_0_0).toLoadRect (harg5.unread x3) = x3 :=
    (readAt_unit_zero (S := S1024x1024) _ _ zeros2 _).trans hf3
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [HS0]
  · iexists _; isplitr
    swap; · iexact HS0
    ipureintro
    refine (read_writes_unit_zero _ _ zeros2 _ _ _).trans ?_
    sl_unfold_run_names
    exact congrArg (k2_pay5 x2 x3 x0 x1) (View.readCov_unit_zero _ zeros2 _ _)
  iexists _; isplitr
  swap; · iexact HS1
  ipureintro
  refine (read_writes_unit_zero _ _ zeros2 _ _ _).trans ?_
  sl_unfold_run_names
  exact congrArg (k2_pay6 x2 x3) (View.readCov_unit_zero _ zeros2 _ _)

end Cert.KernelIdeal.Fr

end
-- ==== Proof.MatmulRunB.lean ====
import proofs.«171512_j22376779612598_2_alg».proof.Proof.MatmulRuns

/-! A middle key block: both accumulators gain this block's lane sums — the first the masked ones, the second the
unmasked ones — over what the block before left. The output block is left as it was. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

set_option maxHeartbeats 1000000 in
theorem kernelRun2_B (c : Dev nD) (i : grid2.Coords) (arg2 : Memref sig .tc .vmem S1024x1 .i32) (harg2 : arg2.IsWhole) (arg3 : Memref sig .tc .vmem S1x1024 .i32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x128 .f32) (harg7 : arg7.IsWhole) (arg8 : Memref sig .tc .vmem S1024x128 .f32) (harg8 : arg8.IsWhole)
    (hc0 : ¬cond2_0 i) (hc1 : ¬cond2_1 i) (x0 : Vec F S1024x1 .i32) (x1 : Vec F S1x1024 .i32) (x2 x3 : Vec F S1024x1024 .bf16) (xi4 : Vec F S1024x1 .f32) (xs0 xs1 : Vec F S1024x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare (k2_pay5 x2 x3 x0 x1 xs0) ∗ owns (c : Thread nD τ) arg8 fullShare (k2_pay6 x2 x3 xs1)) -∗ K ⟨⟩))
      ⊢ wp frame (wpE (defs₀ (F := F)) Variants.none c none) E (cc2__matmul_kernel i arg2 harg2 arg3 harg3 arg4 harg4 arg5 harg5 arg6 harg6 arg7 harg7 arg8 harg8) K := by
  simp only [cc2__matmul_kernel_eq_skeleton]; unfold cc2__matmul_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hfs0; obtain rfl := harg8.eq_unread hfs1
  have e0 : View.readAt (Elt F) arg2.view (Rect.unit (s := S1024x1) ![0, 0] S1024x1.size inb_S1024x1_S1024x1_0_0).toLoadRect (harg2.unread x0) = x0 :=
    (readAt_unit_zero (S := S1024x1) _ _ zeros2 _).trans hf0
  have e1 : View.readAt (Elt F) arg3.view (Rect.unit (s := S1x1024) ![0, 0] S1x1024.size inb_S1x1024_S1x1024_0_0).toLoadRect (harg3.unread x1) = x1 :=
    (readAt_unit_zero (S := S1x1024) _ _ zeros2 _).trans hf1
  have e2 : View.readAt (Elt F) arg4.view (Rect.unit (s := S1024x1024) ![0, 0] S1024x1024.size inb_S1024x1024_S1024x1024_0_0).toLoadRect (harg4.unread x2) = x2 :=
    (readAt_unit_zero (S := S1024x1024) _ _ zeros2 _).trans hf2
  have e3 : View.readAt (Elt F) arg5.view (Rect.unit (s := S1024x1024) ![0, 0] S1024x1024.size inb_S1024x1024_S1024x1024_0_0).toLoadRect (harg5.unread x3) = x3 :=
    (readAt_unit_zero (S := S1024x1024) _ _ zeros2 _).trans hf3
  have es0 : View.readAt (Elt F) arg7.view (Rect.unit (s := S1024x128) ![0, 0] S1024x128.size inb_S1024x128_S1024x128_0_0).toLoadRect (harg7.unread xs0) = xs0 :=
    (readAt_unit_zero (S := S1024x128) _ _ zeros2 _).trans hfs0
  have es1 : View.readAt (Elt F) arg8.view (Rect.unit (s := S1024x128) ![0, 0] S1024x128.size inb_S1024x128_S1024x128_0_0).toLoadRect (harg8.unread xs1) = xs1 :=
    (readAt_unit_zero (S := S1024x128) _ _ zeros2 _).trans hfs1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [HS0]
  · iexists _; isplitr
    swap; · iexact HS0
    ipureintro
    refine (read_writes_unit_zero _ _ zeros2 _ _ _).trans ?_
    rfl
  iexists _; isplitr
  swap; · iexact HS1
  ipureintro
  refine (read_writes_unit_zero _ _ zeros2 _ _ _).trans ?_
  rfl

end Cert.KernelIdeal.Fr

end
-- ==== Proof.MatmulRunC.lean ====
import proofs.«171512_j22376779612598_2_alg».proof.Proof.MatmulRuns

/-! The last key block of a row of the grid: both accumulators gain this block's lane sums, and the output block is
stored as log (max (lane sum of the first) δ / lane sum of the second). -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

set_option maxHeartbeats 1000000 in
theorem kernelRun2_C (c : Dev nD) (i : grid2.Coords) (arg2 : Memref sig .tc .vmem S1024x1 .i32) (harg2 : arg2.IsWhole) (arg3 : Memref sig .tc .vmem S1x1024 .i32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x128 .f32) (harg7 : arg7.IsWhole) (arg8 : Memref sig .tc .vmem S1024x128 .f32) (harg8 : arg8.IsWhole)
    (hc0 : ¬cond2_0 i) (hc1 : cond2_1 i) (x0 : Vec F S1024x1 .i32) (x1 : Vec F S1x1024 .i32) (x2 x3 : Vec F S1024x1024 .bf16) (xs0 xs1 : Vec F S1024x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k2_pay1 (k2_pay5 x2 x3 x0 x1 xs0) (k2_pay6 x2 x3 xs1))
            ∗ owns (c : Thread nD τ) arg7 fullShare (k2_pay5 x2 x3 x0 x1 xs0) ∗ owns (c : Thread nD τ) arg8 fullShare (k2_pay6 x2 x3 xs1)) -∗ K ⟨⟩))
      ⊢ wp frame (wpE (defs₀ (F := F)) Variants.none c none) E (cc2__matmul_kernel i arg2 harg2 arg3 harg3 arg4 harg4 arg5 harg5 arg6 harg6 arg7 harg7 arg8 harg8) K := by
  simp only [cc2__matmul_kernel_eq_skeleton]; unfold cc2__matmul_kernel_skel
  simp only [k2_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3
  obtain rfl := harg7.eq_unread hfs0; obtain rfl := harg8.eq_unread hfs1
  have e0 : View.readAt (Elt F) arg2.view (Rect.unit (s := S1024x1) ![0, 0] S1024x1.size inb_S1024x1_S1024x1_0_0).toLoadRect (harg2.unread x0) = x0 :=
    (readAt_unit_zero (S := S1024x1) _ _ zeros2 _).trans hf0
  have e1 : View.readAt (Elt F) arg3.view (Rect.unit (s := S1x1024) ![0, 0] S1x1024.size inb_S1x1024_S1x1024_0_0).toLoadRect (harg3.unread x1) = x1 :=
    (readAt_unit_zero (S := S1x1024) _ _ zeros2 _).trans hf1
  have e2 : View.readAt (Elt F) arg4.view (Rect.unit (s := S1024x1024) ![0, 0] S1024x1024.size inb_S1024x1024_S1024x1024_0_0).toLoadRect (harg4.unread x2) = x2 :=
    (readAt_unit_zero (S := S1024x1024) _ _ zeros2 _).trans hf2
  have e3 : View.readAt (Elt F) arg5.view (Rect.unit (s := S1024x1024) ![0, 0] S1024x1024.size inb_S1024x1024_S1024x1024_0_0).toLoadRect (harg5.unread x3) = x3 :=
    (readAt_unit_zero (S := S1024x1024) _ _ zeros2 _).trans hf3
  have es0 : View.readAt (Elt F) arg7.view (Rect.unit (s := S1024x128) ![0, 0] S1024x128.size inb_S1024x128_S1024x128_0_0).toLoadRect (harg7.unread xs0) = xs0 :=
    (readAt_unit_zero (S := S1024x128) _ _ zeros2 _).trans hfs0
  have es1 : View.readAt (Elt F) arg8.view (Rect.unit (s := S1024x128) ![0, 0] S1024x128.size inb_S1024x128_S1024x128_0_0).toLoadRect (harg8.unread xs1) = xs1 :=
    (readAt_unit_zero (S := S1024x128) _ _ zeros2 _).trans hfs1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    refine (read_writes_unit_zero _ _ zeros2 _ _ _).trans ?_
    sl_unfold_run_names
    exact congrArg₂ k2_pay1 (View.readCov_unit_zero _ zeros2 _ _) (View.readCov_unit_zero _ zeros2 _ _)
  isplitl [HS0]
  · iexists _; isplitr
    swap; · iexact HS0
    ipureintro
    sl_unfold_run_names
    exact read_writes_unit_zero _ _ zeros2 _ _ _
  iexists _; isplitr
  swap; · iexact HS1
  ipureintro
  sl_unfold_run_names
  exact read_writes_unit_zero _ _ zeros2 _ _ _

end Cert.KernelIdeal.Fr

end
-- ==== Proof.MatmulFrame.lean ====
import proofs.«171512_j22376779612598_2_alg».proof.Proof.MatmulRunA
import proofs.«171512_j22376779612598_2_alg».proof.Proof.MatmulRunB
import proofs.«171512_j22376779612598_2_alg».proof.Proof.MatmulRunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The invariant, with the accumulators' contents forgotten -/

/-- Before any position the invariant gives the other regions' staging buffers, each accumulator at some contents and
    the generator register: before the first point this is the launch's invariant regrouped, afterwards the named
    contents are forgotten. -/
theorem PhiS2_open (c : Dev nD) (n : ℕ) (h : n ≤ cfg2.N) :
    PhiS2 V c n h ⊢ iprop(iprop(rest2 (F := F) c ∗ (∃ d, owns (c : Thread nD τ) scM2_0 fullShare d) ∗ (∃ d, owns (c : Thread nD τ) scM2_1 fullShare d)) ∗ (∃ r, prngReg c r)) := by
  cases n with
  | zero => exact PhiA2_open c
  | succ n =>
    rw [PhiS2_succ]
    iintro ⟨⟨HR, HS0, HS1⟩, Hg⟩
    isplitl [HR HS0 HS1]
    · isplitl [HR]; · iexact HR
      isplitl [HS0]; · iexists _; iexact HS0
      iexists _; iexact HS1
    iexact Hg

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point. The inputs' buffers hold their blocks; the position modulo 8 says which of the three
    control cases the point is in. At the first inner step the accumulators are handed over at anything (the run zeroes
    them) and come back at the step from the zeroed ones; elsewhere they are handed over at what the point before left
    and come back at the step from that. Off the last inner step the output window is idle and its buffer goes back
    untouched; at the last inner step it comes back at the logarithm of the accumulators' row-sum ratio. The core owes
    nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  have hN : t.val < 64 := lt_of_lt_of_eq t.isLt (show cfg2.N = 64 from N_2)
  by_cases h0 : t.val % 8 = 0
  · -- the first inner step: both accumulators zeroed, then accumulated into
    have hc0 : cond2_0 (grid2.coords t) := (hcond2_0 t).mpr h0
    have hc1 : ¬cond2_1 (grid2.coords t) := fun h => by have := (hcond2_1 t).mp h; omega
    rw [Dat.leavesExact_idle (dat2 V c) 4 t (idleAt2_4 t hc1) (noFlush2_4 t hc1)]
    rw [outsAt2_acc0_first V c t h0, outsAt2_acc1_first V c t h0]
    rw [PhiS2_castSucc V c t]
    refine (sep_mono_left (PhiS2_open V c _ _)).trans ?_
    iintro ⟨⟨⟨HR, HS0, HS1⟩, Hg⟩, Ho, ⟨%d0, H0⟩, ⟨%d1, H1⟩, ⟨%d2, H2⟩, ⟨%d3, H3⟩, ⟨%d4, H4⟩⟩
    iapply (kernelRun2_A c (grid2.coords t) _ _ _ _ _ _ _ _ _ _ _ _ _ _ hc0 hc1 (iblk2 V c 0 t) (iblk2 V c 1 t) (iblk2 V c 2 t) (iblk2 V c 3 t) _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [HR HS0 HS1 Hg]
    · isplitl [HR HS0 HS1]
      · isplitl [HR]; · iexact HR
        isplitl [HS0]; · iexact HS0
        iexact HS1
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    have hc0 : ¬cond2_0 (grid2.coords t) := fun h => h0 ((hcond2_0 t).mp h)
    rw [outsAt2_acc0_next V c t h0, outsAt2_acc1_next V c t h0]
    rw [PhiS2_castSucc V c t, PhiS2_pos V c _ _ hz]
    by_cases h7 : t.val % 8 = 7
    · -- the last inner step: accumulate, then store the output block
      have hc1 : cond2_1 (grid2.coords t) := (hcond2_1 t).mpr h7
      rw [show (dat2 V c).leavesExact 4 t = owns (c : Thread nD τ) (ms2_4 t) fullShare ((dat2 V c).after 4 t) from by
        unfold Dat.leavesExact; rw [liveAt2_4 t hc1], after2_4]
      rw [outsAt2_out_last V c t h7]
      rw [outsAt2_acc0_next V c t h0, outsAt2_acc1_next V c t h0]
      iintro ⟨⟨⟨HR, HS0, HS1⟩, Hg⟩, Ho, ⟨%d0, H0⟩, ⟨%d1, H1⟩, ⟨%d2, H2⟩, ⟨%d3, H3⟩, ⟨%d4, H4⟩⟩
      iapply (kernelRun2_C c (grid2.coords t) _ _ _ _ _ _ _ _ _ _ _ _ _ _ hc0 hc1 (iblk2 V c 0 t) (iblk2 V c 1 t) (iblk2 V c 2 t) (iblk2 V c 3 t) _ _ Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HR HS0 HS1 Hg]
      · isplitl [HR HS0 HS1]
        · isplitl [HR]; · iexact HR
          isplitl [HS0]; · iexact HS0
          iexact HS1
        iexact Hg
      isplitl [Ho]; · iexact Ho
      isplitl [H0]; · iexact H0
      isplitl [H1]; · iexact H1
      isplitl [H2]; · iexact H2
      isplitl [H3]; · iexact H3
      iexact H4
    · -- a middle inner step: accumulate only
      have hc1 : ¬cond2_1 (grid2.coords t) := fun h => h7 ((hcond2_1 t).mp h)
      rw [Dat.leavesExact_idle (dat2 V c) 4 t (idleAt2_4 t hc1) (noFlush2_4 t hc1)]
      iintro ⟨⟨⟨HR, HS0, HS1⟩, Hg⟩, Ho, ⟨%d0, H0⟩, ⟨%d1, H1⟩, ⟨%d2, H2⟩, ⟨%d3, H3⟩, ⟨%d4, H4⟩⟩
      iapply (kernelRun2_B c (grid2.coords t) _ _ _ _ _ _ _ _ _ _ _ _ _ _ hc0 hc1 (iblk2 V c 0 t) (iblk2 V c 1 t) (iblk2 V c 2 t) (iblk2 V c 3 t) _ _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HR HS0 HS1 Hg]
      · isplitl [HR HS0 HS1]
        · isplitl [HR]; · iexact HR
          isplitl [HS0]; · iexact HS0
          iexact HS1
        iexact Hg
      isplitl [Ho]; · iexact Ho
      isplitl [H0]; · iexact H0
      isplitl [H1]; · iexact H1
      isplitl [H2]; · iexact H2
      isplitl [H3]; · iexact H3
      iexists _; iexact H4

/-- The library's body obligation for the region, at every grid point. -/
theorem body_obligation2 (c : Dev nD) : BodyObligation (dat2 (F := F) V c) (defs₀ (F := F)) Variants.none () Set.univ := by
  intro t
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the launch's back: the accumulators' contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl]
  exact (PhiS2_open V c _ _).trans (PhiA2_close c)

end Cert.KernelIdeal.Fr

end
-- ==== Proof.Segments.lean ====
import proofs.«171512_j22376779612598_2_alg».proof.Proof.NormFrame
import proofs.«171512_j22376779612598_2_alg».proof.Proof.MatmulFrame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The whole run: three kernel regions and two stretches of host operations

The program is, in order: the region that normalizes the rows of the first feature matrix, the region that
normalizes the rows of the second, two reshapes of the label vectors, the region that accumulates the row sums of
exponentials and takes the logarithm of their ratio, and the final reduction to minus the mean.

Between two consecutive items every buffer of the core has definite contents, obtained from the launch memory by
folding the items before: a stretch of host operations replaces the buffers it writes by the operations' values, and
a region replaces each of its windows' arrays by what its write-backs leave there (an input's array is left as it
was). This file names those contents (`W0` … `W5`), shows that no item touches an argument array, packages each
region as a segment entered at one of these contents and left at the next, and concludes that every weakly fair
execution terminates with every buffer at `W5`.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The contents of the buffers between items -/

/-- At launch. -/
abbrev W0 : Dev nD → Valuation τ sig (Elt F) := fun c b => (s₀ m ρ).mem ((c : Dev nD), b)
/-- The same, read at the TensorCore's references: what the first region is entered at. -/
abbrev U0 : (c : Dev nD) → (b : Ref sig .tc) → Buf (Elt F) ((c : Thread nD τ).loc b) := fun c b => W0 m ρ c b
/-- After the first region: its output array at what its eight write-backs leave. -/
def W1 (c : Dev nD) : Valuation τ sig (Elt F) :=
  Pipeline.withArrays spec0 c (W0 m ρ c) fun w => (dat0 (U0 m ρ) c).arrAt w cfg0.N
abbrev U1 : (c : Dev nD) → (b : Ref sig .tc) → Buf (Elt F) ((c : Thread nD τ).loc b) := fun c b => W1 m ρ c b
/-- After the second region. -/
def W2 (c : Dev nD) : Valuation τ sig (Elt F) :=
  Pipeline.withArrays spec1 c (W1 m ρ c) fun w => (dat1 (U1 m ρ) c).arrAt w cfg1.N
/-- After the two reshapes of the labels. -/
abbrev W3 : Dev nD → Valuation τ sig (Elt F) := fun c => StableHlo.after hostOps2 (W2 m ρ c)
abbrev U3 : (c : Dev nD) → (b : Ref sig .tc) → Buf (Elt F) ((c : Thread nD τ).loc b) := fun c b => W3 m ρ c b
/-- After the third region. -/
def W4 (c : Dev nD) : Valuation τ sig (Elt F) :=
  Pipeline.withArrays spec2 c (W3 m ρ c) fun w => (dat2 (U3 m ρ) c).arrAt w cfg2.N
/-- After the final reduction, division and negation: the contents the program ends with. -/
abbrev W5 : Dev nD → Valuation τ sig (Elt F) := fun c => StableHlo.after hostOps3 (W4 m ρ c)

theorem W1_arr (c : Dev nD) (w : Fin cfg0.W) :
    W1 m ρ c (Proc.devRef .tc (Pipeline.arrRef spec0 w)) = (dat0 (U0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
theorem W2_arr (c : Dev nD) (w : Fin cfg1.W) :
    W2 m ρ c (Proc.devRef .tc (Pipeline.arrRef spec1 w)) = (dat1 (U1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
theorem W4_arr (c : Dev nD) (w : Fin cfg2.W) :
    W4 m ρ c (Proc.devRef .tc (Pipeline.arrRef spec2 w)) = (dat2 (U3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb

abbrev U2 : (c : Dev nD) → (b : Ref sig .tc) → Buf (Elt F) ((c : Thread nD τ).loc b) := fun c b => W2 m ρ c b
abbrev U4 : (c : Dev nD) → (b : Ref sig .tc) → Buf (Elt F) ((c : Thread nD τ).loc b) := fun c b => W4 m ρ c b

/-- A region's exit contents hold, at each of its arrays, what the pipeline leaves, and elsewhere what was there. -/
theorem hF0 (c : Dev nD) (w : Fin cfg0.W) : (dat0 (U0 m ρ) c).arrAt w cfg0.N = U1 m ρ c (Pipeline.arrRef spec0 w) :=
  (W1_arr m ρ c w).symm
theorem hrest0 (c : Dev nD) : ∀ b, b ∉ Finset.univ.image (Pipeline.arrRef spec0) → U1 m ρ c b = U0 m ρ c b :=
  fun b hb => W1_of_ne m ρ c b fun w e => hb (Finset.mem_image.mpr ⟨w, Finset.mem_univ _, e⟩)
theorem hF1 (c : Dev nD) (w : Fin cfg1.W) : (dat1 (U1 m ρ) c).arrAt w cfg1.N = U2 m ρ c (Pipeline.arrRef spec1 w) :=
  (W2_arr m ρ c w).symm
theorem hrest1 (c : Dev nD) : ∀ b, b ∉ Finset.univ.image (Pipeline.arrRef spec1) → U2 m ρ c b = U1 m ρ c b :=
  fun b hb => W2_of_ne m ρ c b fun w e => hb (Finset.mem_image.mpr ⟨w, Finset.mem_univ _, e⟩)
theorem hF2 (c : Dev nD) (w : Fin cfg2.W) : (dat2 (U3 m ρ) c).arrAt w cfg2.N = U4 m ρ c (Pipeline.arrRef spec2 w) :=
  (W4_arr m ρ c w).symm
theorem hrest2 (c : Dev nD) : ∀ b, b ∉ Finset.univ.image (Pipeline.arrRef spec2) → U4 m ρ c b = U3 m ρ c b :=
  fun b hb => W4_of_ne m ρ c b fun w e => hb (Finset.mem_image.mpr ⟨w, Finset.mem_univ _, e⟩)

/-! ## No item writes an argument array -/

/-- A stretch of host operations leaves alone a buffer none of them writes. -/
theorem after2_of (c : Dev nD) (b : Ref sig .tc) (hb : b ≠ main_v2 ∧ b ≠ main_v3) :
    W3 m ρ c (Proc.devRef .tc b) = W2 m ρ c (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes,
      StableHlo.reshape_writes, Finset.mem_singleton]
    exact ⟨StableHlo.devRef_ne_of_ne hb.1, StableHlo.devRef_ne_of_ne hb.2⟩))
theorem after3_of (c : Dev nD) (b : Ref sig .tc)
    (hb : b ≠ main_cst ∧ b ≠ main_v5 ∧ b ≠ main_cst_0 ∧ b ≠ main_v6 ∧ b ≠ main_v7) :
    W5 m ρ c (Proc.devRef .tc b) = W4 m ρ c (Proc.devRef .tc b) :=
  StableHlo.after_of_forall_not_mem (b := Proc.devRef .tc b) _ _ (List.forall_iff_forall_mem.mp (by
    simp only [hostOps3, List.Forall, StableHlo.nullary_writes, StableHlo.unary_writes, StableHlo.binary_writes,
      StableHlo.reshape_writes, Finset.mem_singleton]
    exact ⟨StableHlo.devRef_ne_of_ne hb.1, StableHlo.devRef_ne_of_ne hb.2.1, StableHlo.devRef_ne_of_ne hb.2.2.1,
      StableHlo.devRef_ne_of_ne hb.2.2.2.1, StableHlo.devRef_ne_of_ne hb.2.2.2.2⟩))

/-- The first feature matrix ends as launched: the first region reads it through an input window, nothing else touches it. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := after3_of m ρ c main_arg0 (by decide)
    _ = W3 m ρ c (Proc.devRef .tc main_arg0) := W4_of_ne m ρ c main_arg0 (by decide)
    _ = W2 m ρ c (Proc.devRef .tc main_arg0) := after2_of m ρ c main_arg0 (by decide)
    _ = W1 m ρ c (Proc.devRef .tc main_arg0) := W2_of_ne m ρ c main_arg0 (by decide)
    _ = W0 m ρ c (Proc.devRef .tc main_arg0) := (W1_arr m ρ c 0).trans (((dat0 (U0 m ρ) c).arrAt_in 0 rfl _).trans (A_eq0 (U0 m ρ) c 0))
    _ = m ((c : Thread nD τ).loc main_arg0) := rfl
/-- The second feature matrix: the second region reads it through an input window. -/
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := after3_of m ρ c main_arg1 (by decide)
    _ = W3 m ρ c (Proc.devRef .tc main_arg1) := W4_of_ne m ρ c main_arg1 (by decide)
    _ = W2 m ρ c (Proc.devRef .tc main_arg1) := after2_of m ρ c main_arg1 (by decide)
    _ = W1 m ρ c (Proc.devRef .tc main_arg1) := (W2_arr m ρ c 0).trans (((dat1 (U1 m ρ) c).arrAt_in 0 rfl _).trans (A_eq1 (U1 m ρ) c 0))
    _ = W0 m ρ c (Proc.devRef .tc main_arg1) := W1_of_ne m ρ c main_arg1 (by decide)
    _ = m ((c : Thread nD τ).loc main_arg1) := rfl
/-- The label vectors are read only by the reshapes. -/
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := after3_of m ρ c main_arg2 (by decide)
    _ = W3 m ρ c (Proc.devRef .tc main_arg2) := W4_of_ne m ρ c main_arg2 (by decide)
    _ = W2 m ρ c (Proc.devRef .tc main_arg2) := after2_of m ρ c main_arg2 (by decide)
    _ = W1 m ρ c (Proc.devRef .tc main_arg2) := W2_of_ne m ρ c main_arg2 (by decide)
    _ = W0 m ρ c (Proc.devRef .tc main_arg2) := W1_of_ne m ρ c main_arg2 (by decide)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := after3_of m ρ c main_arg3 (by decide)
    _ = W3 m ρ c (Proc.devRef .tc main_arg3) := W4_of_ne m ρ c main_arg3 (by decide)
    _ = W2 m ρ c (Proc.devRef .tc main_arg3) := after2_of m ρ c main_arg3 (by decide)
    _ = W1 m ρ c (Proc.devRef .tc main_arg3) := W2_of_ne m ρ c main_arg3 (by decide)
    _ = W0 m ρ c (Proc.devRef .tc main_arg3) := W1_of_ne m ρ c main_arg3 (by decide)
    _ = m ((c : Thread nD τ).loc main_arg3) := rfl

/-! ## The proof data of the three pipelines, and what rides beside the buffers -/

/-- No pipeline has a prefetched table. -/
abbrev adm : (p : Fin 3) → (pcfgs (F := F) p).Adm := fun p => (cfgs p).toPCfg_adm
/-- Each pipeline's proof data at the contents its region is entered at. -/
def pdats : (p : Fin 3) → (c : Dev nD) → Dat τ (Elt F) Unit ℕ (UR sig nD τ) ℕ (Pipeline.pin (pcfgs (F := F)) adm p) c
  | ⟨0, _⟩ => fun c => dat0 (U0 m ρ) c
  | ⟨1, _⟩ => fun c => dat1 (U1 m ρ) c
  | ⟨2, _⟩ => fun c => dat2 (U3 m ρ) c
abbrev 𝒱₀ : Variants := Variants.none
/-- No core waits on another: no level is assigned. -/
abbrev L : GSem nD τ sig → Finset Unit := fun _ => ∅
abbrev lv : GSem nD τ sig → Unit → ℕ := fun _ _ => 0
/-- Beside the buffers, through every item: the core's generator register at some state, and the core owing nothing. -/
abbrev R (c : Dev nD) : sProp 𝕄 := iprop((∃ r, prngReg c r) ∗ ∃ W, owes (c : Thread nD τ) (0 : CellTallies nD τ sig Unit) W)

/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps2_fresh' : (hostOps2 : List (HloOp τ sig (Elt F))).Forall fun op => op.fresh = ∅ := by
  simp only [List.Forall]; repeat' constructor
theorem hostOps3_fresh' : (hostOps3 : List (HloOp τ sig (Elt F))).Forall fun op => op.fresh = ∅ := by
  simp only [List.Forall]; repeat' constructor
/-- An unscoped reference of the TensorCore is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without the `owes`: every unscoped buffer at `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- The first region: entered with every unscoped buffer at `W0`, left with them at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (U0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U0 m ρ c) (U1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: from `W1` to `W2`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (U1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U1 m ρ c) (U2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third region: from `W3` to `W4`. Its invariant carries the two accumulators from step to step; what it is
    given at the first step and what it returns after the last are the same as for the other two regions. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (U3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show iprop((∃ r, prngReg c r) ∗ Pipeline.prefHeld (pcfgs (F := F) 2).pre c (fun _ => fullShare) (adm 2).1
          ∗ Pipeline.scopedRest (Pipeline.pin (pcfgs (F := F)) adm 2).spec c) ⊢ Pipeline.ΦA spec2 c from by
      unfold Pipeline.ΦA
      iintro ⟨Hp, -, Hr⟩
      isplitl [Hr]; · iexact Hr
      iexact Hp).trans (hin2 (U3 m ρ) c)
  hout c :=
    (show (pdats m ρ 2 c).Φ (Fin.last _) ⊢ Pipeline.ΦA spec2 c from hout2 (U3 m ρ) c).trans (by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U3 m ρ c) (U4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its five segments, and the run -/

abbrev segs : List (Pipeline.Seg (pcfgs (F := F)) adm (pdats m ρ) () defs₀ 𝒱₀ L lv) :=
  [ .region (reg0 m ρ),
    .region (reg1 m ρ),
    .host (hseg hostOps2 hostOps2_sub hostOps2_fresh' (W2 m ρ)),
    .region (reg2 m ρ),
    .host (hseg hostOps3 hostOps3_sub hostOps3_fresh' (W4 m ρ)) ]

/-- The program is the run of these segments. -/
theorem main_run (c : Dev nD) : main (F := F) c = Pipeline.Seg.run (segs m ρ) := (main_chain c).trans (by chain_rfl)

set_option backward.isDefEq.respectTransparency.types false in
/-- THE RUN. From any memory `m` with every semaphore at zero, every weakly fair execution of the program on the
    TensorCores terminates without a fault, and every final memory holds, at every unscoped buffer of every core, the
    contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩) (run_all m ρ)

end Cert.KernelIdeal.Fr

end
-- ==== Proof.Spec.lean ====
/-
  The quantity both programs compute, as one function of the four argument arrays over the extended reals.

  A row x of either feature matrix is scaled by (max (Σ_k x_k²) ε²)^(-1/2), where ε is the small positive number
  below which a row's Euclidean norm is replaced by ε. The similarity of row i of the first matrix and row j of the
  second is the inner product of the two scaled rows, the first further scaled by the reciprocal 1/T of the temperature.
  The loss of row i is log (max (Σ_{j : label_j = label_i} e^{sim i j}) δ / Σ_j e^{sim i j}), and the result is minus
  the mean of the row losses.

  The constants are exact rationals: ε² is the square of the binary32 number nearest to 10⁻¹², which is 2305843 / 2⁶¹;
  1/T is the reciprocal of the binary32 number nearest to 0.07, which is 9395241 / 2²⁷; δ is the binary32 number
  nearest to 10⁻⁸.
-/
import Idealize.ShloMosaic.PureOps.Ideal

noncomputable section

namespace Cert.Spec

open Idealize.ShloMosaic

/-- ε² = (2305843 / 2⁶¹)². -/
def epsSq : EReal := ((5316911940649 / 5316911983139663491615228241121378304 : ℝ) : EReal)

/-- 1/T = 2²⁷ / 9395241. -/
def invT : EReal := ((134217728 / 9395241 : ℝ) : EReal)

/-- δ, the binary32 number nearest to 10⁻⁸. -/
def epsPos : EReal := Ideal.ofBits .f32 0x322BCC77#32

/-- The binary32 number 1. -/
def one32 : EReal := Ideal.ofBits .f32 0x3F800000#32

/-- The scale of a row: (max (Σ_k x_k²) ε²)^(-1/2). -/
def rowScale (x : Fin 1024 → EReal) : EReal := Ideal.rsqrt (max (∑ k, x k * x k) epsSq)

/-- The similarity of row i of a and row j of b: the inner product of the scaled rows, a's carrying 1/T. -/
def sim (a b : Fin 8192 → Fin 1024 → EReal) (i j : Fin 8192) : EReal :=
  ∑ k, (a i k * (rowScale (a i) * invT)) * (b j k * (rowScale (b j) * one32))

/-- The loss of row i: log of the positives' share of the row's exponentials, the positives' sum kept above δ. -/
def rowLoss (a b : Fin 8192 → Fin 1024 → EReal) (la lb : Fin 8192 → BitVec 32) (i : Fin 8192) : EReal :=
  Ideal.log (Ideal.div (max (∑ j, if la i = lb j then Ideal.exp (sim a b i j) else 0) epsPos)
    (∑ j, Ideal.exp (sim a b i j)))

/-- Minus the mean of 8192 numbers, the sum started from zero. -/
def meanNeg (v : Fin 8192 → EReal) : EReal :=
  -(Ideal.div (Ideal.ofBits .f32 0x00000000#32 + ∑ i, v i) (Ideal.ofBits .f32 0x46000000#32))

/-- The result: minus the mean of the row losses. -/
def loss (a b : Fin 8192 → Fin 1024 → EReal) (la lb : Fin 8192 → BitVec 32) : EReal :=
  meanNeg (rowLoss a b la lb)

end Cert.Spec

end
-- ==== Proof.NormValue.lean ====
import proofs.«171512_j22376779612598_2_alg».proof.Proof.NormFrame
import proofs.«171512_j22376779612598_2_alg».proof.Proof.Spec
import Idealize.ShloMosaic.Lib.Pipeline.Value
import Idealize.ShloMosaic.Lib.ValueIdx
import Idealize.ShloMosaic.PureOps.Ideal.Laws
import Idealize.ShloMosaic.Lib.Tactic

/-!
# The two row-normalizing regions: the arrays they leave behind

Each of the first two regions sweeps an 8192 × 1024 array a in eight blocks of 1024 rows and writes, for every
row r and column k, the entry a r k times the row's scale (max (Σ_k' (a r k')²) ε²)^(-1/2) times a constant
(1/T in the first region, the number one in the second). This file reads the body's stored value at an index,
identifies what each step writes back with a block of that one function of the whole array, and concludes that the
output array ends holding it.
-/

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem
open Idealize.ShloMosaic.Pipeline (Dat)
open Idealize.ShloMosaic.ValueIdx

/-! ## The stored value at an index -/

/-- A column of row sums [1024] viewed as [1024, 1] reads row p at (p, 0). -/
theorem col_cast_apply (v : FVec Ideal S1024 .f32) (p : Fin 1024) (z : Fin 1) :
    shapeCast S1024x1 v shapeCasts_S1024_S1024x1 (ix2 p z) = v (ix1 p) := by
  refine shapeCast_apply v _ (ix2 p z) (ix1 p) ?_
  rw [Shape.rowMajor_val_one, Shape.rowMajor_val_two]
  show p.val = p.val * 1 + z.val
  have := z.isLt
  omega

/-- A column [1024, 1] spread along the rows of [1024, 1024] reads (p, 0) at (p, q). -/
theorem col_spread_apply (v : FVec Ideal S1024x1 .f32) (p q : Fin 1024) :
    broadcastTo S1024x1024 v broadcasts_S1024x1_S1024x1024 (ix2 p q) = v (ix2 p (0 : Fin 1)) := by
  refine broadcastTo_apply v _ (ix2 p q) (ix2 p (0 : Fin 1)) fun a => ?_
  match a with
  | ⟨0, _⟩ => rfl
  | ⟨1, _⟩ => rfl

/-- The sum of squares along a row of a block: the lane reduction at row p. -/
theorem row_sumsq_apply (x : FVec Ideal S1024x1024 .f32) (p : Fin 1024) (hφ : FKind.Formats .f32)
    (hacc : (0x00000000#32 : BitVec 32) = 0x00000000#32) :
    multiReduction (F := Ideal) .add [1] S1024 (mulf x x) 0x00000000#32 reduces_S1024x1024_S1024 hφ hacc (ix1 p)
      = ∑ k : Fin 1024, x (ix2 p k) * x (ix2 p k) := by
  refine (Ideal.multiReduction_add_single (mulf x x) 0x00000000#32 reduces_S1024x1024_S1024 hφ hacc (ix1 p)).trans ?_
  refine Finset.sum_congr rfl fun k _ => ?_
  have e : reduces_S1024x1024_S1024.lift (ix1 p) k = ix2 p k := by
    funext a; apply Fin.ext
    match a with
    | ⟨0, _⟩ => rfl
    | ⟨1, _⟩ => rfl
  rw [e]
  rfl

/-- The two named constants at the ideal values. -/
theorem eps_named : Named.named (F := Ideal) κ "eps_norm_sq" (φ := .f32) 0x179ABE15#32 = Cert.Spec.epsSq :=
  IdealRules.named_const.ideal_named_scalar κ "eps_norm_sq" _ _ rfl

theorem invT_named : Named.named (F := Ideal) κ "inv_temperature" (φ := .f32) 0x41649249#32 = Cert.Spec.invT :=
  IdealRules.named_const.ideal_named_scalar κ "inv_temperature" _ _ rfl

/-- The row of an index of an 8192 × 1024 array. -/
def rowOf (i : S8192x1024.Idx) : Fin 8192 := i 0

theorem rowOf_ix2 (r : Fin 8192) (k : Fin 1024) : rowOf (ix2 r k) = r := rfl

variable (V : (c : Dev nD) → (b : Ref sig .tc) → Buf (Elt Ideal) ((c : Thread nD τ).loc b))

/-! ## Region 0 -/

/-- What region 0's body stores, at row p and column q of its block. -/
theorem scaled0_apply (x : FVec Ideal S1024x1024 .f32) (p q : Fin 1024) :
    k0_pay1 (F := Ideal) x (ix2 p q)
      = x (ix2 p q) * (Cert.Spec.rowScale (fun k => x (ix2 p k)) * Cert.Spec.invT) := by
  unfold k0_pay1
  dsimp only
  -- the rounding to 16 bits is the identity on the extended reals; the product is entrywise
  show x (ix2 p q) * broadcastTo S1024x1024 _ broadcasts_S1024x1_S1024x1024 (ix2 p q) = _
  rw [col_spread_apply]
  show x (ix2 p q) * (Ideal.rsqrt (max (shapeCast S1024x1 _ shapeCasts_S1024_S1024x1 (ix2 p (0 : Fin 1)))
      (Named.named (F := Ideal) κ "eps_norm_sq" (φ := .f32) 0x179ABE15#32))
    * Named.named (F := Ideal) κ "inv_temperature" (φ := .f32) 0x41649249#32) = _
  rw [col_cast_apply, row_sumsq_apply, eps_named, invT_named]
  rfl

/-- The array region 0 leaves: every entry times its row's scale times 1/T. -/
def FA (a : S8192x1024.Idx → EReal) : S8192x1024.Idx → EReal :=
  fun i => a i * (Cert.Spec.rowScale (fun k' => a (ix2 (rowOf i) k')) * Cert.Spec.invT)

theorem FA_apply (a : S8192x1024.Idx → EReal) (r : Fin 8192) (k : Fin 1024) :
    FA a (ix2 r k) = a (ix2 r k) * (Cert.Spec.rowScale (fun k' => a (ix2 r k')) * Cert.Spec.invT) := rfl

/-- If a block holds rows 1024·n … 1024·n + 1023 of the array, the body's stored value is that block of the function. -/
theorem pay0_block (a : S8192x1024.Idx → EReal) (x : FVec Ideal S1024x1024 .f32) (n : Nat) (hn : n < 8)
    (hx : ∀ (p k : Fin 1024), x (ix2 p k) = a (ix2 (⟨n * 1024 + p.val, by omega⟩ : Fin 8192) k)) (p q : Fin 1024) :
    k0_pay1 (F := Ideal) x (ix2 p q) = FA a (ix2 (⟨n * 1024 + p.val, by omega⟩ : Fin 8192) q) := by
  have e : (fun k => x (ix2 p k)) = fun k => a (ix2 (⟨n * 1024 + p.val, by omega⟩ : Fin 8192) k) := funext fun k => hx p k
  rw [scaled0_apply, FA_apply, e, hx p q]

/-- The windows' index maps over the grid: at step t both windows sit at block row t, block column 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What step t writes back is block t of the function of the array the region found. -/
theorem flushed0_eq (c : Dev nD) (t : Fin cfg0.N) :
    (dat0 (F := Ideal) V c).flushed 1 t
      = ((cfg0.win 1).blk t).view.read (Elt Ideal) (FA (V c (Pipeline.arrRef spec0 0))) := by
  show (cfg0.win 1).cut (grid0.coords t) ((dat0 V c).after 1 t) = _
  rw [after0_1, out0_1_eq]
  obtain ⟨e0, e1, e2, e3⟩ := idx_facts0 t
  have hN : grid0.N = 8 := N_0
  have ht : t.val < 8 := hN ▸ t.isLt
  funext j
  obtain ⟨p, q, rfl⟩ : ∃ (p : Fin 1024) (q : Fin 1024), j = ix2 p q := ⟨j 0, j 1, eq_ix2 j⟩
  refine (pay0_block (V c (Pipeline.arrRef spec0 0)) (iblk0 V c 0 t) t.val ht (fun p k => ?_) p q).trans ?_
  · -- the input block at (p, k) is the array at row 1024·t + p
    show V c (Pipeline.arrRef spec0 0) (((cfg0.win 0).blk t).view.emb (ix2 p k)) = _
    refine congrArg _ (funext fun a => Fin.ext ?_)
    match a with
    | ⟨0, _⟩ => show win0_0.index t (0 : Fin 2) * 1024 + 1 * p.val = t.val * 1024 + p.val; rw [e0]; omega
    | ⟨1, _⟩ => show win0_0.index t (1 : Fin 2) * 1024 + 1 * k.val = k.val; rw [e1]; omega
  · -- and the output block's (p, q) sits at the same row of the output array
    show _ = FA (V c (Pipeline.arrRef spec0 0)) (((cfg0.win 1).blk t).view.emb (ix2 p q))
    refine congrArg _ (funext fun a => Fin.ext ?_)
    match a with
    | ⟨0, _⟩ => show t.val * 1024 + p.val = win0_1.index t (0 : Fin 2) * 1024 + 1 * p.val; rw [e2]; omega
    | ⟨1, _⟩ => show q.val = win0_1.index t (1 : Fin 2) * 1024 + 1 * q.val; rw [e3]; omega

/-- An index of the array is in step t's output block iff each coordinate is in the block's range on its axis. -/
theorem mem_blk0 (t : Fin cfg0.N) (i : S8192x1024.Idx) :
    i ∈ ((cfg0.win 1).blk t).view.set ↔ ∀ a : Fin 2, win0_1.index t a * S1024x1024.size a ≤ (i a).val
      ∧ (i a).val < win0_1.index t a * S1024x1024.size a + S1024x1024.size a := by
  show i ∈ ((View.whole main_v0).slice (win0_1.rect t)).set ↔ _
  rw [View.set_slice_whole, Rect.mem_set_unit]
  exact Iff.rfl

/-- Row r of the array is written back by step r / 1024. -/
theorem cover0 (i : S8192x1024.Idx) :
    ∃ t : Fin cfg0.N, (cfg0.win 1).flush t = true ∧ i ∈ ((cfg0.win 1).blk t).view.set := by
  have hi0 : (i 0).val < 8192 := (i 0).isLt
  have hi1 : (i 1).val < 1024 := (i 1).isLt
  have hN : grid0.N = 8 := N_0
  have hlt : (i 0).val / 1024 < grid0.N := by rw [hN]; omega
  refine ⟨⟨(i 0).val / 1024, hlt⟩, flush0_1 _, ?_⟩
  rw [mem_blk0]
  obtain ⟨e0, e1, e2, e3⟩ := idx_facts0 ⟨(i 0).val / 1024, hlt⟩
  intro a
  match a with
  | ⟨0, _⟩ =>
    show win0_1.index ⟨(i 0).val / 1024, hlt⟩ (0 : Fin 2) * 1024 ≤ (i 0).val
      ∧ (i 0).val < win0_1.index ⟨(i 0).val / 1024, hlt⟩ (0 : Fin 2) * 1024 + 1024
    rw [e2]; show (i 0).val / 1024 * 1024 ≤ (i 0).val ∧ (i 0).val < (i 0).val / 1024 * 1024 + 1024; omega
  | ⟨1, _⟩ =>
    show win0_1.index ⟨(i 0).val / 1024, hlt⟩ (1 : Fin 2) * 1024 ≤ (i 1).val
      ∧ (i 1).val < win0_1.index ⟨(i 0).val / 1024, hlt⟩ (1 : Fin 2) * 1024 + 1024
    rw [e3]; omega

/-- The output array of region 0 ends holding that function of the array the region found. -/
theorem final0 (c : Dev nD) :
    (dat0 (F := Ideal) V c).arrAt 1 cfg0.N = FA (V c (Pipeline.arrRef spec0 0)) :=
  (dat0 (F := Ideal) V c).arrAt_eq_of_cover 1 (FA (V c (Pipeline.arrRef spec0 0)))
    (fun t _ => flushed0_eq V c t) cover0

/-! ## Region 1 -/

/-- What region 1's body stores, at row p and column q of its block. -/
theorem scaled1_apply (x : FVec Ideal S1024x1024 .f32) (p q : Fin 1024) :
    k1_pay1 (F := Ideal) x (ix2 p q)
      = x (ix2 p q) * (Cert.Spec.rowScale (fun k => x (ix2 p k)) * Cert.Spec.one32) := by
  unfold k1_pay1
  dsimp only
  -- the rounding to 16 bits is the identity on the extended reals; the product is entrywise
  show x (ix2 p q) * broadcastTo S1024x1024 _ broadcasts_S1024x1_S1024x1024 (ix2 p q) = _
  rw [col_spread_apply]
  show x (ix2 p q) * (Ideal.rsqrt (max (shapeCast S1024x1 _ shapeCasts_S1024_S1024x1 (ix2 p (0 : Fin 1)))
      (Named.named (F := Ideal) κ "eps_norm_sq" (φ := .f32) 0x179ABE15#32))
    * Ideal.ofBits .f32 0x3F800000#32) = _
  rw [col_cast_apply, row_sumsq_apply, eps_named]
  rfl

/-- The array region 1 leaves: every entry times its row's scale times the number one. -/
def FB (a : S8192x1024.Idx → EReal) : S8192x1024.Idx → EReal :=
  fun i => a i * (Cert.Spec.rowScale (fun k' => a (ix2 (rowOf i) k')) * Cert.Spec.one32)

theorem FB_apply (a : S8192x1024.Idx → EReal) (r : Fin 8192) (k : Fin 1024) :
    FB a (ix2 r k) = a (ix2 r k) * (Cert.Spec.rowScale (fun k' => a (ix2 r k')) * Cert.Spec.one32) := rfl

/-- If a block holds rows 1024·n … 1024·n + 1023 of the array, the body's stored value is that block of the function. -/
theorem pay1_block (a : S8192x1024.Idx → EReal) (x : FVec Ideal S1024x1024 .f32) (n : Nat) (hn : n < 8)
    (hx : ∀ (p k : Fin 1024), x (ix2 p k) = a (ix2 (⟨n * 1024 + p.val, by omega⟩ : Fin 8192) k)) (p q : Fin 1024) :
    k1_pay1 (F := Ideal) x (ix2 p q) = FB a (ix2 (⟨n * 1024 + p.val, by omega⟩ : Fin 8192) q) := by
  have e : (fun k => x (ix2 p k)) = fun k => a (ix2 (⟨n * 1024 + p.val, by omega⟩ : Fin 8192) k) := funext fun k => hx p k
  rw [scaled1_apply, FB_apply, e, hx p q]

/-- The windows' index maps over the grid: at step t both windows sit at block row t, block column 0. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- What step t writes back is block t of the function of the array the region found. -/
theorem flushed1_eq (c : Dev nD) (t : Fin cfg1.N) :
    (dat1 (F := Ideal) V c).flushed 1 t
      = ((cfg1.win 1).blk t).view.read (Elt Ideal) (FB (V c (Pipeline.arrRef spec1 0))) := by
  show (cfg1.win 1).cut (grid1.coords t) ((dat1 V c).after 1 t) = _
  rw [after1_1, out1_1_eq]
  obtain ⟨e0, e1, e2, e3⟩ := idx_facts1 t
  have hN : grid1.N = 8 := N_1
  have ht : t.val < 8 := hN ▸ t.isLt
  funext j
  obtain ⟨p, q, rfl⟩ : ∃ (p : Fin 1024) (q : Fin 1024), j = ix2 p q := ⟨j 0, j 1, eq_ix2 j⟩
  refine (pay1_block (V c (Pipeline.arrRef spec1 0)) (iblk1 V c 0 t) t.val ht (fun p k => ?_) p q).trans ?_
  · -- the input block at (p, k) is the array at row 1024·t + p
    show V c (Pipeline.arrRef spec1 0) (((cfg1.win 0).blk t).view.emb (ix2 p k)) = _
    refine congrArg _ (funext fun a => Fin.ext ?_)
    match a with
    | ⟨0, _⟩ => show win1_0.index t (0 : Fin 2) * 1024 + 1 * p.val = t.val * 1024 + p.val; rw [e0]; omega
    | ⟨1, _⟩ => show win1_0.index t (1 : Fin 2) * 1024 + 1 * k.val = k.val; rw [e1]; omega
  · -- and the output block's (p, q) sits at the same row of the output array
    show _ = FB (V c (Pipeline.arrRef spec1 0)) (((cfg1.win 1).blk t).view.emb (ix2 p q))
    refine congrArg _ (funext fun a => Fin.ext ?_)
    match a with
    | ⟨0, _⟩ => show t.val * 1024 + p.val = win1_1.index t (0 : Fin 2) * 1024 + 1 * p.val; rw [e2]; omega
    | ⟨1, _⟩ => show q.val = win1_1.index t (1 : Fin 2) * 1024 + 1 * q.val; rw [e3]; omega

/-- An index of the array is in step t's output block iff each coordinate is in the block's range on its axis. -/
theorem mem_blk1 (t : Fin cfg1.N) (i : S8192x1024.Idx) :
    i ∈ ((cfg1.win 1).blk t).view.set ↔ ∀ a : Fin 2, win1_1.index t a * S1024x1024.size a ≤ (i a).val
      ∧ (i a).val < win1_1.index t a * S1024x1024.size a + S1024x1024.size a := by
  show i ∈ ((View.whole main_v1).slice (win1_1.rect t)).set ↔ _
  rw [View.set_slice_whole, Rect.mem_set_unit]
  exact Iff.rfl

/-- Row r of the array is written back by step r / 1024. -/
theorem cover1 (i : S8192x1024.Idx) :
    ∃ t : Fin cfg1.N, (cfg1.win 1).flush t = true ∧ i ∈ ((cfg1.win 1).blk t).view.set := by
  have hi0 : (i 0).val < 8192 := (i 0).isLt
  have hi1 : (i 1).val < 1024 := (i 1).isLt
  have hN : grid1.N = 8 := N_1
  have hlt : (i 0).val / 1024 < grid1.N := by rw [hN]; omega
  refine ⟨⟨(i 0).val / 1024, hlt⟩, flush1_1 _, ?_⟩
  rw [mem_blk1]
  obtain ⟨e0, e1, e2, e3⟩ := idx_facts1 ⟨(i 0).val / 1024, hlt⟩
  intro a
  match a with
  | ⟨0, _⟩ =>
    show win1_1.index ⟨(i 0).val / 1024, hlt⟩ (0 : Fin 2) * 1024 ≤ (i 0).val
      ∧ (i 0).val < win1_1.index ⟨(i 0).val / 1024, hlt⟩ (0 : Fin 2) * 1024 + 1024
    rw [e2]; show (i 0).val / 1024 * 1024 ≤ (i 0).val ∧ (i 0).val < (i 0).val / 1024 * 1024 + 1024; omega
  | ⟨1, _⟩ =>
    show win1_1.index ⟨(i 0).val / 1024, hlt⟩ (1 : Fin 2) * 1024 ≤ (i 1).val
      ∧ (i 1).val < win1_1.index ⟨(i 0).val / 1024, hlt⟩ (1 : Fin 2) * 1024 + 1024
    rw [e3]; omega

/-- The output array of region 1 ends holding that function of the array the region found. -/
theorem final1 (c : Dev nD) :
    (dat1 (F := Ideal) V c).arrAt 1 cfg1.N = FB (V c (Pipeline.arrRef spec1 0)) :=
  (dat1 (F := Ideal) V c).arrAt_eq_of_cover 1 (FB (V c (Pipeline.arrRef spec1 0)))
    (fun t _ => flushed1_eq V c t) cover1

end Cert.KernelIdeal.Val

end
-- ==== Proof.MatmulPay.lean ====
import proofs.«171512_j22376779612598_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

/-!
# The matmul region's payloads read at an index, at the ideal values

Each pure value the third kernel function stores, read at one index as an expression over the
elements of the values it was computed from: the exponentiated Gram entry
`exp (∑ k, a p k * b q k)`; its masked and unmasked sums over the eight lane groups of a key
block, added onto an accumulator; the final `log (max (∑ pos) ε / ∑ neg)`; and the zero start
values.
-/

noncomputable section

namespace Cert.KernelIdeal.Val

open Cert.KernelIdeal Cert.KernelIdeal.Gen Idealize.ShloMosaic Idealize.ShloMosaic.ValueIdx

/-- On its kept axis the left operand of the Gram product reads the output's row. -/
theorem gram_lhs0 (j : S1024x1024.Idx) (k : dot_S1024x1024_S1024x1024_S1024x1024_1_1_0_0_n_n.contr.Idx) :
    (dot_S1024x1024_S1024x1024_S1024x1024_1_1_0_0_n_n.lhsIdx j k 0).val = (j 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl

/-- On its kept axis the right operand reads the output's column: both operands are contracted along their last axis. -/
theorem gram_rhs0 (j : S1024x1024.Idx) (k : dot_S1024x1024_S1024x1024_S1024x1024_1_1_0_0_n_n.contr.Idx) :
    (dot_S1024x1024_S1024x1024_S1024x1024_1_1_0_0_n_n.rhsIdx j k 0).val = (j 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl

/-- The left operand's index of the Gram product at output `(p, q)` and contraction position `k` is `(p, k)`. -/
theorem gram_lhsIdx (p q k : Fin 1024) :
    dot_S1024x1024_S1024x1024_S1024x1024_1_1_0_0_n_n.lhsIdx (ix2 p q)
      ((contrEquiv1 dot_S1024x1024_S1024x1024_S1024x1024_1_1_0_0_n_n 1024 rfl rfl).symm k) = ix2 p k := by
  have hk := contrEquiv1_symm_val dot_S1024x1024_S1024x1024_S1024x1024_1_1_0_0_n_n 1024 rfl rfl k
  refine funext fun a => Fin.ext ?_
  match a with
  | ⟨0, _⟩ => exact gram_lhs0 _ _
  | ⟨1, _⟩ => exact (dot_S1024x1024_S1024x1024_S1024x1024_1_1_0_0_n_n.lhsIdx_val_of_single rfl _ _).trans hk

/-- The right operand's index there is `(q, k)`. -/
theorem gram_rhsIdx (p q k : Fin 1024) :
    dot_S1024x1024_S1024x1024_S1024x1024_1_1_0_0_n_n.rhsIdx (ix2 p q)
      ((contrEquiv1 dot_S1024x1024_S1024x1024_S1024x1024_1_1_0_0_n_n 1024 rfl rfl).symm k) = ix2 q k := by
  have hk := contrEquiv1_symm_val dot_S1024x1024_S1024x1024_S1024x1024_1_1_0_0_n_n 1024 rfl rfl k
  refine funext fun a => Fin.ext ?_
  match a with
  | ⟨0, _⟩ => exact gram_rhs0 _ _
  | ⟨1, _⟩ => exact (dot_S1024x1024_S1024x1024_S1024x1024_1_1_0_0_n_n.rhsIdx_val_of_single rfl _ _).trans hk

/-- The exponentiated Gram entry: row `p` of the first operand against row `q` of the second
(both operands are contracted along their last axis), accumulated from zero, then `exp`. -/
theorem pay4_apply (fa fb : Vec Ideal S1024x1024 .bf16) (p q : Fin 1024) :
    k2_pay4 (F := Ideal) fa fb (ix2 p q)
      = Ideal.exp (∑ k : Fin 1024, fa (ix2 p k) * fb (ix2 q k)) := by
  unfold k2_pay4
  simp only [shapeCast_self]
  show Ideal.exp (FloatOps.matmul (F := Ideal) dot_S1024x1024_S1024x1024_S1024x1024_1_1_0_0_n_n none fa fb
    (constant (F := Ideal) S1024x1024 .f32 0x00000000#32) (ix2 p q)) = _
  refine congrArg Ideal.exp ?_
  rw [Ideal.matmul_constant_zero_apply,
    ← Equiv.sum_comp (contrEquiv1 dot_S1024x1024_S1024x1024_S1024x1024_1_1_0_0_n_n 1024 rfl rfl).symm]
  refine Finset.sum_congr rfl fun k _ => ?_
  rw [gram_lhsIdx, gram_rhsIdx]

/-- The row-major reshape `[1024, 1024] → [1024, 8, 128]`, read at lane `l` of lane group `g` of row `p`, is the
matrix at column `g · 128 + l` of that row. -/
theorem laneGroup_cast {α : Type} (x : S1024x1024.Idx → α) (p : Fin 1024) (l : Fin 128) (g : Fin 8) :
    shapeCast S1024x8x128 x shapeCasts_S1024x1024_S1024x8x128
        (reduces_S1024x8x128_S1024x128.lift (ix2 p l) g)
      = x (ix2 p (⟨g.val * 128 + l.val, by omega⟩ : Fin 1024)) := by
  refine shapeCast_apply x _ _ _ ?_
  rw [Shape.rowMajor_val_two, Shape.rowMajor_val_three]
  show p.val * 1024 + (g.val * 128 + l.val) = (p.val * 8 + g.val) * 128 + l.val
  omega

/-- The sum over the eight lane groups of the reshaped matrix, at `(p, l)`. -/
theorem laneGroup_sum (x : FVec Ideal S1024x1024 .f32) (p : Fin 1024) (l : Fin 128) :
    multiReduction (F := Ideal) .add [1] S1024x128
        (shapeCast S1024x8x128 x shapeCasts_S1024x1024_S1024x8x128) 0x00000000#32
        reduces_S1024x8x128_S1024x128 (.inl rfl) rfl (ix2 p l)
      = ∑ g : Fin 8, x (ix2 p (⟨g.val * 128 + l.val, by omega⟩ : Fin 1024)) := by
  refine (Ideal.multiReduction_add_single _ _ reduces_S1024x8x128_S1024x128 _ _ (ix2 p l)).trans ?_
  exact Finset.sum_congr rfl fun g _ => laneGroup_cast x p l g

/-- The column of row labels broadcast along the rows reads row `p`'s label everywhere in that row. -/
theorem rowLabel_bcast (la : IVec S1024x1 32) (p q : Fin 1024) :
    broadcastTo S1024x1024 la broadcasts_S1024x1_S1024x1024 (ix2 p q) = la (ix2 p 0) :=
  broadcastTo_apply la _ (ix2 p q) (ix2 p 0) fun a => match a with
    | ⟨0, _⟩ => rfl
    | ⟨1, _⟩ => rfl

/-- The row of column labels broadcast down the columns reads column `q`'s label everywhere in that column. -/
theorem colLabel_bcast (lb : IVec S1x1024 32) (p q : Fin 1024) :
    broadcastTo S1024x1024 lb broadcasts_S1x1024_S1024x1024 (ix2 p q) = lb (ix2 0 q) :=
  broadcastTo_apply lb _ (ix2 p q) (ix2 0 q) fun a => match a with
    | ⟨0, _⟩ => rfl
    | ⟨1, _⟩ => rfl

/-- A select on the one-bit word of an integer equality is the `if` on that equality. -/
theorem select_labelEq {α : Type} (x y : BitVec 32) (A B : α) :
    Scalar.select (IntOp.cmpi .eq x y) A B = if x = y then A else B := by
  unfold Scalar.select
  exact if_congr IntOp.cmpi_eq rfl rfl

/-- The masked accumulation: onto `acc` at `(p, l)` is added the sum, over the eight lane groups
`g`, of the Gram entry at column `g · 128 + l` where the row label equals the column label, and of
zero elsewhere. -/
theorem pay5_apply (fa fb : Vec Ideal S1024x1024 .bf16) (la : Vec Ideal S1024x1 .i32)
    (lb : Vec Ideal S1x1024 .i32) (acc : Vec Ideal S1024x128 .f32) (p : Fin 1024) (l : Fin 128) :
    k2_pay5 (F := Ideal) fa fb la lb acc (ix2 p l)
      = acc (ix2 p l) + ∑ g : Fin 8,
          (if la (ix2 p 0) = lb (ix2 0 (⟨g.val * 128 + l.val, by omega⟩ : Fin 1024))
            then k2_pay4 (F := Ideal) fa fb (ix2 p (⟨g.val * 128 + l.val, by omega⟩ : Fin 1024))
            else 0) := by
  unfold k2_pay5
  simp only [shapeCast_self]
  refine congrArg (acc (ix2 p l) + ·) ?_
  refine (laneGroup_sum _ p l).trans ?_
  refine Finset.sum_congr rfl fun g _ => ?_
  rw [select_apply]
  show Scalar.select (IntOp.cmpi .eq (broadcastTo S1024x1024 la broadcasts_S1024x1_S1024x1024 (ix2 p _))
      (broadcastTo S1024x1024 lb broadcasts_S1x1024_S1024x1024 (ix2 p _))) _ (Ideal.ofBits .f32 0x00000000#32) = _
  rw [rowLabel_bcast, colLabel_bcast, select_labelEq, Ideal.ofBits_zero_f32]

/-- The unmasked accumulation: onto `acc` at `(p, l)` is added the sum over the eight lane groups
`g` of the Gram entry at column `g · 128 + l`. -/
theorem pay6_apply (fa fb : Vec Ideal S1024x1024 .bf16) (acc : Vec Ideal S1024x128 .f32)
    (p : Fin 1024) (l : Fin 128) :
    k2_pay6 (F := Ideal) fa fb acc (ix2 p l)
      = acc (ix2 p l) + ∑ g : Fin 8,
          k2_pay4 (F := Ideal) fa fb (ix2 p (⟨g.val * 128 + l.val, by omega⟩ : Fin 1024)) := by
  unfold k2_pay6
  simp only [shapeCast_self]
  exact congrArg (acc (ix2 p l) + ·) (laneGroup_sum (k2_pay4 (F := Ideal) fa fb) p l)

/-- A vector of `1024` entries viewed as a column reads entry `p` at `(p, 0)`. -/
theorem accColumn_cast {α : Type} (v : S1024.Idx → α) (p : Fin 1024) :
    shapeCast S1024x1 v shapeCasts_S1024_S1024x1 (ix2 p 0) = v (ix1 p) := by
  refine shapeCast_apply v _ _ _ ?_
  rw [Shape.rowMajor_val_one, Shape.rowMajor_val_two]
  show p.val = p.val * 1 + 0
  omega

/-- The sum over the `128` lanes of row `p`. -/
theorem accLane_sum (x : FVec Ideal S1024x128 .f32) (p : Fin 1024) :
    multiReduction (F := Ideal) .add [1] S1024 x 0x00000000#32 reduces_S1024x128_S1024 (.inl rfl) rfl (ix1 p)
      = ∑ l : Fin 128, x (ix2 p l) := by
  refine (Ideal.multiReduction_add_single _ _ reduces_S1024x128_S1024 _ _ (ix1 p)).trans ?_
  refine Finset.sum_congr rfl fun l _ => congrArg x (funext fun a => Fin.ext ?_)
  match a with
  | ⟨0, _⟩ => rfl
  | ⟨1, _⟩ => rfl

/-- The final value of row `p`: the logarithm of the floored lane sum of `pos` over the lane sum
of `neg`. -/
theorem pay1_apply (pos neg : Vec Ideal S1024x128 .f32) (p : Fin 1024) :
    k2_pay1 (F := Ideal) pos neg (ix2 p 0)
      = Ideal.log (Ideal.div
          (max (∑ l : Fin 128, pos (ix2 p l)) (Ideal.ofBits .f32 0x322BCC77#32))
          (∑ l : Fin 128, neg (ix2 p l))) := by
  unfold k2_pay1
  show Ideal.log (Ideal.div
      (max (shapeCast S1024x1 (multiReduction (F := Ideal) .add [1] S1024 pos 0x00000000#32
          reduces_S1024x128_S1024 (.inl rfl) rfl) shapeCasts_S1024_S1024x1 (ix2 p 0))
        (Ideal.ofBits .f32 0x322BCC77#32))
      (shapeCast S1024x1 (multiReduction (F := Ideal) .add [1] S1024 neg 0x00000000#32
          reduces_S1024x128_S1024 (.inl rfl) rfl) shapeCasts_S1024_S1024x1 (ix2 p 0))) = _
  rw [accColumn_cast, accColumn_cast, accLane_sum, accLane_sum]

/-- The first accumulator starts from zero. -/
theorem pay2_apply (p : Fin 1024) (l : Fin 128) : k2_pay2 (F := Ideal) (ix2 p l) = 0 := by
  unfold k2_pay2
  simp only [shapeCast_self]
  exact Ideal.ofBits_zero_f32

/-- The second accumulator starts from zero. -/
theorem pay3_apply (p : Fin 1024) (l : Fin 128) : k2_pay3 (F := Ideal) (ix2 p l) = 0 := by
  unfold k2_pay3
  simp only [shapeCast_self]
  exact Ideal.ofBits_zero_f32

end Cert.KernelIdeal.Val
-- ==== Proof.LibSumBlocks.lean ====
import Idealize.ShloMosaic.PureOps.Ideal

/-!
# Regrouping a sum over 8192 keys, and a left fold of additions as a sum

A key index `j < 8192` is written uniquely as `j = jb · 1024 + g · 128 + l` with a key block
`jb < 8`, a lane group `g < 8` and a lane `l < 128`.  Summing over lanes, then blocks, then groups
therefore visits every key exactly once.  Separately, accumulating `x 0, x 1, …` one after the other
onto a start value `z` yields `z + ∑ x`.
-/

namespace Cert.LibSumBlocks

variable {M : Type*} [AddCommMonoid M]

/-- The bijection `(l, jb, g) ↦ jb · 1024 + g · 128 + l` between lane × key block × lane group and
the 8192 keys; its inverse reads off `l = j mod 128`, `jb = j / 1024`, `g = (j / 128) mod 8`. -/
def lanesBlocksGroupsEquiv : Fin 128 × Fin 8 × Fin 8 ≃ Fin 8192 where
  toFun x := ⟨x.2.1.val * 1024 + x.2.2.val * 128 + x.1.val, by omega⟩
  invFun j := (⟨j.val % 128, by omega⟩, ⟨j.val / 1024, by omega⟩, ⟨j.val / 128 % 8, by omega⟩)
  left_inv := by
    rintro ⟨⟨l, hl⟩, ⟨jb, hjb⟩, ⟨g, hg⟩⟩
    simp only [Prod.mk.injEq, Fin.mk.injEq]
    refine ⟨by omega, by omega, by omega⟩
  right_inv := by
    rintro ⟨j, hj⟩
    simp only [Fin.mk.injEq]
    omega

/-- A sum over 8192 keys taken as 128 lanes × 8 key blocks × 8 lane groups: every key
`j = jb · 1024 + g · 128 + l` occurs exactly once. -/
theorem sum_lanes_blocks_groups (f : Fin 8192 → M) :
    ∑ l : Fin 128, ∑ jb : Fin 8, ∑ g : Fin 8,
        f ⟨jb.val * 1024 + g.val * 128 + l.val, by omega⟩ = ∑ j, f j := by
  rw [← Equiv.sum_comp lanesBlocksGroupsEquiv f]
  simp only [Fintype.sum_prod_type]
  rfl

/-- Adding `x 0, x 1, …, x (n-1)` in turn onto a start value `z` gives `z + ∑ x`. -/
theorem fold_add_eq_sum {n : ℕ} (z : M) (x : Fin n → M) :
    (List.finRange n).foldl (fun acc jb => acc + x jb) z = z + ∑ jb, x jb := by
  induction n generalizing z with
  | zero => simp
  | succ n ih =>
    rw [List.finRange_succ, List.foldl_cons, List.foldl_map, ih, Fin.sum_univ_succ, add_assoc]

/-- The same as a recursion on the step count: if `acc 0 = z` and each step adds the next term,
`acc (k+1) = acc k + x k`, then after `n` steps `acc n = z + ∑ x`. -/
theorem rec_add_eq_sum {n : ℕ} (z : M) (x : Fin n → M) (acc : ℕ → M) (h0 : acc 0 = z)
    (hs : ∀ (k : ℕ) (hk : k < n), acc (k + 1) = acc k + x ⟨k, hk⟩) :
    acc n = z + ∑ k, x k := by
  induction n with
  | zero => simpa using h0
  | succ n ih =>
    have h := ih (fun k => x k.castSucc) (fun k hk => hs k (Nat.lt_succ_of_lt hk))
    rw [hs n (Nat.lt_succ_self n), h, Fin.sum_univ_castSucc, add_assoc]
    rfl

end Cert.LibSumBlocks
-- ==== Proof.MatmulValue.lean ====
import proofs.«171512_j22376779612598_2_alg».proof.Proof.MatmulDefs
import proofs.«171512_j22376779612598_2_alg».proof.Proof.MatmulPay
import proofs.«171512_j22376779612598_2_alg».proof.Proof.LibSumBlocks
import Idealize.ShloMosaic.Lib.Pipeline.Value
import Idealize.ShloMosaic.Lib.ValueIdx

/-!
# What the matmul region leaves in its output array

The region's grid is 8 × 8: point `t` works on query block `t / 8` (1024 rows) against key block `t % 8`
(1024 keys). Over the eight key blocks of one query block the two accumulators collect, lane by lane, the masked and
the unmasked sums of `exp (⟨a_r, b_j⟩)`; the key `j = jb · 1024 + g · 128 + l` is added into lane `l` at key block
`jb`. At the last key block the lanes are summed, so row `r` of the output is
`log (max (∑_{j : label_j = label_r} exp ⟨a_r, b_j⟩) δ / ∑_j exp ⟨a_r, b_j⟩)`, a sum over all 8192 keys.
-/

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-! ## The grid and the windows' index maps -/

theorem N2 : cfg2.N = 64 := by decide +kernel

/-- The row-label window follows the query block. -/
theorem idx2_0 : ∀ t : Fin cfg2.N, win2_0.index t 0 = t.val / 8 ∧ win2_0.index t 1 = 0 := (by decide +kernel : ∀ t : Fin grid2.N, _)
/-- The key-label window follows the key block. -/
theorem idx2_1 : ∀ t : Fin cfg2.N, win2_1.index t 0 = 0 ∧ win2_1.index t 1 = t.val % 8 := (by decide +kernel : ∀ t : Fin grid2.N, _)
/-- The query rows follow the query block. -/
theorem idx2_2 : ∀ t : Fin cfg2.N, win2_2.index t 0 = t.val / 8 ∧ win2_2.index t 1 = 0 := (by decide +kernel : ∀ t : Fin grid2.N, _)
/-- The key rows follow the key block. -/
theorem idx2_3 : ∀ t : Fin cfg2.N, win2_3.index t 0 = t.val % 8 ∧ win2_3.index t 1 = 0 := (by decide +kernel : ∀ t : Fin grid2.N, _)
/-- The output rows follow the query block. -/
theorem idx2_4 : ∀ t : Fin cfg2.N, win2_4.index t 0 = t.val / 8 ∧ win2_4.index t 1 = 0 := (by decide +kernel : ∀ t : Fin grid2.N, _)

/-! ## The blocks, read where they lie in their arrays -/

/-- Row `p` of the row-label block at `t` is row `t / 8 · 1024 + p` of the label column. -/
theorem blk2_0 (c : Dev nD) (t : Fin cfg2.N) (p : Fin 1024) (h : t.val / 8 * 1024 + p.val < 8192) :
    (iblk2 V c 0 t : Vec Ideal S1024x1 .i32) (ix2 p 0)
      = (V c main_v2 : Vec Ideal S8192x1 .i32) (ix2 ⟨t.val / 8 * 1024 + p.val, h⟩ 0) := by
  unfold iblk2
  rw [View.read_apply]
  show V c main_v2 _ = V c main_v2 _
  congr 1
  funext a
  apply Fin.ext
  match a with
  | ⟨0, _⟩ => show win2_0.index t 0 * 1024 + 1 * p.val = t.val / 8 * 1024 + p.val; rw [(idx2_0 t).1]; omega
  | ⟨1, _⟩ => show win2_0.index t 1 * 1 + 1 * 0 = 0; rw [(idx2_0 t).2]

/-- Entry `q` of the key-label block at `t` is entry `t % 8 · 1024 + q` of the label row. -/
theorem blk2_1 (c : Dev nD) (t : Fin cfg2.N) (q : Fin 1024) (h : t.val % 8 * 1024 + q.val < 8192) :
    (iblk2 V c 1 t : Vec Ideal S1x1024 .i32) (ix2 0 q)
      = (V c main_v3 : Vec Ideal S1x8192 .i32) (ix2 0 ⟨t.val % 8 * 1024 + q.val, h⟩) := by
  unfold iblk2
  rw [View.read_apply]
  show V c main_v3 _ = V c main_v3 _
  congr 1
  funext a
  apply Fin.ext
  match a with
  | ⟨0, _⟩ => show win2_1.index t 0 * 1 + 1 * 0 = 0; rw [(idx2_1 t).1]
  | ⟨1, _⟩ => show win2_1.index t 1 * 1024 + 1 * q.val = t.val % 8 * 1024 + q.val; rw [(idx2_1 t).2]; omega

/-- Row `p` of the query block at `t` is row `t / 8 · 1024 + p` of the scaled first matrix. -/
theorem blk2_2 (c : Dev nD) (t : Fin cfg2.N) (p k : Fin 1024) (h : t.val / 8 * 1024 + p.val < 8192) :
    (iblk2 V c 2 t : Vec Ideal S1024x1024 .bf16) (ix2 p k)
      = (V c main_v0 : Vec Ideal S8192x1024 .bf16) (ix2 ⟨t.val / 8 * 1024 + p.val, h⟩ k) := by
  unfold iblk2
  rw [View.read_apply]
  show V c main_v0 _ = V c main_v0 _
  congr 1
  funext a
  apply Fin.ext
  match a with
  | ⟨0, _⟩ => show win2_2.index t 0 * 1024 + 1 * p.val = t.val / 8 * 1024 + p.val; rw [(idx2_2 t).1]; omega
  | ⟨1, _⟩ => show win2_2.index t 1 * 1024 + 1 * k.val = k.val; rw [(idx2_2 t).2]; omega

/-- Row `q` of the key block at `t` is row `t % 8 · 1024 + q` of the scaled second matrix. -/
theorem blk2_3 (c : Dev nD) (t : Fin cfg2.N) (q k : Fin 1024) (h : t.val % 8 * 1024 + q.val < 8192) :
    (iblk2 V c 3 t : Vec Ideal S1024x1024 .bf16) (ix2 q k)
      = (V c main_v1 : Vec Ideal S8192x1024 .bf16) (ix2 ⟨t.val % 8 * 1024 + q.val, h⟩ k) := by
  unfold iblk2
  rw [View.read_apply]
  show V c main_v1 _ = V c main_v1 _
  congr 1
  funext a
  apply Fin.ext
  match a with
  | ⟨0, _⟩ => show win2_3.index t 0 * 1024 + 1 * q.val = t.val % 8 * 1024 + q.val; rw [(idx2_3 t).1]; omega
  | ⟨1, _⟩ => show win2_3.index t 1 * 1024 + 1 * k.val = k.val; rw [(idx2_3 t).2]; omega

/-! ## The exponentials of the Gram entries, over the whole arrays -/

/-- `exp ⟨a_r, b_j⟩`: row `r` of the scaled first matrix against row `j` of the scaled second. -/
def gram (fa fb : Vec Ideal S8192x1024 .bf16) (r j : Fin 8192) : EReal :=
  Ideal.exp (∑ k : Fin 1024, fa (ix2 r k) * fb (ix2 j k))

/-- The same where the labels of `r` and `j` agree, zero elsewhere. -/
def gramPos (la : Vec Ideal S8192x1 .i32) (lb : Vec Ideal S1x8192 .i32) (fa fb : Vec Ideal S8192x1024 .bf16) (r j : Fin 8192) : EReal :=
  if la (ix2 r 0) = lb (ix2 0 j) then gram fa fb r j else 0

/-- `gram` at natural-number positions (zero outside the arrays: never read there). -/
def gramN (fa fb : Vec Ideal S8192x1024 .bf16) (r j : ℕ) : EReal :=
  if h : r < 8192 ∧ j < 8192 then gram fa fb ⟨r, h.1⟩ ⟨j, h.2⟩ else 0

/-- `gramPos` at natural-number positions. -/
def gramPosN (la : Vec Ideal S8192x1 .i32) (lb : Vec Ideal S1x8192 .i32) (fa fb : Vec Ideal S8192x1024 .bf16) (r j : ℕ) : EReal :=
  if h : r < 8192 ∧ j < 8192 then gramPos la lb fa fb ⟨r, h.1⟩ ⟨j, h.2⟩ else 0

/-- The four arrays the region reads, as it finds them: the label column, the label row, the two scaled matrices. -/
abbrev aLA (c : Dev nD) : Vec Ideal S8192x1 .i32 := V c main_v2
abbrev aLB (c : Dev nD) : Vec Ideal S1x8192 .i32 := V c main_v3
abbrev aFA (c : Dev nD) : Vec Ideal S8192x1024 .bf16 := V c main_v0
abbrev aFB (c : Dev nD) : Vec Ideal S8192x1024 .bf16 := V c main_v1

/-- The block's Gram entry `(p, q)` at point `t` is the arrays' at `(t / 8 · 1024 + p, t % 8 · 1024 + q)`. -/
theorem pay4_at (c : Dev nD) (t : Fin cfg2.N) (p q : Fin 1024) :
    k2_pay4 (F := Ideal) (iblk2 V c 2 t) (iblk2 V c 3 t) (ix2 p q)
      = gramN (aFA V c) (aFB V c) (t.val / 8 * 1024 + p.val) (t.val % 8 * 1024 + q.val) := by
  have ht : t.val < 64 := N2 ▸ t.isLt
  have h1 : t.val / 8 * 1024 + p.val < 8192 := by omega
  have h2 : t.val % 8 * 1024 + q.val < 8192 := by omega
  refine (pay4_apply (iblk2 V c 2 t) (iblk2 V c 3 t) p q).trans ?_
  unfold gramN
  rw [dif_pos ⟨h1, h2⟩]
  unfold gram
  refine congrArg Ideal.exp (Finset.sum_congr rfl fun k _ => ?_)
  rw [blk2_2 V c t p k h1, blk2_3 V c t q k h2]

/-- One step of the masked accumulator at point `t`: lane `l` of row `p` gains the eight keys
`t % 8 · 1024 + g · 128 + l` whose labels agree with the row's. -/
theorem pay5_at (c : Dev nD) (t : Fin cfg2.N) (acc : Vec Ideal S1024x128 .f32) (p : Fin 1024) (l : Fin 128) :
    k2_pay5 (F := Ideal) (iblk2 V c 2 t) (iblk2 V c 3 t) (iblk2 V c 0 t) (iblk2 V c 1 t) acc (ix2 p l)
      = acc (ix2 p l) + ∑ g ∈ Finset.range 8, gramPosN (aLA V c) (aLB V c) (aFA V c) (aFB V c) (t.val / 8 * 1024 + p.val) (t.val % 8 * 1024 + (g * 128 + l.val)) := by
  have ht : t.val < 64 := N2 ▸ t.isLt
  have h1 : t.val / 8 * 1024 + p.val < 8192 := by omega
  refine (pay5_apply (iblk2 V c 2 t) (iblk2 V c 3 t) (iblk2 V c 0 t) (iblk2 V c 1 t) acc p l).trans ?_
  refine congrArg (acc (ix2 p l) + ·) ?_
  rw [Finset.sum_range]
  refine Finset.sum_congr rfl fun g _ => ?_
  have hg : g.val * 128 + l.val < 1024 := by omega
  have h2 : t.val % 8 * 1024 + (g.val * 128 + l.val) < 8192 := by omega
  rw [pay4_at V c t p ⟨g.val * 128 + l.val, hg⟩, blk2_0 V c t p h1, blk2_1 V c t ⟨g.val * 128 + l.val, hg⟩ h2]
  unfold gramPosN gramN
  rw [dif_pos ⟨h1, h2⟩, dif_pos ⟨h1, h2⟩]
  rfl

/-- One step of the unmasked accumulator at point `t`. -/
theorem pay6_at (c : Dev nD) (t : Fin cfg2.N) (acc : Vec Ideal S1024x128 .f32) (p : Fin 1024) (l : Fin 128) :
    k2_pay6 (F := Ideal) (iblk2 V c 2 t) (iblk2 V c 3 t) acc (ix2 p l)
      = acc (ix2 p l) + ∑ g ∈ Finset.range 8, gramN (aFA V c) (aFB V c) (t.val / 8 * 1024 + p.val) (t.val % 8 * 1024 + (g * 128 + l.val)) := by
  have ht : t.val < 64 := N2 ▸ t.isLt
  refine (pay6_apply (iblk2 V c 2 t) (iblk2 V c 3 t) acc p l).trans ?_
  refine congrArg (acc (ix2 p l) + ·) ?_
  rw [Finset.sum_range]
  refine Finset.sum_congr rfl fun g _ => ?_
  have hg : g.val * 128 + l.val < 1024 := by omega
  exact pay4_at V c t p ⟨g.val * 128 + l.val, hg⟩

/-! ## The accumulators after each point -/

/-- After point `n` the masked accumulator holds, in lane `l` of row `p`, the keys of the key blocks
`0 … n % 8` that fall in that lane. -/
theorem acc0_at (c : Dev nD) : ∀ (n : ℕ) (hn : n < cfg2.N) (p : Fin 1024) (l : Fin 128),
    (outsAt2 V c n hn).2.1 (ix2 p l)
      = ∑ jb ∈ Finset.range (n % 8 + 1), ∑ g ∈ Finset.range 8, gramPosN (aLA V c) (aLB V c) (aFA V c) (aFB V c) (n / 8 * 1024 + p.val) (jb * 1024 + (g * 128 + l.val))
  | 0, hn, p, l => by
    rw [outsAt2_acc0_first V c ⟨0, hn⟩ rfl, pay5_at V c ⟨0, hn⟩ _ p l, pay2_apply, zero_add]
    simp only [Nat.zero_mod, Nat.zero_div, zero_add, Finset.range_one, Finset.sum_singleton, Nat.zero_mul]
  | n + 1, hn, p, l => by
    by_cases h : (n + 1) % 8 = 0
    · rw [outsAt2_acc0_first V c ⟨n + 1, hn⟩ h, pay5_at V c ⟨n + 1, hn⟩ _ p l, pay2_apply, zero_add]
      show ∑ g ∈ Finset.range 8, gramPosN (aLA V c) (aLB V c) (aFA V c) (aFB V c) ((n + 1) / 8 * 1024 + p.val) ((n + 1) % 8 * 1024 + (g * 128 + l.val)) = _
      rw [h]
      simp only [zero_add, Finset.range_one, Finset.sum_singleton, Nat.zero_mul]
    · rw [outsAt2_acc0_next V c ⟨n + 1, hn⟩ h, pay5_at V c ⟨n + 1, hn⟩ _ p l]
      show (outsAt2 V c n _).2.1 (ix2 p l) + ∑ g ∈ Finset.range 8, gramPosN (aLA V c) (aLB V c) (aFA V c) (aFB V c) ((n + 1) / 8 * 1024 + p.val) ((n + 1) % 8 * 1024 + (g * 128 + l.val)) = _
      rw [acc0_at c n (Nat.lt_of_succ_lt hn) p l]
      have e1 : (n + 1) / 8 = n / 8 := by omega
      have e2 : (n + 1) % 8 = n % 8 + 1 := by omega
      rw [e1, e2, Finset.sum_range_succ (n := n % 8 + 1)]

/-- The same for the unmasked accumulator. -/
theorem acc1_at (c : Dev nD) : ∀ (n : ℕ) (hn : n < cfg2.N) (p : Fin 1024) (l : Fin 128),
    (outsAt2 V c n hn).2.2 (ix2 p l)
      = ∑ jb ∈ Finset.range (n % 8 + 1), ∑ g ∈ Finset.range 8, gramN (aFA V c) (aFB V c) (n / 8 * 1024 + p.val) (jb * 1024 + (g * 128 + l.val))
  | 0, hn, p, l => by
    rw [outsAt2_acc1_first V c ⟨0, hn⟩ rfl, pay6_at V c ⟨0, hn⟩ _ p l, pay3_apply, zero_add]
    simp only [Nat.zero_mod, Nat.zero_div, zero_add, Finset.range_one, Finset.sum_singleton, Nat.zero_mul]
  | n + 1, hn, p, l => by
    by_cases h : (n + 1) % 8 = 0
    · rw [outsAt2_acc1_first V c ⟨n + 1, hn⟩ h, pay6_at V c ⟨n + 1, hn⟩ _ p l, pay3_apply, zero_add]
      show ∑ g ∈ Finset.range 8, gramN (aFA V c) (aFB V c) ((n + 1) / 8 * 1024 + p.val) ((n + 1) % 8 * 1024 + (g * 128 + l.val)) = _
      rw [h]
      simp only [zero_add, Finset.range_one, Finset.sum_singleton, Nat.zero_mul]
    · rw [outsAt2_acc1_next V c ⟨n + 1, hn⟩ h, pay6_at V c ⟨n + 1, hn⟩ _ p l]
      show (outsAt2 V c n _).2.2 (ix2 p l) + ∑ g ∈ Finset.range 8, gramN (aFA V c) (aFB V c) ((n + 1) / 8 * 1024 + p.val) ((n + 1) % 8 * 1024 + (g * 128 + l.val)) = _
      rw [acc1_at c n (Nat.lt_of_succ_lt hn) p l]
      have e1 : (n + 1) / 8 = n / 8 := by omega
      have e2 : (n + 1) % 8 = n % 8 + 1 := by omega
      rw [e1, e2, Finset.sum_range_succ (n := n % 8 + 1)]

/-- Summing the lanes of what eight key blocks left: every key of the row, once. -/
theorem lanes_sum (f : ℕ → EReal) (F' : Fin 8192 → EReal) (hf : ∀ j : Fin 8192, f j.val = F' j) :
    ∑ l : Fin 128, ∑ jb ∈ Finset.range 8, ∑ g ∈ Finset.range 8, f (jb * 1024 + (g * 128 + l.val)) = ∑ j, F' j := by
  rw [← Cert.LibSumBlocks.sum_lanes_blocks_groups F']
  refine Finset.sum_congr rfl fun l _ => ?_
  rw [Finset.sum_range]
  refine Finset.sum_congr rfl fun jb _ => ?_
  rw [Finset.sum_range]
  refine Finset.sum_congr rfl fun g _ => ?_
  rw [← hf]
  exact congrArg f (by show _ = jb.val * 1024 + g.val * 128 + l.val; omega)

/-! ## The output -/

/-- Row `r` of the output: the logarithm of the positives' share of the row's exponentials, the positives' sum kept above δ. -/
def rowOut (la : Vec Ideal S8192x1 .i32) (lb : Vec Ideal S1x8192 .i32) (fa fb : Vec Ideal S8192x1024 .bf16) (r : Fin 8192) : EReal :=
  Ideal.log (Ideal.div (max (∑ j, gramPos la lb fa fb r j) (Ideal.ofBits .f32 0x322BCC77#32)) (∑ j, gram fa fb r j))

/-- The output array as one function of the four arrays the region reads. -/
def rowsOut (la : Vec Ideal S8192x1 .i32) (lb : Vec Ideal S1x8192 .i32) (fa fb : Vec Ideal S8192x1024 .bf16) : Vec Ideal S8192x1 .f32 :=
  fun i => rowOut la lb fa fb (i 0)

/-- At the last key block the output block holds, in row `p`, the value of row `t / 8 · 1024 + p`: the lanes of the
two accumulators together hold every key once. -/
theorem out_last (c : Dev nD) (t : Fin cfg2.N) (h7 : t.val % 8 = 7) (j : S1024x1.Idx) (h : t.val / 8 * 1024 + (j 0).val < 8192) :
    (outsAt2 V c t.val t.isLt).1 j = rowOut (aLA V c) (aLB V c) (aFA V c) (aFB V c) ⟨t.val / 8 * 1024 + (j 0).val, h⟩ := by
  obtain ⟨p, z, rfl⟩ : ∃ (p : Fin 1024) (z : Fin 1), j = ix2 p z := ⟨j 0, j 1, eq_ix2 j⟩
  obtain rfl : z = 0 := Subsingleton.elim _ _
  rw [outsAt2_out_last V c t h7]
  refine (pay1_apply _ _ p).trans ?_
  unfold rowOut
  have e0 : ∑ l : Fin 128, (outsAt2 V c t.val t.isLt).2.1 (ix2 p l) = ∑ j, gramPos (aLA V c) (aLB V c) (aFA V c) (aFB V c) ⟨t.val / 8 * 1024 + p.val, h⟩ j := by
    simp only [acc0_at V c t.val t.isLt p]
    rw [h7]
    refine lanes_sum (gramPosN (aLA V c) (aLB V c) (aFA V c) (aFB V c) (t.val / 8 * 1024 + p.val)) _ fun j => ?_
    unfold gramPosN
    rw [dif_pos ⟨h, j.isLt⟩]
  have e1 : ∑ l : Fin 128, (outsAt2 V c t.val t.isLt).2.2 (ix2 p l) = ∑ j, gram (aFA V c) (aFB V c) ⟨t.val / 8 * 1024 + p.val, h⟩ j := by
    simp only [acc1_at V c t.val t.isLt p]
    rw [h7]
    refine lanes_sum (gramN (aFA V c) (aFB V c) (t.val / 8 * 1024 + p.val)) _ fun j => ?_
    unfold gramN
    rw [dif_pos ⟨h, j.isLt⟩]
  rw [e0, e1]

/-- What a point at the last key block writes back is its block of `rowsOut`. -/
theorem flushed2_eq (c : Dev nD) (t : Fin cfg2.N) (hf : (cfg2.win 4).flush t = true) :
    (dat2 V c).flushed 4 t = ((cfg2.win 4).blk t).view.read (Elt Ideal) (rowsOut (aLA V c) (aLB V c) (aFA V c) (aFB V c)) := by
  have h7 : t.val % 8 = 7 := (flush2_4 t).mp hf
  have ht : t.val < 64 := N2 ▸ t.isLt
  show (cfg2.win 4).cut (grid2.coords t) ((dat2 V c).after 4 t) = _
  rw [after2_4]
  funext j
  have hj : (j 0).val < 1024 := (j 0).isLt
  show (outsAt2 V c t.val t.isLt).1 j = rowsOut (aLA V c) (aLB V c) (aFA V c) (aFB V c) (((cfg2.win 4).blk t).view.emb j)
  refine (out_last V c t h7 j (by omega)).trans ?_
  unfold rowsOut
  refine congrArg (rowOut (aLA V c) (aLB V c) (aFA V c) (aFB V c)) (Fin.ext ?_)
  show t.val / 8 * 1024 + (j 0).val = win2_4.index t 0 * 1024 + 1 * (j 0).val
  rw [(idx2_4 t).1]; omega

/-- An index of the output array lies in point `t`'s block iff each coordinate lies in the block's range. -/
theorem mem_blk2_4 (t : Fin cfg2.N) (i : S8192x1.Idx) :
    i ∈ ((cfg2.win 4).blk t).view.set ↔ ∀ a : Fin 2, win2_4.index t a * S1024x1.size a ≤ (i a).val ∧ (i a).val < win2_4.index t a * S1024x1.size a + S1024x1.size a := by
  show i ∈ ((View.whole main_v4).slice (win2_4.rect t)).set ↔ _
  rw [View.set_slice_whole, Rect.mem_set_unit]
  exact Iff.rfl

/-- Row `r` is written back by the point of query block `r / 1024` at the last key block. -/
theorem cover2_4 (i : S8192x1.Idx) : ∃ t : Fin cfg2.N, (cfg2.win 4).flush t = true ∧ i ∈ ((cfg2.win 4).blk t).view.set := by
  have h0 : (i 0).val < 8192 := (i 0).isLt
  have h1 : (i 1).val < 1 := (i 1).isLt
  refine ⟨⟨(i 0).val / 1024 * 8 + 7, by rw [N2]; omega⟩, (flush2_4 _).mpr (by show ((i 0).val / 1024 * 8 + 7) % 8 = 7; omega), ?_⟩
  rw [mem_blk2_4]
  intro a
  match a with
  | ⟨0, _⟩ =>
    show win2_4.index _ 0 * 1024 ≤ (i 0).val ∧ (i 0).val < win2_4.index _ 0 * 1024 + 1024
    rw [(idx2_4 _).1]
    show ((i 0).val / 1024 * 8 + 7) / 8 * 1024 ≤ (i 0).val ∧ (i 0).val < ((i 0).val / 1024 * 8 + 7) / 8 * 1024 + 1024
    omega
  | ⟨1, _⟩ =>
    show win2_4.index _ 1 * 1 ≤ (i 1).val ∧ (i 1).val < win2_4.index _ 1 * 1 + 1
    rw [(idx2_4 _).2]
    omega

/-- The output array after the region: every row at its value. -/
theorem final2 (c : Dev nD) : (dat2 V c).arrAt 4 cfg2.N = rowsOut (aLA V c) (aLB V c) (aFA V c) (aFB V c) :=
  (dat2 V c).arrAt_eq_of_cover 4 (rowsOut (aLA V c) (aLB V c) (aFA V c) (aFB V c)) (flushed2_eq V c) cover2_4

end Cert.KernelIdeal.Val
end
-- ==== Proof.HostReads.lean ====
import proofs.«171512_j22376779612598_2_alg».proof.Proof.Gen.KernelIdeal.Launch
import proofs.«171512_j22376779612598_2_alg».proof.Proof.Spec
import Idealize.ShloMosaic.Lib.StableHlo.Run
import Idealize.ShloMosaic.Lib.IdealHost
import Idealize.ShloMosaic.Lib.ValueIdx
import Idealize.ShloMosaic.Lib.Pipeline.Value
import Idealize.ShloMosaic.PureOps.Ideal.Laws

/-!
# The host operations around the regions, read at an index

Before the third region the two label vectors are reshaped to a column and a row: entry `r` of the vector is entry
`(r, 0)` of the column and `(0, r)` of the row. After it the 8192 row values are summed from zero, divided by 8192 and
negated.
-/

set_option maxRecDepth 16384

noncomputable section

namespace Cert.KernelIdeal.Val

open Cert.KernelIdeal Cert.KernelIdeal.Gen
open Idealize.ShloMosaic Idealize.ShloMosaic.TcCoe Idealize.ShloMosaic.ValueIdx

variable (W : Valuation τ sig (Elt Ideal))

theorem col_eq : (StableHlo.after hostOps2 W (Proc.devRef .tc main_v2) : S8192x1.Idx → BitVec 32)
    = shapeCast S8192x1 (W (Proc.devRef .tc main_arg2) : S8192.Idx → BitVec 32) shapeCasts_S8192_S8192x1 := by
  after_results
  rfl

theorem row_eq : (StableHlo.after hostOps2 W (Proc.devRef .tc main_v3) : S1x8192.Idx → BitVec 32)
    = shapeCast S1x8192 (W (Proc.devRef .tc main_arg3) : S8192.Idx → BitVec 32) shapeCasts_S8192_S1x8192 := by
  after_results
  rfl

/-- Entry `(r, 0)` of the label column is entry `r` of the first label vector. -/
theorem col_at (r : Fin 8192) :
    (StableHlo.after hostOps2 W (Proc.devRef .tc main_v2) : S8192x1.Idx → BitVec 32) (ix2 r 0)
      = (W (Proc.devRef .tc main_arg2) : S8192.Idx → BitVec 32) (ix1 r) :=
  (congrFun (col_eq W) (ix2 r 0)).trans (shapeCast_apply _ _ (ix2 r 0) (ix1 r) (by
    rw [Shape.rowMajor_val_one, Shape.rowMajor_val_two]; show r.val = r.val * 1 + 0; omega))

/-- Entry `(0, j)` of the label row is entry `j` of the second label vector. -/
theorem row_at (j : Fin 8192) :
    (StableHlo.after hostOps2 W (Proc.devRef .tc main_v3) : S1x8192.Idx → BitVec 32) (ix2 0 j)
      = (W (Proc.devRef .tc main_arg3) : S8192.Idx → BitVec 32) (ix1 j) :=
  (congrFun (row_eq W) (ix2 0 j)).trans (shapeCast_apply _ _ (ix2 0 j) (ix1 j) (by
    rw [Shape.rowMajor_val_one, Shape.rowMajor_val_two]; show j.val = 0 * 8192 + j.val; omega))

theorem tail_eq : (StableHlo.after hostOps3 W (Proc.devRef .tc main_v7) : S_.Idx → EReal)
    = Host.negf (Host.divf (Host.reduceAdd (W (Proc.devRef .tc main_v4) : S8192x1.Idx → EReal) (constant (F := Ideal) S_ .f32 0x00000000#32) reducesTo_S8192x1_S_d0_1 h_S_) (constant (F := Ideal) S_ .f32 0x46000000#32)) := by
  after_results

/-- The result is minus the mean of the 8192 row values. -/
theorem tail_at (j : S_.Idx) :
    (StableHlo.after hostOps3 W (Proc.devRef .tc main_v7) : S_.Idx → EReal) j
      = Cert.Spec.meanNeg fun r => (W (Proc.devRef .tc main_v4) : S8192x1.Idx → EReal) (ix2 r 0) := by
  refine (congrFun (tail_eq W) j).trans ?_
  show -(Ideal.div (Host.reduceAdd (W (Proc.devRef .tc main_v4) : S8192x1.Idx → EReal) (constant (F := Ideal) S_ .f32 0x00000000#32) reducesTo_S8192x1_S_d0_1 h_S_ j) (Ideal.ofBits .f32 0x46000000#32)) = _
  rw [hostReduceAdd_apply, Ideal.hostReduceAdd_total _ (fun b => b.elim0), sum_idx2]
  simp only [Fin.sum_univ_one]
  rfl

end Cert.KernelIdeal.Val
end
-- ==== Proof.RowLink.lean ====
import proofs.«171512_j22376779612598_2_alg».proof.Proof.MatmulValue
import proofs.«171512_j22376779612598_2_alg».proof.Proof.Spec

/-!
# The matmul region's output is the specification's row loss

When the two matrices the region reads are the row-scaled feature matrices (the first carrying 1/T) and its label
column and row are the two label vectors, the inner product of two of their rows is the specification's similarity,
so each output row is the specification's row loss.
-/

noncomputable section

namespace Cert.KernelIdeal.Val

open Cert.KernelIdeal Idealize.ShloMosaic Idealize.ShloMosaic.ValueIdx

theorem rowOut_eq_rowLoss (la : Vec Ideal S8192x1 .i32) (lb : Vec Ideal S1x8192 .i32) (fa fb : Vec Ideal S8192x1024 .bf16)
    (a b : Fin 8192 → Fin 1024 → EReal) (l2 l3 : Fin 8192 → BitVec 32)
    (hfa : ∀ r k, fa (ix2 r k) = a r k * (Cert.Spec.rowScale (a r) * Cert.Spec.invT))
    (hfb : ∀ j k, fb (ix2 j k) = b j k * (Cert.Spec.rowScale (b j) * Cert.Spec.one32))
    (hla : ∀ r, la (ix2 r 0) = l2 r) (hlb : ∀ j, lb (ix2 0 j) = l3 j) (r : Fin 8192) :
    rowOut la lb fa fb r = Cert.Spec.rowLoss a b l2 l3 r := by
  have hg : ∀ j, gram fa fb r j = Ideal.exp (Cert.Spec.sim a b r j) := fun j => by
    unfold gram Cert.Spec.sim
    simp only [hfa, hfb]
  unfold rowOut Cert.Spec.rowLoss gramPos Cert.Spec.epsPos
  simp only [hg, hla, hlb]

end Cert.KernelIdeal.Val
end
-- ==== Proof.KernelValue.lean ====
import proofs.«171512_j22376779612598_2_alg».proof.Proof.Segments
import proofs.«171512_j22376779612598_2_alg».proof.Proof.NormValue
import proofs.«171512_j22376779612598_2_alg».proof.Proof.MatmulValue
import proofs.«171512_j22376779612598_2_alg».proof.Proof.HostReads
import proofs.«171512_j22376779612598_2_alg».proof.Proof.RowLink

/-!
# What the program's result is

The third region reads the two row-scaled feature matrices the first two regions wrote and the reshaped label vectors;
its output rows are the specification's row losses of the four ARGUMENT arrays, and the closing host operations make
the result minus their mean.
-/

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem

variable (m : (ℓ : Loc nD τ sig) → Buf (Elt Ideal) ℓ) (ρ : Dev nD → PrngReg)

/-- The first matrix the third region reads is the first feature matrix, each row scaled, carrying 1/T. -/
theorem fa_eq (c : Dev nD) : aFA (U3 m ρ) c = FA (m ((c : Thread nD τ).loc main_arg0)) :=
  calc W3 m ρ c (Proc.devRef .tc main_v0)
    _ = W2 m ρ c (Proc.devRef .tc main_v0) := after2_of m ρ c main_v0 (by decide)
    _ = W1 m ρ c (Proc.devRef .tc main_v0) := W2_of_ne m ρ c main_v0 (by decide)
    _ = (dat0 (U0 m ρ) c).arrAt 1 cfg0.N := W1_arr m ρ c 1
    _ = FA (m ((c : Thread nD τ).loc main_arg0)) := final0 (U0 m ρ) c

/-- The second is the second feature matrix, each row scaled. -/
theorem fb_eq (c : Dev nD) : aFB (U3 m ρ) c = FB (m ((c : Thread nD τ).loc main_arg1)) :=
  calc W3 m ρ c (Proc.devRef .tc main_v1)
    _ = W2 m ρ c (Proc.devRef .tc main_v1) := after2_of m ρ c main_v1 (by decide)
    _ = (dat1 (U1 m ρ) c).arrAt 1 cfg1.N := W2_arr m ρ c 1
    _ = FB (U1 m ρ c main_arg1) := final1 (U1 m ρ) c
    _ = FB (m ((c : Thread nD τ).loc main_arg1)) := congrArg FB (W1_of_ne m ρ c main_arg1 (by decide))

/-- The label vectors are as launched when they are reshaped. -/
theorem l2_eq (c : Dev nD) : W2 m ρ c (Proc.devRef .tc main_arg2) = m ((c : Thread nD τ).loc main_arg2) :=
  (W2_of_ne m ρ c main_arg2 (by decide)).trans (W1_of_ne m ρ c main_arg2 (by decide))
theorem l3_eq (c : Dev nD) : W2 m ρ c (Proc.devRef .tc main_arg3) = m ((c : Thread nD τ).loc main_arg3) :=
  (W2_of_ne m ρ c main_arg3 (by decide)).trans (W1_of_ne m ρ c main_arg3 (by decide))

/-- THE RESULT: minus the mean of the specification's row losses of the four argument arrays. -/
theorem result_at (c : Dev nD) (j : S_.Idx) :
    (W5 m ρ c (Proc.devRef .tc main_v7) : S_.Idx → EReal) j
      = Cert.Spec.loss (fun i k => (m ((c : Thread nD τ).loc main_arg0) : S8192x1024.Idx → EReal) (ix2 i k))
          (fun i k => (m ((c : Thread nD τ).loc main_arg1) : S8192x1024.Idx → EReal) (ix2 i k))
          (fun i => (m ((c : Thread nD τ).loc main_arg2) : S8192.Idx → BitVec 32) (ix1 i))
          (fun i => (m ((c : Thread nD τ).loc main_arg3) : S8192.Idx → BitVec 32) (ix1 i)) := by
  refine (tail_at (W4 m ρ c) j).trans ?_
  unfold Cert.Spec.loss
  refine congrArg Cert.Spec.meanNeg (funext fun r => ?_)
  have e4 : (W4 m ρ c (Proc.devRef .tc main_v4) : S8192x1.Idx → EReal)
      = rowsOut (aLA (U3 m ρ) c) (aLB (U3 m ρ) c) (aFA (U3 m ρ) c) (aFB (U3 m ρ) c) :=
    (W4_arr m ρ c 4).trans (final2 (U3 m ρ) c)
  refine (congrFun e4 (ix2 r 0)).trans ?_
  show rowOut (aLA (U3 m ρ) c) (aLB (U3 m ρ) c) (aFA (U3 m ρ) c) (aFB (U3 m ρ) c) r = _
  refine rowOut_eq_rowLoss _ _ _ _ _ _ _ _ ?_ ?_ ?_ ?_ r
  · intro r k; rw [fa_eq m ρ c]; exact FA_apply _ r k
  · intro r k; rw [fb_eq m ρ c]; exact FB_apply _ r k
  · intro r; exact (col_at (W2 m ρ c) r).trans (congrFun (l2_eq m ρ c) (ix1 r))
  · intro r; exact (row_at (W2 m ρ c) r).trans (congrFun (l3_eq m ρ c) (ix1 r))

/-- The run, read: the result at the specification's loss of the arguments, the arguments unchanged. -/
theorem run : θ_run defs (onTc (τ := τ) (main (F := Ideal))) ⟨m, fun _ => 0, ρ⟩ (fun r => ∀ c : Dev nD,
      r.2.mem ((c.tc : Thread nD τ).loc main_v7) = (fun _ => Cert.Spec.loss
          (fun i k => (m ((c : Thread nD τ).loc main_arg0) : S8192x1024.Idx → EReal) (ix2 i k))
          (fun i k => (m ((c : Thread nD τ).loc main_arg1) : S8192x1024.Idx → EReal) (ix2 i k))
          (fun i => (m ((c : Thread nD τ).loc main_arg2) : S8192.Idx → BitVec 32) (ix1 i))
          (fun i => (m ((c : Thread nD τ).loc main_arg3) : S8192.Idx → BitVec 32) (ix1 i)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v7 (by decide))).trans (funext fun j => result_at m ρ c j),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩) (run_all m ρ)

end Cert.KernelIdeal.Val
end
-- ==== Proof.LibNormBound.lean ====
import Idealize.ShloMosaic.PureOps.Ideal

/-!
# Real-analysis lemmas for floored row normalisation and cosine similarity

For a row `u : Fin n → ℝ` write `‖u‖² = ∑ k, u k * u k`.  Two ways of dividing a row by its
norm floored at `e > 0` agree, because `√(max s e²) = max (√s) e`.  Rows so scaled have squared
Euclidean norm `‖u‖² / max ‖u‖² e² ≤ 1`, so by the Cauchy–Schwarz inequality their inner product
lies in `[-1, 1]`; after a further division by a temperature `T` with `T⁻¹ ≤ 50` it lies in
`[-50, 50]`.
-/

namespace Cert.LibNormBound

variable {n : ℕ}

/-- The sum of squares `∑ k, u k * u k` of a row, each square spelled as a product.  The lemmas
below state it unfolded, so that they rewrite terms in which the sum appears literally. -/
abbrev ss (u : Fin n → ℝ) : ℝ := ∑ k, u k * u k

/-- The square root commutes with flooring: `√(max s e²) = max (√s) e` for `e ≥ 0`, because the
square root is monotone and `√(e · e) = e`. -/
theorem sqrt_max_mul_self (s e : ℝ) (he : 0 ≤ e) :
    Real.sqrt (max s (e * e)) = max (Real.sqrt s) e := by
  have hmono : Monotone Real.sqrt := fun _ _ h => Real.sqrt_le_sqrt h
  rw [hmono.map_max, Real.sqrt_mul_self he]

/-- √(max s e²) = max √s e for s ≥ 0 < e, so the two ways of flooring a norm agree. -/
theorem inv_max_sqrt (s e : ℝ) (hs : 0 ≤ s) (he : 0 < e) :
    (max (Real.sqrt s) e)⁻¹ = (Real.sqrt (max s (e * e)))⁻¹ := by
  rw [sqrt_max_mul_self s e he.le]

/-- A row divided by its floored norm has squared norm at most one:
`∑ (u k / √M)² = (∑ u k²) / M ≤ 1` where `M = max (∑ u k²) e² > 0` dominates `∑ u k²`. -/
theorem scaled_sq_sum_le_one (u : Fin n → ℝ) (e : ℝ) (he : 0 < e) :
    ∑ k, (u k * (Real.sqrt (max (∑ k, u k * u k) (e * e)))⁻¹) ^ 2 ≤ 1 := by
  have hM : 0 < max (∑ k, u k * u k) (e * e) := lt_max_of_lt_right (mul_pos he he)
  have h1 : ∀ k, (u k * (Real.sqrt (max (∑ k, u k * u k) (e * e)))⁻¹) ^ 2
      = (u k * u k) * (max (∑ k, u k * u k) (e * e))⁻¹ := by
    intro k
    rw [mul_pow, inv_pow, Real.sq_sqrt hM.le, sq]
  rw [Finset.sum_congr rfl (fun k _ => h1 k), ← Finset.sum_mul, ← div_eq_mul_inv, div_le_one hM]
  exact le_max_left _ _

/-- Cauchy–Schwarz for rows scaled to norm at most one. -/
theorem abs_scaled_inner_le_one (u v : Fin n → ℝ) (e : ℝ) (he : 0 < e) :
    |∑ k, (u k * (Real.sqrt (max (∑ k, u k * u k) (e * e)))⁻¹)
        * (v k * (Real.sqrt (max (∑ k, v k * v k) (e * e)))⁻¹)| ≤ 1 := by
  rw [← sq_le_one_iff_abs_le_one]
  calc (∑ k, (u k * (Real.sqrt (max (∑ k, u k * u k) (e * e)))⁻¹)
          * (v k * (Real.sqrt (max (∑ k, v k * v k) (e * e)))⁻¹)) ^ 2
      ≤ (∑ k, (u k * (Real.sqrt (max (∑ k, u k * u k) (e * e)))⁻¹) ^ 2)
          * ∑ k, (v k * (Real.sqrt (max (∑ k, v k * v k) (e * e)))⁻¹) ^ 2 :=
        Finset.sum_mul_sq_le_sq_mul_sq _ _ _
    _ ≤ 1 * 1 :=
        mul_le_mul (scaled_sq_sum_le_one u e he) (scaled_sq_sum_le_one v e he)
          (Finset.sum_nonneg (fun _ _ => sq_nonneg _)) zero_le_one
    _ = 1 := one_mul 1

/-- The joint identity: dividing each entry by the floored norm and the inner product by T is
multiplying each entry by the inverse root, the first row's also by T⁻¹. -/
theorem sim_div_eq (a b : Fin n → ℝ) (e T : ℝ) (he : 0 < e) (hT : 0 < T) :
    (∑ k, (a k / max (Real.sqrt (∑ k, a k * a k)) e)
        * (b k / max (Real.sqrt (∑ k, b k * b k)) e)) / T
      = ∑ k, (a k * ((Real.sqrt (max (∑ k, a k * a k) (e * e)))⁻¹ * T⁻¹))
          * (b k * ((Real.sqrt (max (∑ k, b k * b k) (e * e)))⁻¹ * 1)) := by
  have hA : 0 ≤ ∑ k, a k * a k := Finset.sum_nonneg (fun k _ => mul_self_nonneg (a k))
  have hB : 0 ≤ ∑ k, b k * b k := Finset.sum_nonneg (fun k _ => mul_self_nonneg (b k))
  rw [Finset.sum_div]
  refine Finset.sum_congr rfl (fun k _ => ?_)
  rw [div_eq_mul_inv (a k), div_eq_mul_inv (b k), inv_max_sqrt _ e hA he, inv_max_sqrt _ e hB he]
  ring

/-- and that common value lies in [-50, 50] when T⁻¹ ≤ 50. -/
theorem sim_abs_le (a b : Fin n → ℝ) (e T : ℝ) (he : 0 < e) (hT : 0 < T) (hT50 : T⁻¹ ≤ 50) :
    |∑ k, (a k * ((Real.sqrt (max (∑ k, a k * a k) (e * e)))⁻¹ * T⁻¹))
        * (b k * ((Real.sqrt (max (∑ k, b k * b k) (e * e)))⁻¹ * 1))| ≤ 50 := by
  have h : ∑ k, (a k * ((Real.sqrt (max (∑ k, a k * a k) (e * e)))⁻¹ * T⁻¹))
        * (b k * ((Real.sqrt (max (∑ k, b k * b k) (e * e)))⁻¹ * 1))
      = T⁻¹ * ∑ k, (a k * (Real.sqrt (max (∑ k, a k * a k) (e * e)))⁻¹)
          * (b k * (Real.sqrt (max (∑ k, b k * b k) (e * e)))⁻¹) := by
    rw [Finset.mul_sum]
    exact Finset.sum_congr rfl (fun k _ => by ring)
  rw [h, abs_mul, abs_of_pos (inv_pos.mpr hT)]
  calc T⁻¹ * |∑ k, (a k * (Real.sqrt (max (∑ k, a k * a k) (e * e)))⁻¹)
          * (b k * (Real.sqrt (max (∑ k, b k * b k) (e * e)))⁻¹)|
      ≤ 50 * 1 :=
        mul_le_mul hT50 (abs_scaled_inner_le_one a b e he) (abs_nonneg _) (by norm_num)
    _ = 50 := mul_one 50

end Cert.LibNormBound
-- ==== Proof.RefConsts.lean ====
/-
  The binary32 words the reference program spells, as the extended reals they denote. Each pattern is unfolded here
  once: sign, biased exponent and significand are read off the word and the resulting dyadic rational is named.
-/
import Idealize.ShloMosaic.PureOps.Ideal

noncomputable section

namespace Cert.ReferenceIdeal.RefValue

open Idealize.ShloMosaic

/-- The word of +0 denotes 0. -/
theorem ofBits_zero : Ideal.ofBits .f32 0x00000000#32 = 0 := by
  simp [Ideal.ofBits, Ideal.ieee]

/-- The floor ε of a row norm: 9223372 · 2⁻⁶³ = 2305843 / 2⁶¹. -/
theorem ofBits_eps : Ideal.ofBits .f32 0x2B8CBCCC#32 = ((2305843 / 2305843009213693952 : ℝ) : EReal) := by
  simp [Ideal.ofBits, Ideal.ieee, -EReal.coe_mul]; norm_num

/-- The temperature T: 9395241 · 2⁻²⁷. -/
theorem ofBits_temp : Ideal.ofBits .f32 0x3D8F5C29#32 = ((9395241 / 134217728 : ℝ) : EReal) := by
  simp [Ideal.ofBits, Ideal.ieee, -EReal.coe_mul]; norm_num

/-- The lower clipping bound −50. -/
theorem ofBits_neg_fifty : Ideal.ofBits .f32 0xC2480000#32 = ((-50 : ℝ) : EReal) := by
  simp [Ideal.ofBits, Ideal.ieee, -EReal.coe_mul]; norm_num

/-- The upper clipping bound 50. -/
theorem ofBits_fifty : Ideal.ofBits .f32 0x42480000#32 = ((50 : ℝ) : EReal) := by
  simp [Ideal.ofBits, Ideal.ieee, -EReal.coe_mul]; norm_num

/-- The word of 1 denotes 1. -/
theorem ofBits_one : Ideal.ofBits .f32 0x3F800000#32 = ((1 : ℝ) : EReal) := by
  simp [Ideal.ofBits, Ideal.ieee, -EReal.coe_mul]; norm_num

/-- The all-ones exponent with zero significand denotes +∞. -/
theorem ofBits_inf : Ideal.ofBits .f32 0x7F800000#32 = ⊤ := by
  simp [Ideal.ofBits, Ideal.ieee]

end Cert.ReferenceIdeal.RefValue

end
-- ==== Proof.RefSim.lean ====
/-
  The similarity of two rows, in the reference's arrangement and in the specification's.

  For a row u write ‖u‖² = Σ_k u_k². The reference divides each entry by max (√‖u‖²) ε, takes the inner product of two rows
  so scaled, divides by the temperature T and clips the quotient to [-50, 50]. The specification multiplies each entry by
  (max ‖u‖² ε²)^(-1/2), the first row's also by 1/T, and does not clip. On rows of real numbers the two are one real
  number: √(max s ε²) = max (√s) ε for s ≥ 0, and by the Cauchy–Schwarz inequality the quotient has absolute value at
  most 1/T < 50, so that the clip is the identity.
-/
import proofs.«171512_j22376779612598_2_alg».proof.Proof.Spec
import proofs.«171512_j22376779612598_2_alg».proof.Proof.LibNormBound
import proofs.«171512_j22376779612598_2_alg».proof.Proof.RefConsts

noncomputable section

namespace Cert.ReferenceIdeal.RefValue

open Idealize.ShloMosaic

/-! ## Real numbers inside the extended reals -/

/-- The inclusion of the reals commutes with finite sums. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The inclusion of the reals commutes with the maximum. -/
theorem coe_max (a b : ℝ) : ((max a b : ℝ) : EReal) = max (a : EReal) (b : EReal) :=
  EReal.coe_strictMono.monotone.map_max

/-- The inclusion of the reals commutes with the minimum. -/
theorem coe_min (a b : ℝ) : ((min a b : ℝ) : EReal) = min (a : EReal) (b : EReal) :=
  EReal.coe_strictMono.monotone.map_min

/-! ## The two arrangements -/

/-- ε, the floor of a row's norm. -/
def epsR : ℝ := 2305843 / 2305843009213693952

/-- T, the temperature. -/
def tempR : ℝ := 9395241 / 134217728

theorem epsR_pos : 0 < epsR := by unfold epsR; norm_num
theorem tempR_pos : 0 < tempR := by unfold tempR; norm_num
theorem tempR_inv_le : tempR⁻¹ ≤ 50 := by unfold tempR; norm_num

/-- The reference's floored norm of a row: max (√(0 + Σ_k x_k²)) ε. -/
def refNorm (x : Fin 1024 → EReal) : EReal :=
  max (Ideal.sqrt (Ideal.ofBits .f32 0x00000000#32 + ∑ k, x k * x k)) (Ideal.ofBits .f32 0x2B8CBCCC#32)

/-- The reference's clipped similarity of two rows: the inner product of the rows divided by their floored norms,
    divided by T, kept between -50 and 50. -/
def refSim (u v : Fin 1024 → EReal) : EReal :=
  min (Ideal.ofBits .f32 0x42480000#32) (max (Ideal.ofBits .f32 0xC2480000#32)
    (Ideal.div (∑ k, Ideal.div (u k) (refNorm u) * Ideal.div (v k) (refNorm v)) (Ideal.ofBits .f32 0x3D8F5C29#32)))

/-- The common real value: Σ_k (u_k · ((max ‖u‖² ε²)^(-1/2) · T⁻¹)) · (v_k · ((max ‖v‖² ε²)^(-1/2) · 1)). -/
def simR (u v : Fin 1024 → ℝ) : ℝ :=
  ∑ k, (u k * ((Real.sqrt (max (∑ k, u k * u k) (epsR * epsR)))⁻¹ * tempR⁻¹))
    * (v k * ((Real.sqrt (max (∑ k, v k * v k) (epsR * epsR)))⁻¹ * 1))

/-- The floored norm of a real row is the real number max (√‖u‖²) ε. -/
theorem refNorm_coe (u : Fin 1024 → ℝ) :
    refNorm (fun k => (u k : EReal)) = ((max (Real.sqrt (∑ k, u k * u k)) epsR : ℝ) : EReal) := by
  unfold refNorm
  rw [ofBits_zero, zero_add, ofBits_eps]
  simp only [← EReal.coe_mul]
  rw [coe_sum, Ideal.sqrt_coe, if_neg (not_lt.2 (Finset.sum_nonneg fun k _ => mul_self_nonneg (u k))), coe_max]
  rfl

/-- The specification's scale of a real row is the real number (max ‖u‖² ε²)^(-1/2). -/
theorem rowScale_coe (u : Fin 1024 → ℝ) :
    Cert.Spec.rowScale (fun k => (u k : EReal))
      = (((Real.sqrt (max (∑ k, u k * u k) (epsR * epsR)))⁻¹ : ℝ) : EReal) := by
  have he : Cert.Spec.epsSq = ((epsR * epsR : ℝ) : EReal) := by
    unfold Cert.Spec.epsSq epsR; norm_num
  have hpos : 0 < max (∑ k, u k * u k) (epsR * epsR) := lt_max_of_lt_right (mul_pos epsR_pos epsR_pos)
  unfold Cert.Spec.rowScale
  simp only [← EReal.coe_mul]
  rw [coe_sum, he, ← coe_max, Ideal.rsqrt_coe, if_neg (not_lt.2 hpos.le), if_neg hpos.ne']

/-- The reference's clipped similarity of two real rows is the common real value. -/
theorem refSim_coe (u v : Fin 1024 → ℝ) :
    refSim (fun k => (u k : EReal)) (fun k => (v k : EReal)) = ((simR u v : ℝ) : EReal) := by
  have hu : max (Real.sqrt (∑ k, u k * u k)) epsR ≠ 0 := (lt_max_of_lt_right epsR_pos).ne'
  have hv : max (Real.sqrt (∑ k, v k * v k)) epsR ≠ 0 := (lt_max_of_lt_right epsR_pos).ne'
  have hT : tempR ≠ 0 := tempR_pos.ne'
  have hbound : |simR u v| ≤ 50 := Cert.LibNormBound.sim_abs_le u v epsR tempR epsR_pos tempR_pos tempR_inv_le
  unfold refSim
  rw [refNorm_coe, refNorm_coe, ofBits_temp, ofBits_fifty, ofBits_neg_fifty]
  simp only [Ideal.div_coe hu, Ideal.div_coe hv, ← EReal.coe_mul]
  rw [coe_sum, show ((9395241 / 134217728 : ℝ) : EReal) = ((tempR : ℝ) : EReal) from rfl, Ideal.div_coe hT,
    ← EReal.coe_mul, ← coe_max, ← coe_min]
  congr 1
  have hs : (∑ k, u k * (1 / max (Real.sqrt (∑ k, u k * u k)) epsR) * (v k * (1 / max (Real.sqrt (∑ k, v k * v k)) epsR)))
      * (1 / tempR) = simR u v := by
    unfold simR
    rw [← Cert.LibNormBound.sim_div_eq u v epsR tempR epsR_pos tempR_pos]
    simp only [mul_one_div]
  rw [hs, max_eq_right (neg_le_of_abs_le hbound), min_eq_right (le_of_abs_le hbound)]

/-- The specification's similarity of rows i, j of two real matrices is the common real value. -/
theorem specSim_coe (a b : Fin 8192 → Fin 1024 → ℝ) (i j : Fin 8192) :
    Cert.Spec.sim (fun i k => (a i k : EReal)) (fun j k => (b j k : EReal)) i j = ((simR (a i) (b j) : ℝ) : EReal) := by
  have hT : Cert.Spec.invT = ((tempR⁻¹ : ℝ) : EReal) := by
    unfold Cert.Spec.invT tempR; norm_num
  unfold Cert.Spec.sim
  rw [rowScale_coe (a i), rowScale_coe (b j), hT, show Cert.Spec.one32 = ((1 : ℝ) : EReal) from ofBits_one]
  simp only [← EReal.coe_mul]
  rw [coe_sum]
  rfl

/-- On real rows the reference's clipped similarity is the specification's similarity. -/
theorem refSim_eq_sim (a b : Fin 8192 → Fin 1024 → ℝ) (i j : Fin 8192) :
    refSim (fun k => (a i k : EReal)) (fun k => (b j k : EReal))
      = Cert.Spec.sim (fun i k => (a i k : EReal)) (fun j k => (b j k : EReal)) i j := by
  rw [refSim_coe, specSim_coe]

end Cert.ReferenceIdeal.RefValue

end
-- ==== Proof.RefRows.lean ====
/-
  The reference program read row by row. Each stage of the program is read at an index built from its coordinates:
  the floored norm of row p of a feature matrix, the scaled entries, the clipped similarity of rows p and q, its
  exponential, the label mask, the two row sums and the logarithm of their quotient. The outcome: at row p the array of
  row log-ratios holds log (max (Σ_{q : label_q = label_p} e^{s p q}) δ / Σ_q e^{s p q}) with s the reference's clipped
  similarity; on real inputs that is the specification's row loss.
-/
import proofs.«171512_j22376779612598_2_alg».proof.Proof.Gen.ReferenceIdeal.Read
import proofs.«171512_j22376779612598_2_alg».proof.Proof.RefSim

noncomputable section

namespace Cert.ReferenceIdeal.RefValue

open Idealize.ShloMosaic Idealize.ShloMosaic.ValueIdx Cert.ReferenceIdeal Cert.ReferenceIdeal.Gen Cert.ReferenceIdeal.Read

variable (x0 x1 : (⟨S8192x1024, .f32⟩ : BufTy).Contents (Elt Ideal))
variable (l2 l3 : (⟨S8192, .i32⟩ : BufTy).Contents (Elt Ideal))

/-! ## The floored norms -/

/-- The floored norm of row p of the first matrix. -/
theorem norm0_at (p : Fin 8192) (z : Fin 1) :
    val_main_v2 (F := Ideal) x0 (ix2 p z) = refNorm (fun k => x0 (ix2 p k)) := by
  have e : ∀ k : Fin 1024, idx_main_call0_v1 (idx_main_call0_v2 (ix2 p z)) k = ix2 p k := fun k =>
    funext fun a => Fin.ext (by match a with | ⟨0, _⟩ => rfl | ⟨1, _⟩ => rfl)
  rw [val_main_v2_apply, val_main_v0_apply, val_main_call0_v2_apply, val_main_call0_v1_apply, val_main_v1_apply,
    val_main_cst_apply, val_main_call0_cst_apply]
  simp only [val_main_call0_v0_apply, e, Ideal.hostUnary_sqrt_def, Ideal.maximumf_def, Ideal.mulf_def, Ideal.ofBits_def]
  rfl

/-- The floored norm of row q of the second matrix. -/
theorem norm1_at (q : Fin 8192) (z : Fin 1) :
    val_main_v7 (F := Ideal) x1 (ix2 q z) = refNorm (fun k => x1 (ix2 q k)) := by
  have e : ∀ k : Fin 1024, idx_main_call1_v1 (idx_main_call1_v2 (ix2 q z)) k = ix2 q k := fun k =>
    funext fun a => Fin.ext (by match a with | ⟨0, _⟩ => rfl | ⟨1, _⟩ => rfl)
  rw [val_main_v7_apply, val_main_v5_apply, val_main_call1_v2_apply, val_main_call1_v1_apply, val_main_v6_apply,
    val_main_cst_0_apply, val_main_call1_cst_apply]
  simp only [val_main_call1_v0_apply, e, Ideal.hostUnary_sqrt_def, Ideal.maximumf_def, Ideal.mulf_def, Ideal.ofBits_def]
  rfl

/-! ## The scaled entries -/

/-- Entry (p, k) of the first matrix divided by the floored norm of its row. -/
theorem scaled0_at (p : Fin 8192) (k : Fin 1024) :
    val_main_v4 (F := Ideal) x0 (ix2 p k) = Ideal.div (x0 (ix2 p k)) (refNorm (fun k => x0 (ix2 p k))) := by
  have e : idx_main_v3 (ix2 p k) = ix2 p (0 : Fin 1) :=
    funext fun a => Fin.ext (by match a with | ⟨0, _⟩ => rfl | ⟨1, _⟩ => rfl)
  rw [val_main_v4_apply, val_main_v3_apply, e, norm0_at]
  rfl

/-- Entry (q, k) of the second matrix divided by the floored norm of its row. -/
theorem scaled1_at (q : Fin 8192) (k : Fin 1024) :
    val_main_v9 (F := Ideal) x1 (ix2 q k) = Ideal.div (x1 (ix2 q k)) (refNorm (fun k => x1 (ix2 q k))) := by
  have e : idx_main_v8 (ix2 q k) = ix2 q (0 : Fin 1) :=
    funext fun a => Fin.ext (by match a with | ⟨0, _⟩ => rfl | ⟨1, _⟩ => rfl)
  rw [val_main_v9_apply, val_main_v8_apply, e, norm1_at]
  rfl

/-! ## The clipped similarity and its exponential -/

/-- The clipped similarity of row p of the first matrix and row q of the second. -/
theorem sim_at (p q : Fin 8192) :
    val_main_v14 (F := Ideal) x0 x1 (ix2 p q) = refSim (fun k => x0 (ix2 p k)) (fun k => x1 (ix2 q k)) := by
  have el : ∀ k : Fin 1024, lidx_main_v11 (ix2 p q) k = ix2 p k := fun k =>
    funext fun a => Fin.ext (by match a with | ⟨0, _⟩ => rfl | ⟨1, _⟩ => rfl)
  have er : ∀ k : Fin 1024, idx_main_v10 (ridx_main_v11 (ix2 p q) k) = ix2 q k := fun k =>
    funext fun a => Fin.ext (by match a with | ⟨0, _⟩ => rfl | ⟨1, _⟩ => rfl)
  rw [val_main_v14_apply, val_main_call2_v4_apply, val_main_call2_v3_apply, val_main_cst_3_apply,
    val_main_call2_v2_apply, val_main_call2_v1_apply, val_main_call2_v0_apply, val_main_cst_2_apply,
    val_main_v13_apply, val_main_v12_apply, val_main_cst_1_apply, val_main_v11_apply]
  simp only [val_main_v10_apply, el, er, scaled0_at, scaled1_at, Ideal.minimumf_def, Ideal.maximumf_def,
    Ideal.hostDivf_def, Ideal.ofBits_def]
  rfl

/-- Its exponential. -/
theorem exp_at (p q : Fin 8192) :
    val_main_v15 (F := Ideal) x0 x1 (ix2 p q)
      = Ideal.exp (refSim (fun k => x0 (ix2 p k)) (fun k => x1 (ix2 q k))) := by
  rw [val_main_v15_apply, sim_at, Ideal.hostUnary_exp_def]

/-! ## The label mask -/

/-- A one-bit word read as a number is 1 or 0 as the bit is set or not; for the word of an equality test, as the
    equality holds or not. -/
theorem uitofp_cmpi_eq (x y : BitVec 32) :
    FloatOps.uitofp (F := Ideal) .f32 (IntOp.cmpi .eq x y) = if x = y then (1 : EReal) else 0 := by
  by_cases h : x = y
  · subst h; simp [FloatOps.uitofp, IntOp.cmpi]
  · simp [FloatOps.uitofp, IntOp.cmpi, h]

/-- The mask at (p, q): 1 where the labels of row p and row q agree, 0 elsewhere. -/
theorem mask_at (p q : Fin 8192) :
    val_main_v21 (F := Ideal) l2 l3 (ix2 p q) = if l2 (ix1 p) = l3 (ix1 q) then (1 : EReal) else 0 := by
  have e2 : idx_main_v16 (idx_main_v18 (ix2 p q)) = ix1 p :=
    funext fun a => Fin.ext (by match a with | ⟨0, _⟩ => rfl)
  have e3 : idx_main_v17 (idx_main_v19 (ix2 p q)) = ix1 q :=
    funext fun a => Fin.ext (by match a with | ⟨0, _⟩ => rfl)
  rw [val_main_v21_apply, val_main_v20_apply, val_main_v18_apply, val_main_v16_apply, val_main_v19_apply,
    val_main_v17_apply, e2, e3]
  exact uitofp_cmpi_eq _ _

/-- The masked exponential at (p, q). -/
theorem masked_at (p q : Fin 8192) :
    val_main_v22 (F := Ideal) x0 x1 l2 l3 (ix2 p q)
      = if l2 (ix1 p) = l3 (ix1 q) then Ideal.exp (refSim (fun k => x0 (ix2 p k)) (fun k => x1 (ix2 q k))) else 0 := by
  rw [val_main_v22_apply, exp_at, mask_at, Ideal.mulf_def]
  split_ifs
  · exact mul_one _
  · exact mul_zero _

/-! ## The row sums -/

/-- The sum over q of the masked exponentials of row p: the positives' sum. -/
theorem pos_sum_at (p : Fin 8192) :
    val_main_v23 (F := Ideal) x0 x1 l2 l3 (ix1 p)
      = ∑ q : Fin 8192, (if l2 (ix1 p) = l3 (ix1 q)
          then Ideal.exp (refSim (fun k => x0 (ix2 p k)) (fun k => x1 (ix2 q k))) else 0) := by
  have e : ∀ q : Fin 8192, idx_main_v23 (ix1 p) q = ix2 p q := fun q =>
    funext fun a => Fin.ext (by match a with | ⟨0, _⟩ => rfl | ⟨1, _⟩ => rfl)
  rw [val_main_v23_apply, val_main_cst_4_apply, Ideal.ofBits_def, ofBits_zero, zero_add]
  exact Finset.sum_congr rfl fun q _ => by rw [e, masked_at]

/-- The sum over q of all exponentials of row p. -/
theorem all_sum_at (p : Fin 8192) :
    val_main_v25 (F := Ideal) x0 x1 (ix1 p)
      = ∑ q : Fin 8192, Ideal.exp (refSim (fun k => x0 (ix2 p k)) (fun k => x1 (ix2 q k))) := by
  have e : ∀ q : Fin 8192, idx_main_v25 (ix1 p) q = ix2 p q := fun q =>
    funext fun a => Fin.ext (by match a with | ⟨0, _⟩ => rfl | ⟨1, _⟩ => rfl)
  rw [val_main_v25_apply, val_main_cst_5_apply, Ideal.ofBits_def, ofBits_zero, zero_add]
  exact Finset.sum_congr rfl fun q _ => by rw [e, exp_at]

/-! ## The logarithm of the quotient -/

/-- At row p: log (max (Σ_{q : label_q = label_p} e^{s p q}) δ / Σ_q e^{s p q}), s the clipped similarity. -/
theorem rowlog_at (p : Fin 8192) (z : Fin 1) :
    val_main_v30 (F := Ideal) x0 x1 l2 l3 (ix2 p z)
      = Ideal.log (Ideal.div
          (max (∑ q : Fin 8192, (if l2 (ix1 p) = l3 (ix1 q)
              then Ideal.exp (refSim (fun k => x0 (ix2 p k)) (fun k => x1 (ix2 q k))) else 0))
            (Ideal.ofBits .f32 0x322BCC77#32))
          (∑ q : Fin 8192, Ideal.exp (refSim (fun k => x0 (ix2 p k)) (fun k => x1 (ix2 q k))))) := by
  have e4 : idx_main_v24 (ix2 p z) = ix1 p :=
    funext fun a => Fin.ext (by match a with | ⟨0, _⟩ => rfl)
  have e6 : idx_main_v26 (ix2 p z) = ix1 p :=
    funext fun a => Fin.ext (by match a with | ⟨0, _⟩ => rfl)
  rw [val_main_v30_apply, val_main_v29_apply, val_main_v28_apply, val_main_v24_apply, val_main_v26_apply,
    val_main_v27_apply, val_main_cst_6_apply, e4, e6, pos_sum_at, all_sum_at]
  rfl

/-! ## Real inputs: the specification's row loss -/

/-- On matrices of real numbers the row log-ratio at row p is the specification's loss of row p. -/
theorem rowlog_eq_rowLoss (h0 : ∀ i, ∃ r : ℝ, x0 i = (r : EReal)) (h1 : ∀ i, ∃ r : ℝ, x1 i = (r : EReal))
    (p : Fin 8192) (z : Fin 1) :
    val_main_v30 (F := Ideal) x0 x1 l2 l3 (ix2 p z)
      = Cert.Spec.rowLoss (fun i k => x0 (ix2 i k)) (fun j k => x1 (ix2 j k))
          (fun i => l2 (ix1 i)) (fun j => l3 (ix1 j)) p := by
  choose a ha using h0
  choose b hb using h1
  have hsim : ∀ q : Fin 8192, refSim (fun k => x0 (ix2 p k)) (fun k => x1 (ix2 q k))
      = Cert.Spec.sim (fun i k => x0 (ix2 i k)) (fun j k => x1 (ix2 j k)) p q := by
    intro q
    simp only [ha, hb]
    exact refSim_eq_sim (fun i k => a (ix2 i k)) (fun j k => b (ix2 j k)) p q
  rw [rowlog_at]
  unfold Cert.Spec.rowLoss Cert.Spec.epsPos
  simp only [hsim]

end Cert.ReferenceIdeal.RefValue

end
-- ==== Proof.RefFinite.lean ====
/-
  From the precondition to real numbers. The precondition states, for each of the two feature matrices, that every
  entry's absolute value is below +∞ (a conjunction over all entries, and the conjunction of the two). An extended real
  x with max x (−x) < +∞ is neither +∞ nor −∞, hence a real number.
-/
import proofs.«171512_j22376779612598_2_alg».proof.Proof.Gen.Pre_finite_inputs
import proofs.«171512_j22376779612598_2_alg».proof.Proof.RefConsts
import Idealize.ShloMosaic.Lib.ReduceAll
import Idealize.ShloMosaic.Lib.Pipeline.Value
import Idealize.ShloMosaic.Lib.ValueIdx

noncomputable section

namespace Cert.ReferenceIdeal.RefValue

open Idealize.ShloMosaic

/-- The scalar shape has one index. -/
instance : Subsingleton Cert.Pre_finite_inputs.S_.Idx := ⟨fun a b => funext fun d => d.elim0⟩

/-- An extended real whose absolute value compares below +∞ is a real number. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- One matrix: if the conjunction over all entries of "|x| < +∞" holds, every entry is real. -/
theorem finite_of_all (x : (⟨Cert.Pre_finite_inputs.S8192x1024, .f32⟩ : BufTy).Contents (Elt Ideal))
    (init : Cert.Pre_finite_inputs.S_.Idx → BitVec 1)
    (h : Host.reduce IntOp.andi
        (cmpf .olt (Host.absf x)
          (broadcastInDim Cert.Pre_finite_inputs.S8192x1024 ![] Cert.Pre_finite_inputs.Facts.bcast_S_S8192x1024
            (constant (F := Ideal) Cert.Pre_finite_inputs.S_ .f32 0x7F800000#32)))
        init Cert.Pre_finite_inputs.Facts.reducesTo_S8192x1024_S_d0_1 Cert.Pre_finite_inputs.Facts.h_S_ ValueIdx.ix0 = 1#1)
    (i : Cert.Pre_finite_inputs.S8192x1024.Idx) : ∃ r : ℝ, x i = (r : EReal) := by
  have hi := Host.reduce_andi_all _ init _ _ ValueIdx.ix0 h i
  refine real_of_abs_lt_top (x i) ?_
  rw [← ofBits_inf]
  exact hi

theorem finite_of_pre (x0 x1 : (⟨Cert.Pre_finite_inputs.S8192x1024, .f32⟩ : BufTy).Contents (Elt Ideal))
    (l2 l3 : (⟨Cert.Pre_finite_inputs.S8192, .i32⟩ : BufTy).Contents (Elt Ideal))
    (h : Cert.Pre_finite_inputs.fn (F := Ideal) x0 x1 l2 l3 = (fun _ => 1#1)) :
    (∀ i, ∃ r : ℝ, x0 i = (r : EReal)) ∧ (∀ i, ∃ r : ℝ, x1 i = (r : EReal)) := by
  have h' := congrFun h ValueIdx.ix0
  dsimp only [Cert.Pre_finite_inputs.fn] at h'
  obtain ⟨ha, hb⟩ := IntOp.andi_eq_one.1 h'
  exact ⟨fun i => finite_of_all x0 _ ha i, fun i => finite_of_all x1 _ hb i⟩

end Cert.ReferenceIdeal.RefValue

end
-- ==== Proof.RefValue.lean ====
/-
  The reference program's result as the specification's loss.

  The last three stages of the reference add the 8192 row log-ratios to zero, divide by 8192 and negate: minus the mean
  of the row log-ratios. On matrices of real numbers each row log-ratio is the specification's row loss, so the result
  is the specification's loss. The precondition makes the two matrices real.
-/
import proofs.«171512_j22376779612598_2_alg».proof.Proof.RefRows
import proofs.«171512_j22376779612598_2_alg».proof.Proof.RefFinite

noncomputable section

namespace Cert.ReferenceIdeal.RefValue

open Idealize.ShloMosaic Cert.ReferenceIdeal Cert.ReferenceIdeal.Gen Cert.ReferenceIdeal.Read

/-- The precondition read at the reference's argument types (its shapes are the reference's shapes): every entry of
    either feature matrix is a real number. -/
theorem real_of_pre (x0 x1 : (⟨S8192x1024, .f32⟩ : BufTy).Contents (Elt Ideal))
    (l2 l3 : (⟨S8192, .i32⟩ : BufTy).Contents (Elt Ideal))
    (h : Cert.Pre_finite_inputs.fn (F := Ideal) x0 x1 l2 l3 = (fun _ => 1#1)) :
    (∀ i, ∃ r : ℝ, x0 i = (r : EReal)) ∧ (∀ i, ∃ r : ℝ, x1 i = (r : EReal)) :=
  finite_of_pre x0 x1 l2 l3 h

/-- On real feature matrices the reference's result is the specification's loss. -/
theorem result_eq (x0 x1 : (⟨S8192x1024, .f32⟩ : BufTy).Contents (Elt Ideal))
    (l2 l3 : (⟨S8192, .i32⟩ : BufTy).Contents (Elt Ideal))
    (h0 : ∀ i, ∃ r : ℝ, x0 i = (r : EReal)) (h1 : ∀ i, ∃ r : ℝ, x1 i = (r : EReal)) :
    Cert.ReferenceIdeal.Read.val_main_v33 (F := Ideal) x0 x1 l2 l3
      = fun _ => Cert.Spec.loss (fun i k => x0 (ValueIdx.ix2 i k)) (fun j k => x1 (ValueIdx.ix2 j k))
          (fun i => l2 (ValueIdx.ix1 i)) (fun j => l3 (ValueIdx.ix1 j)) := by
  funext i
  rw [val_main_v33_apply, val_main_v32_apply, val_main_v31_apply, val_main_cst_7_apply, val_main_cst_8_apply,
    ValueIdx.sum_idx2]
  simp only [Fin.sum_univ_one, rowlog_eq_rowLoss x0 x1 l2 l3 h0 h1]
  rfl

end Cert.ReferenceIdeal.RefValue

end
-- ==== Proof.lean ====
/-
  The claim: the InfoNCE loss kernel — two row-normalising regions, a blocked matrix product with exponentials, a
  label mask and two lane accumulators carried over the key blocks, then minus the mean — against its array-language
  reference.

  Both idealized programs compute ONE function of the four argument arrays over the extended reals (the module Spec states it): with
  s(x) = (max (Σ_k x_k²) ε²)^(-1/2) the scale of a row, sim i j = Σ_k (a_ik · (s(a_i) · 1/T)) · (b_jk · (s(b_j) · 1)),
  the loss of row i is log (max (Σ_{j : label_j = label_i} e^{sim i j}) δ / Σ_j e^{sim i j}), and the result is minus
  the mean of the row losses. On the kernel's side the first two regions write the scaled rows, the third region's two
  accumulators hold, lane by lane and key block by key block, partial sums that together visit every key once, and the
  closing operations take the mean. On the reference's side a row is divided by max (‖x‖) ε, the inner product divided
  by T and clipped to [-50, 50]: for finite rows 1/max (√ss) ε = (max ss ε²)^(-1/2), the scaled rows have norm at most
  one, so by the Cauchy–Schwarz inequality |sim| ≤ 1/T < 50 and the clip changes nothing. Finiteness of the feature
  matrices is what the precondition gives; the label vectors are compared word by word and need nothing.

  The kernel's two literals ε² and 1/T are read as the exact square of the reference's ε and the exact reciprocal of the
  reference's T (the three `preserves` conjuncts say that these are the values the idealized kernel carries).

  Frames: each kernel program is three pipelined regions joined by host operations; every region's body is run once per
  control case, the third under an invariant that carries the two accumulators from one grid point to the next.
-/
import proofs.«171512_j22376779612598_2_alg».proof.Defs
import proofs.«171512_j22376779612598_2_alg».proof.Proof.Gen.Kernel
import proofs.«171512_j22376779612598_2_alg».proof.Proof.Gen.Kernel.Skeleton
import proofs.«171512_j22376779612598_2_alg».proof.Proof.Gen.Kernel.Launch
import proofs.«171512_j22376779612598_2_alg».proof.Proof.Gen.Kernel.Regions
import proofs.«171512_j22376779612598_2_alg».proof.Proof.Gen.Kernel.Points
import proofs.«171512_j22376779612598_2_alg».proof.Proof.Gen.KernelIdeal
import proofs.«171512_j22376779612598_2_alg».proof.Proof.Gen.KernelIdeal.Skeleton
import proofs.«171512_j22376779612598_2_alg».proof.Proof.Gen.KernelIdeal.Launch
import proofs.«171512_j22376779612598_2_alg».proof.Proof.Gen.KernelIdeal.Regions
import proofs.«171512_j22376779612598_2_alg».proof.Proof.Gen.KernelIdeal.Points
import proofs.«171512_j22376779612598_2_alg».proof.Proof.Gen.ReferenceIdeal
import proofs.«171512_j22376779612598_2_alg».proof.Proof.Gen.ReferenceIdeal.Run
import proofs.«171512_j22376779612598_2_alg».proof.Proof.Gen.ReferenceIdeal.Read
import proofs.«171512_j22376779612598_2_alg».proof.Proof.Gen.Pre_finite_inputs
import proofs.«171512_j22376779612598_2_alg».proof.Proof.KSegments
import proofs.«171512_j22376779612598_2_alg».proof.Proof.KernelValue
import proofs.«171512_j22376779612598_2_alg».proof.Proof.RefValue
import Idealize.ShloMosaic.Adequacy
import Idealize.ShloMosaic.Init

noncomputable section

namespace Cert.Proof

open Idealize.ShloMosaic Idealize.SL.Sem

/-- The word-level kernel runs to the end, faults nowhere and leaves its four argument arrays as launched. -/
theorem frame_k : Cert.frame_Kernel := fun m ρ _ => Cert.Kernel.Fr.frame m ρ

/-- So does the idealized kernel. -/
theorem frame_ki : Cert.frame_KernelIdeal := fun m ρ _ => Cert.KernelIdeal.Fr.frame m ρ

/-- The reference is a straight line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel carries ε² (in both normalising regions) and 1/T as the stated exact rationals. -/
theorem preserves : Cert.preserves_Kernel_KernelIdeal :=
  ⟨IdealRules.named_const.statement Cert.KernelIdeal.κ "eps_norm_sq" .f32 0x179ABE15#32
      ((5316911940649 / 5316911983139663491615228241121378304 : ℝ) : EReal) rfl,
   IdealRules.named_const.statement Cert.KernelIdeal.κ "inv_temperature" .f32 0x41649249#32
      ((134217728 / 9395241 : ℝ) : EReal) rfl,
   IdealRules.named_const.statement Cert.KernelIdeal.κ "eps_norm_sq" .f32 0x179ABE15#32
      ((5316911940649 / 5316911983139663491615228241121378304 : ℝ) : EReal) rfl⟩

/-- From memories agreeing on the four arguments both idealized programs end with the specification's loss of those
    arguments: the kernel by its run read back, the reference by its composed term read index by index, the feature
    matrices being finite. -/
theorem algebraic : Cert.algebraic_KernelIdeal_ReferenceIdeal := by
  intro m ρ m' ρ' hpre hagree
  refine ⟨_, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3⟩ := hagree c
  rw [e0, e1, e2, e3]
  obtain ⟨h0, h1⟩ := Cert.ReferenceIdeal.RefValue.finite_of_pre _ _ _ _ (hpre c)
  exact (Cert.ReferenceIdeal.Read.val_main_v33_eq _ _ _ _).trans
    (Cert.ReferenceIdeal.RefValue.result_eq _ _ _ _ h0 h1)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
